-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S4x4096x64 : Shape := ⟨3, ![4, 4096, 64]⟩
abbrev S64x64 : Shape := ⟨2, ![64, 64]⟩
abbrev S_ : Shape := ⟨0, ![]⟩
abbrev S4096x4096 : Shape := ⟨2, ![4096, 4096]⟩
abbrev S1x4096x4096 : Shape := ⟨3, ![1, 4096, 4096]⟩
abbrev S4x4096 : Shape := ⟨2, ![4, 4096]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S4x4096x64 : S_.BroadcastsInDim S4x4096x64 (![] : Fin 0 → Fin S4x4096x64.rank)
  reducesTo_S4x4096x64_S_d0_1_2 : S4x4096x64.ReducesTo [0, 1, 2] S_
  bcast_S_S64x64 : S_.BroadcastsInDim S64x64 (![] : Fin 0 → Fin S64x64.rank)
  reducesTo_S64x64_S_d0_1 : S64x64.ReducesTo [0, 1] S_
  bcast_S_S4096x4096 : S_.BroadcastsInDim S4096x4096 (![] : Fin 0 → Fin S4096x4096.rank)
  bcast_S4096x4096_S1x4096x4096_1_2 : S4096x4096.BroadcastsInDim S1x4096x4096 (![1, 2] : Fin 2 → Fin S1x4096x4096.rank)
  bcast_S1x4096x4096_S4x4096x4096_0_1_2 : S1x4096x4096.BroadcastsInDim S4x4096x4096 (![0, 1, 2] : Fin 3 → Fin S4x4096x4096.rank)
  reducesTo_S4x4096x4096_S4x4096_d1 : S4x4096x4096.ReducesTo [1] S4x4096
  bcast_S_S4x4096 : S_.BroadcastsInDim S4x4096 (![] : Fin 0 → Fin S4x4096.rank)
  reducesTo_S4x4096_S_d0_1 : S4x4096.ReducesTo [0, 1] S_

variable [Facts]

def fn_part1 {F : FTy → Type} [FloatOps F] (main_arg0 : FVec F S4x4096x4096 .f32) (main_v13 : IVec S_ 1) (main_v14 : IVec S4096x4096 32) (main_v15 : IVec S4096x4096 32) (main_v16 : IVec S4096x4096 32) : IVec S_ 1 :=
  let main_v17 : IVec S4096x4096 32 := addi main_v14 main_v16
  let main_v18 : IVec S4096x4096 1 := cmpi .eq main_v17 main_v15
  let main_v19 : FVec F S4096x4096 .f32 := uitofp .f32 main_v18
  let main_v20 : FVec F S1x4096x4096 .f32 := broadcastInDim S1x4096x4096 ![1, 2] bcast_S4096x4096_S1x4096x4096_1_2 main_v19
  let main_v21 : FVec F S4x4096x4096 .f32 := broadcastInDim S4x4096x4096 ![0, 1, 2] bcast_S1x4096x4096_S4x4096x4096_0_1_2 main_v20
  let main_v22 : FVec F S4x4096x4096 .f32 := addf main_arg0 main_v21
  let main_cst_5 : FVec F S_ .f32 := constant S_ .f32 0x00000000#32
  let main_v23 : FVec F S4x4096 .f32 := (fun x v => Host.reduceAdd x v reducesTo_S4x4096x4096_S4x4096_d1 h_S_) main_v22 main_cst_5
  let main_cst_6 : FVec F S_ .f32 := constant S_ .f32 0x00000000#32
  let main_v24 : FVec F S4x4096 .f32 := broadcastInDim S4x4096 ![] bcast_S_S4x4096 main_cst_6
  let main_v25 : IVec S4x4096 1 := cmpf .ogt main_v23 main_v24
  let main_c_7 : IVec S_ 1 := constantI S_ 1 1#1
  let main_v26 : IVec S_ 1 := (fun x v => Host.reduce IntOp.andi x v reducesTo_S4x4096_S_d0_1 h_S_) main_v25 main_c_7
  let main_v27 : IVec S_ 1 := andi main_v13 main_v26
  main_v27

def fn {F : FTy → Type} [FloatOps F] (main_arg0 : FVec F S4x4096x4096 .f32) (main_arg1 : FVec F S4x4096x64 .f32) (main_arg2 : FVec F S64x64 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S4x4096x64 .f32 := Host.absf main_arg1
  let main_cst_0 : FVec F S_ .f32 := constant S_ .f32 0x7F800000#32
  let main_v5 : FVec F S4x4096x64 .f32 := broadcastInDim S4x4096x64 ![] bcast_S_S4x4096x64 main_cst_0
  let main_v6 : IVec S4x4096x64 1 := cmpf .olt main_v4 main_v5
  let main_c_1 : IVec S_ 1 := constantI S_ 1 1#1
  let main_v7 : IVec S_ 1 := (fun x v => Host.reduce IntOp.andi x v reducesTo_S4x4096x64_S_d0_1_2 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : IVec S4096x4096 32 := iotaInDim S4096x4096 32 0
  let main_v15 : IVec S4096x4096 32 := iotaInDim S4096x4096 32 1
  let main_c_4 : IVec S_ 32 := constantI S_ 32 0#32
  let main_v16 : IVec S4096x4096 32 := broadcastInDim S4096x4096 ![] bcast_S_S4096x4096 main_c_4
  fn_part1 (F := F) main_arg0 main_v13 main_v14 main_v15 main_v16
-- ==== Kernel.lean ====
abbrev S4x4096x4096 : Shape := ⟨3, ![4, 4096, 4096]⟩
abbrev S4x4096x64 : Shape := ⟨3, ![4, 4096, 64]⟩
abbrev S64x64 : Shape := ⟨2, ![64, 64]⟩
abbrev S4x4096 : Shape := ⟨2, ![4, 4096]⟩
abbrev S4x256x4096 : Shape := ⟨3, ![4, 256, 4096]⟩
abbrev S4x512x64 : Shape := ⟨3, ![4, 512, 64]⟩
abbrev S4x512 : Shape := ⟨2, ![4, 512]⟩
abbrev S1x512x64 : Shape := ⟨3, ![1, 512, 64]⟩
abbrev S512x64 : Shape := ⟨2, ![512, 64]⟩
abbrev S1x512 : Shape := ⟨2, ![1, 512]⟩
abbrev S512 : Shape := ⟨1, ![512]⟩
abbrev S512x1 : Shape := ⟨2, ![512, 1]⟩
abbrev S1x2048x2048 : Shape := ⟨3, ![1, 2048, 2048]⟩
abbrev S1x2048x64 : Shape := ⟨3, ![1, 2048, 64]⟩
abbrev S4x2048 : Shape := ⟨2, ![4, 2048]⟩
abbrev S2048x64 : Shape := ⟨2, ![2048, 64]⟩
abbrev S2048x2048 : Shape := ⟨2, ![2048, 2048]⟩
abbrev S1x2048 : Shape := ⟨2, ![1, 2048]⟩
abbrev S2048 : Shape := ⟨1, ![2048]⟩
abbrev S2048x1 : Shape := ⟨2, ![2048, 1]⟩

abbrev nBuf : Space → Nat
  | .hbm => 6
  | .vmem => 22
  | .smem => 0
  | _ => 0

abbrev bufTy : (tb : Table) → Fin (tcTables nBuf tb) → BufTy
  | .hbm, ⟨0, _⟩ => ⟨S4x4096x4096, .f32⟩
  | .hbm, ⟨1, _⟩ => ⟨S4x4096x64, .f32⟩
  | .hbm, ⟨2, _⟩ => ⟨S64x64, .f32⟩
  | .hbm, ⟨3, _⟩ => ⟨S4x4096, .f32⟩
  | .hbm, ⟨4, _⟩ => ⟨S4x4096x64, .f32⟩
  | .hbm, ⟨5, _⟩ => ⟨S4x4096x64, .f32⟩
  | .local _ .vmem, ⟨0, _⟩ => ⟨S4x256x4096, .f32⟩
  | .local _ .vmem, ⟨1, _⟩ => ⟨S4x256x4096, .f32⟩
  | .local _ .vmem, ⟨2, _⟩ => ⟨S4x4096, .f32⟩
  | .local _ .vmem, ⟨3, _⟩ => ⟨S4x4096, .f32⟩
  | .local _ .vmem, ⟨4, _⟩ => ⟨S4x512x64, .f32⟩
  | .local _ .vmem, ⟨5, _⟩ => ⟨S4x512x64, .f32⟩
  | .local _ .vmem, ⟨6, _⟩ => ⟨S64x64, .f32⟩
  | .local _ .vmem, ⟨7, _⟩ => ⟨S4x512, .f32⟩
  | .local _ .vmem, ⟨8, _⟩ => ⟨S4x512, .f32⟩
  | .local _ .vmem, ⟨9, _⟩ => ⟨S4x512x64, .f32⟩
  | .local _ .vmem, ⟨10, _⟩ => ⟨S4x512x64, .f32⟩
  | .local _ .vmem, ⟨11, _⟩ => ⟨S1x2048x2048, .f32⟩
  | .local _ .vmem, ⟨12, _⟩ => ⟨S1x2048x2048, .f32⟩
  | .local _ .vmem, ⟨13, _⟩ => ⟨S1x2048x64, .f32⟩
  | .local _ .vmem, ⟨14, _⟩ => ⟨S1x2048x64, .f32⟩
  | .local _ .vmem, ⟨15, _⟩ => ⟨S1x2048x64, .f32⟩
  | .local _ .vmem, ⟨16, _⟩ => ⟨S1x2048x64, .f32⟩
  | .local _ .vmem, ⟨17, _⟩ => ⟨S4x2048, .f32⟩
  | .local _ .vmem, ⟨18, _⟩ => ⟨S4x2048, .f32⟩
  | .local _ .vmem, ⟨19, _⟩ => ⟨S1x2048x64, .f32⟩
  | .local _ .vmem, ⟨20, _⟩ => ⟨S1x2048x64, .f32⟩
  | .local _ .vmem, ⟨21, _⟩ => ⟨S2048x64, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg3_1 : Ref sig .tc := ⟨.vmem, 18, rfl⟩
abbrev cc2_stg4_0 : Ref sig .tc := ⟨.vmem, 19, rfl⟩
abbrev cc2_stg4_1 : Ref sig .tc := ⟨.vmem, 20, rfl⟩
abbrev cc2_scratch0 : Ref sig .tc := ⟨.vmem, 21, rfl⟩
abbrev cc0_sem0_0 : DmaSem sig := 0
abbrev cc0_sem0_1 : DmaSem sig := 1
abbrev cc0_sem1_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem2_1 : DmaSem sig := 7
abbrev cc1_sem3_0 : DmaSem sig := 8
abbrev cc1_sem3_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc2_sem3_0 : DmaSem sig := 16
abbrev cc2_sem3_1 : DmaSem sig := 17
abbrev cc2_sem4_0 : DmaSem sig := 18
abbrev cc2_sem4_1 : DmaSem sig := 19

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v10 : BitVec 1 := Scalar.cmpi .eq arg0 c15_i32
  let v11 : BitVec 32 := Scalar.extui v10
  let c0_i32_7 : BitVec 32 := 0#32
  let v12 : BitVec 1 := Scalar.cmpi .ne v11 c0_i32_7
  v12

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S4x512x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4x512x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨3, ![4, 2, 2], ![false, false, false]⟩

def k2_cond2 (i : grid2.Coords) : BitVec 1 :=
  let arg2 : BitVec 32 := BitVec.ofNat 32 (i 2).val
  let c1_i32 : BitVec 32 := 1#32
  let v15 : BitVec 1 := Scalar.cmpi .eq arg2 c1_i32
  let v16 : BitVec 32 := Scalar.extui v15
  let c0_i32_10 : BitVec 32 := 0#32
  let v17 : BitVec 1 := Scalar.cmpi .ne v16 c0_i32_10
  v17

def k2_off1 (i : grid2.Coords) : Fin 2 → Nat :=
  let arg0 : BitVec 32 := BitVec.ofNat 32 (i 0).val
  let v18 : Index := Scalar.indexCast arg0
  let c0_11 : Index := 0#32
  ![v18.toNat, 0]
def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_4 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage2_0 : Fin 2 → Memref sig .tc .vmem S1x2048x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, true]

abbrev stage2_1 : Fin 2 → Memref sig .tc .vmem S1x2048x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false, true]

abbrev stage2_2 : Fin 2 → Memref sig .tc .vmem S1x2048x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S4x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true, false]

abbrev stage2_4 : Fin 2 → Memref sig .tc .vmem S1x2048x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true, false]

class Facts₀ : Prop where
  inb_S4x4096_S4x4096_0_0 : ∀ a, (![0, 0] : Fin 2 → Nat) a + S4x4096.size a ≤ S4x4096.size a
  h_S4x4096 : 0 < S4x4096.numel
  shapeCasts_S4x4096_S4x4096 : S4x4096.ShapeCasts S4x4096
  inb_S4x256x4096_S4x256x4096_0_0_0 : ∀ a, (![0, 0, 0] : Fin 3 → Nat) a + S4x256x4096.size a ≤ S4x256x4096.size a
  h_S4x256x4096 : 0 < S4x256x4096.numel
  reduces_S4x256x4096_S4x4096 : S4x256x4096.Reduces [1] S4x4096
  inb_S64x64_S64x64_0_0 : ∀ a, (![0, 0] : Fin 2 → Nat) a + S64x64.size a ≤ S64x64.size a
  h_S64x64 : 0 < S64x64.numel
  bitsLt_bf16_f32 : FTy.bits .bf16 < FTy.bits .f32
  inb_S4x512x64_S1x512x64_0_0_0 : ∀ a, (![0, 0, 0] : Fin 3 → Nat) a + S1x512x64.size a ≤ S4x512x64.size a
  h_S1x512x64 : 0 < S1x512x64.numel
  shapeCasts_S1x512x64_S512x64 : S1x512x64.ShapeCasts S512x64
  inb_S4x512_S1x512_0_0 : ∀ a, (![0, 0] : Fin 2 → Nat) a + S1x512.size a ≤ S4x512.size a
  h_S1x512 : 0 < S1x512.numel
  shapeCasts_S1x512_S512 : S1x512.ShapeCasts S512
  shapeCasts_S512_S512x1 : S512.ShapeCasts S512x1
  broadcasts_S512x1_S512x64 : S512x1.Broadcasts S512x64
  shapeCasts_S512x64_S1x512x64 : S512x64.ShapeCasts S1x512x64
  inb_S4x512x64_S1x512x64_1_0_0 : ∀ a, (![1, 0, 0] : Fin 3 → Nat) a + S1x512x64.size a ≤ S4x512x64.size a
  inb_S4x512_S1x512_1_0 : ∀ a, (![1, 0] : Fin 2 → Nat) a + S1x512.size a ≤ S4x512.size a
  inb_S4x512x64_S1x512x64_2_0_0 : ∀ a, (![2, 0, 0] : Fin 3 → Nat) a + S1x512x64.size a ≤ S4x512x64.size a
  inb_S4x512_S1x512_2_0 : ∀ a, (![2, 0] : Fin 2 → Nat) a + S1x512.size a ≤ S4x512.size a
  inb_S4x512x64_S1x512x64_3_0_0 : ∀ a, (![3, 0, 0] : Fin 3 → Nat) a + S1x512x64.size a ≤ S4x512x64.size a
  inb_S4x512_S1x512_3_0 : ∀ a, (![3, 0] : Fin 2 → Nat) a + S1x512.size a ≤ S4x512.size a
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S1x2048x2048_S1x2048x2048_0_0_0 : ∀ a, (![0, 0, 0] : Fin 3 → Nat) a + S1x2048x2048.size a ≤ S1x2048x2048.size a
  h_S1x2048x2048 : 0 < S1x2048x2048.numel
  shapeCasts_S1x2048x2048_S2048x2048 : S1x2048x2048.ShapeCasts S2048x2048
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  h_S1x2048 : 0 < S1x2048.numel
  shapeCasts_S1x2048_S2048 : S1x2048.ShapeCasts S2048
  shapeCasts_S2048_S2048x1 : S2048.ShapeCasts S2048x1
  broadcasts_S2048x1_S2048x64 : S2048x1.Broadcasts S2048x64
  shapeCasts_S2048x64_S1x2048x64 : S2048x64.ShapeCasts S1x2048x64
  dot_S512x64_S64x64_S512x64_1_0_0_1_n_n_wf : DotDims.WF S512x64 S64x64 S512x64 [1] [0] [0] [1] [] []
  dot_S2048x2048_S2048x64_S2048x64_1_0_0_1_n_n_wf : DotDims.WF S2048x2048 S2048x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x256x4096.size a ≤ S4x4096x4096.size a
  hwx0_0 : ∀ i : grid0.Coords, EltTy.bits .f32 = 32 ∨ (Rect.block (s := S4x4096x4096) S4x256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x4096.size a ≤ S4x4096.size a
  hwx0_1 : ∀ i : grid0.Coords, EltTy.bits .f32 = 32 ∨ (Rect.block (s := S4x4096) S4x4096.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x512x64.size a ≤ S4x4096x64.size a
  hwx1_0 : ∀ i : grid1.Coords, EltTy.bits .f32 = 32 ∨ (Rect.block (s := S4x4096x64) S4x512x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4x512.size a ≤ S4x4096.size a
  hwx1_2 : ∀ i : grid1.Coords, EltTy.bits .f32 = 32 ∨ (Rect.block (s := S4x4096) S4x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4x512x64.size a ≤ S4x4096x64.size a
  hwx1_3 : ∀ i : grid1.Coords, EltTy.bits .f32 = 32 ∨ (Rect.block (s := S4x4096x64) S4x512x64.size (cc1_transform_3 i) (hinb1_3 i)).WholeWords (EltTy.packing .f32)
  hrank2 : 0 < grid2.rank
  k2_off1_inb : ∀ i : grid2.Coords, ∀ (k2_h2 : k2_cond2 i = 1#1), ∀ a, (k2_off1 i) a + S1x2048.size a ≤ S4x2048.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x2048x2048.size a ≤ S4x4096x4096.size a
  hwx2_0 : ∀ i : grid2.Coords, EltTy.bits .f32 = 32 ∨ (Rect.block (s := S4x4096x4096) S1x2048x2048.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x2048x64.size a ≤ S4x4096x64.size a
  hwx2_1 : ∀ i : grid2.Coords, EltTy.bits .f32 = 32 ∨ (Rect.block (s := S4x4096x64) S1x2048x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x2048x64.size a ≤ S4x4096x64.size a
  hwx2_2 : ∀ i : grid2.Coords, EltTy.bits .f32 = 32 ∨ (Rect.block (s := S4x4096x64) S1x2048x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4x2048.size a ≤ S4x4096.size a
  hwx2_3 : ∀ i : grid2.Coords, EltTy.bits .f32 = 32 ∨ (Rect.block (s := S4x4096) S4x2048.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x2048x64.size a ≤ S4x4096x64.size a
  hwx2_4 : ∀ i : grid2.Coords, EltTy.bits .f32 = 32 ∨ (Rect.block (s := S4x4096x64) S1x2048x64.size (cc2_transform_4 i) (hinb2_4 i)).WholeWords (EltTy.packing .f32)

variable [Facts₀]

def dot_S512x64_S64x64_S512x64_1_0_0_1_n_n : DotDims S512x64 S64x64 S512x64 where
  lhsContracting := [1]
  rhsContracting := [0]
  lhsNonContracting := [0]
  rhsNonContracting := [1]
  lhsBatch := []
  rhsBatch := []
  wf := dot_S512x64_S64x64_S512x64_1_0_0_1_n_n_wf
def dot_S2048x2048_S2048x64_S2048x64_1_0_0_1_n_n : DotDims S2048x2048 S2048x64 S2048x64 where
  lhsContracting := [1]
  rhsContracting := [0]
  lhsNonContracting := [0]
  rhsNonContracting := [1]
  lhsBatch := []
  rhsBatch := []
  wf := dot_S2048x2048_S2048x64_S2048x64_1_0_0_1_n_n_wf

abbrev win0_0 : Pipeline.Window sig grid0 :=
  Pipeline.Window.ofSpec (Memref.whole main_arg0) S4x256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4x4096.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_arg1) S4x512x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0) S4x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S4x512x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg0) S1x2048x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S1x2048x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v1) S1x2048x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v0) S4x2048.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v2) S1x2048x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

class Facts : Prop extends Facts₀ where

variable [Facts]
-- ==== ReferenceIdeal.lean ====
abbrev S4x4096x4096 : Shape := ⟨3, ![4, 4096, 4096]⟩
abbrev S4x4096x64 : Shape := ⟨3, ![4, 4096, 64]⟩
abbrev S64x64 : Shape := ⟨2, ![64, 64]⟩
abbrev S4096x4096 : Shape := ⟨2, ![4096, 4096]⟩
abbrev S_ : Shape := ⟨0, ![]⟩
abbrev S1x4096x4096 : Shape := ⟨3, ![1, 4096, 4096]⟩
abbrev S4x4096 : Shape := ⟨2, ![4, 4096]⟩
abbrev S4x4096x1 : Shape := ⟨3, ![4, 4096, 1]⟩
abbrev S4x1x4096 : Shape := ⟨3, ![4, 1, 4096]⟩

abbrev nBuf : Space → Nat
  | .hbm => 24
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4x4096x64, .f32⟩
  | .hbm, ⟨2, _⟩ => ⟨S64x64, .f32⟩
  | .hbm, ⟨3, _⟩ => ⟨S4096x4096, .i32⟩
  | .hbm, ⟨4, _⟩ => ⟨S4096x4096, .i32⟩
  | .hbm, ⟨5, _⟩ => ⟨S_, .i32⟩
  | .hbm, ⟨6, _⟩ => ⟨S4096x4096, .i32⟩
  | .hbm, ⟨7, _⟩ => ⟨S4096x4096, .i32⟩
  | .hbm, ⟨8, _⟩ => ⟨S4096x4096, .i1⟩
  | .hbm, ⟨9, _⟩ => ⟨S4096x4096, .f32⟩
  | .hbm, ⟨10, _⟩ => ⟨S1x4096x4096, .f32⟩
  | .hbm, ⟨11, _⟩ => ⟨S4x4096x4096, .f32⟩
  | .hbm, ⟨12, _⟩ => ⟨S4x4096x4096, .f32⟩
  | .hbm, ⟨13, _⟩ => ⟨S_, .f32⟩
  | .hbm, ⟨14, _⟩ => ⟨S4x4096, .f32⟩
  | .hbm, ⟨15, _⟩ => ⟨S4x4096, .f32⟩
  | .hbm, ⟨16, _⟩ => ⟨S4x4096x1, .f32⟩
  | .hbm, ⟨17, _⟩ => ⟨S4x4096x4096, .f32⟩
  | .hbm, ⟨18, _⟩ => ⟨S4x4096x4096, .f32⟩
  | .hbm, ⟨19, _⟩ => ⟨S4x1x4096, .f32⟩
  | .hbm, ⟨20, _⟩ => ⟨S4x4096x4096, .f32⟩
  | .hbm, ⟨21, _⟩ => ⟨S4x4096x4096, .f32⟩
  | .hbm, ⟨22, _⟩ => ⟨S4x4096x64, .f32⟩
  | .hbm, ⟨23, _⟩ => ⟨S4x4096x64, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S4096x4096_S1x4096x4096_1_2 : S4096x4096.BroadcastsInDim S1x4096x4096 (![1, 2] : Fin 2 → Fin S1x4096x4096.rank)
  bcast_S1x4096x4096_S4x4096x4096_0_1_2 : S1x4096x4096.BroadcastsInDim S4x4096x4096 (![0, 1, 2] : Fin 3 → Fin S4x4096x4096.rank)
  reducesTo_S4x4096x4096_S4x4096_d1 : S4x4096x4096.ReducesTo [1] S4x4096
  h_S_ : 0 < S_.numel
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  bcast_S4x4096_S4x1x4096_0_2 : S4x4096.BroadcastsInDim S4x1x4096 (![0, 2] : Fin 2 → Fin S4x1x4096.rank)
  bcast_S4x1x4096_S4x4096x4096_0_1_2 : S4x1x4096.BroadcastsInDim S4x4096x4096 (![0, 1, 2] : Fin 3 → Fin S4x4096x4096.rank)
  dot_S4x4096x64_S64x64_S4x4096x64_2_0_01_1_n_n_wf : DotDims.WF S4x4096x64 S64x64 S4x4096x64 [2] [0] [0, 1] [1] [] []
  dot_S4x4096x4096_S4x4096x64_S4x4096x64_2_1_1_2_0_0_wf : DotDims.WF S4x4096x4096 S4x4096x64 S4x4096x64 [2] [1] [1] [2] [0] [0]

variable [Facts₀]

def dot_S4x4096x64_S64x64_S4x4096x64_2_0_01_1_n_n : DotDims S4x4096x64 S64x64 S4x4096x64 where
  lhsContracting := [2]
  rhsContracting := [0]
  lhsNonContracting := [0, 1]
  rhsNonContracting := [1]
  lhsBatch := []
  rhsBatch := []
  wf := dot_S4x4096x64_S64x64_S4x4096x64_2_0_01_1_n_n_wf
def dot_S4x4096x4096_S4x4096x64_S4x4096x64_2_1_1_2_0_0 : DotDims S4x4096x4096 S4x4096x64 S4x4096x64 where
  lhsContracting := [2]
  rhsContracting := [1]
  lhsNonContracting := [1]
  rhsNonContracting := [2]
  lhsBatch := [0]
  rhsBatch := [0]
  wf := dot_S4x4096x4096_S4x4096x64_S4x4096x64_2_1_1_2_0_0_wf

class Facts : Prop extends Facts₀ where

variable [Facts]
-- ==== Proof.KReg0Run.lean ====
import proofs.«133457_j80410377716426_1_alg».proof.Proof.Gen.Kernel.Launch
import proofs.«133457_j80410377716426_1_alg».proof.Proof.Gen.Kernel.Skeleton
import proofs.«133457_j80410377716426_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The degree kernel (the first call), at the buffer contents `V` it is entered from

The grid has sixteen points; point `t` stages rows `256 t … 256 t + 255` of every graph's adjacency matrix. A scratch
accumulator is zeroed at the first point, takes the block's column sums at every point, and at the last point its
inverse square root (after adding one) is stored into the output block, which is the whole `4 × 4096` result. -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is `V`'s
    and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The two branches, decided over the grid -/

/-- The accumulator is zeroed: the first branch's condition, from the grid coordinate. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val = 0 :=
  (by decide +kernel : ∀ t : Fin grid0.N, cond0_0 (grid0.coords t) ↔ t.val = 0)
/-- The result is stored: the second branch's condition. -/
abbrev cond0_1 (i : grid0.Coords) : Prop := k0_cond2 i = 1#1
/-- It holds at the last point only. -/
theorem hcond0_1 : ∀ t : Fin cfg0.N, cond0_1 (grid0.coords t) ↔ t.val = 15 :=
  (by decide +kernel : ∀ t : Fin grid0.N, cond0_1 (grid0.coords t) ↔ t.val = 15)

/-- The input window is never idle. -/
theorem liveAt0_0 : ∀ t : Fin cfg0.N, cfg0.idle 0 (grid0.coords t) = false := by decide +kernel
/-- Where the result is not stored the output window is idle, -/
theorem idleAt0_1 : ∀ t : Fin cfg0.N, ¬cond0_1 (grid0.coords t) → cfg0.idle 1 (grid0.coords t) = true := by decide +kernel
/-- and its block is not written back; -/
theorem noFlush0_1 : ∀ t : Fin cfg0.N, ¬cond0_1 (grid0.coords t) → (cfg0.win 1).flush t = false := by decide +kernel
/-- where it is stored the window is live. -/
theorem liveAt0_1 : ∀ t : Fin cfg0.N, cond0_1 (grid0.coords t) → cfg0.idle 1 (grid0.coords t) = false := by decide +kernel

/-! ## The memrefs the body is called with -/

abbrev VO0_1 : View sig .tc .vmem S4x4096 .f32 := (Memref.whole cc0_stg1_0 : Memref sig .tc .vmem S4x4096 .f32).view
abbrev ms0_0 (t : Fin cfg0.N) : Memref sig .tc .vmem S4x256x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4x4096 .f32 := win0_1.stage (cfg0.slots t 1)
abbrev hs0_1 (t : Fin cfg0.N) : (ms0_1 t).IsWhole := hstage0_1 ((cfg0.slots t 1).cast nbuf0_1)
/-- The accumulator: a whole scoped buffer of the kernel's own. -/
abbrev scM0_0 : Memref sig .tc .vmem S4x4096 .f32 := Memref.whole cc0_scratch0
abbrev VS0_0 : View sig .tc .vmem S4x4096 .f32 := scM0_0.view

/-- The scoped buffers this call neither stages through nor accumulates in, each whole at some contents. -/
def restS0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f) ∗ (∃ f : Buf (Elt F) ((c : Thread nD τ).loc cc2_scratch0), ((c : Thread nD τ).loc cc2_scratch0) ↦{fullShare} f))

/-- The call's invariant between points with the accumulator split off as a memref owned at some contents. -/
theorem PhiA0_eq (c : Dev nD) :
    (Pipeline.ΦA spec0 c : sProp 𝕄)
      = iprop(iprop((∃ d, owns (c : Thread nD τ) scM0_0 fullShare d) ∗ restS0 c) ∗ (∃ r, prngReg c r)) := by
  unfold Pipeline.ΦA restS0; rw [scopedRest0_eq]; simp only [scM0_0, owns_whole]; try rfl

/-! ## The body's run in each of its three cases: first point, middle points, last point -/

set_option maxHeartbeats 1000000 in
/-- FIRST POINT (zeroing branch taken, storing branch not): on whole staging memrefs, the input's at its block, the
    idle output's handed back untouched, the accumulator at anything, the body runs and leaves the accumulator with the
    pieces the run finds written. -/
noncomputable def kernelRun0_A (c : Dev nD) (i : grid0.Coords) (arg1 : Memref sig .tc .vmem S4x256x4096 .f32) (harg1 : arg1.IsWhole) (arg2 : Memref sig .tc .vmem S4x4096 .f32) (harg2 : arg2.IsWhole) (arg3 : Memref sig .tc .vmem S4x4096 .f32) (harg3 : arg3.IsWhole) (hc0 : cond0_0 i) (hc1 : ¬cond0_1 i)
    (x0 : Vec F S4x256x4096 .f32) :
    Σ' (L1 : List (View.Piece (Elt F) S4x4096 .f32)), { LS0 : List (View.Piece (Elt F) S4x4096 .f32) //
      ∀ (xi1 : Vec F S4x4096 .f32) (E : Set ℕ) (K : PUnit → sProp 𝕄),
        iprop(owns (c : Thread nD τ) arg1 fullShare x0 ∗ owns (c : Thread nD τ) arg2 fullShare xi1 ∗ (∃ d, owns (c : Thread nD τ) arg3 fullShare d)
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc0__deg_kernel i arg1 harg1 arg2 harg2 arg3 harg3) K } := by
  refine ⟨[], ?_, fun xi1 E K => ?run⟩
  case run =>
    simp only [cc0__deg_kernel_eq_skeleton]; unfold cc0__deg_kernel_skel
    unfold owns
    iintro ⟨⟨%f0, %hf0, H0⟩, ⟨%f1, %hf1, H1⟩, ⟨%ds0, %fs0, -, HS0⟩, Hk⟩
    obtain rfl := harg1.eq_unread hf0; obtain rfl := harg2.eq_unread hf1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

set_option maxHeartbeats 1000000 in
/-- MIDDLE POINTS (neither branch taken): the accumulator comes in at what the point before left. -/
noncomputable def kernelRun0_B (c : Dev nD) (i : grid0.Coords) (arg1 : Memref sig .tc .vmem S4x256x4096 .f32) (harg1 : arg1.IsWhole) (arg2 : Memref sig .tc .vmem S4x4096 .f32) (harg2 : arg2.IsWhole) (arg3 : Memref sig .tc .vmem S4x4096 .f32) (harg3 : arg3.IsWhole) (hc0 : ¬cond0_0 i) (hc1 : ¬cond0_1 i)
    (x0 : Vec F S4x256x4096 .f32) (xs0 : Vec F S4x4096 .f32) :
    Σ' (L1 : List (View.Piece (Elt F) S4x4096 .f32)), { LS0 : List (View.Piece (Elt F) S4x4096 .f32) //
      ∀ (xi1 : Vec F S4x4096 .f32) (E : Set ℕ) (K : PUnit → sProp 𝕄),
        iprop(owns (c : Thread nD τ) arg1 fullShare x0 ∗ owns (c : Thread nD τ) arg2 fullShare xi1 ∗ owns (c : Thread nD τ) arg3 fullShare xs0
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc0__deg_kernel i arg1 harg1 arg2 harg2 arg3 harg3) K } := by
  refine ⟨[], ?_, fun xi1 E K => ?run⟩
  case run =>
    simp only [cc0__deg_kernel_eq_skeleton]; unfold cc0__deg_kernel_skel
    unfold owns
    iintro ⟨⟨%f0, %hf0, H0⟩, ⟨%f1, %hf1, H1⟩, ⟨%fs0, %hfs0, HS0⟩, Hk⟩
    obtain rfl := harg1.eq_unread hf0; obtain rfl := harg2.eq_unread hf1; obtain rfl := harg3.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

set_option maxHeartbeats 1000000 in
/-- LAST POINT (storing branch taken): the output's buffer, at anything before, ends with the run's pieces written. -/
noncomputable def kernelRun0_C (c : Dev nD) (i : grid0.Coords) (arg1 : Memref sig .tc .vmem S4x256x4096 .f32) (harg1 : arg1.IsWhole) (arg2 : Memref sig .tc .vmem S4x4096 .f32) (harg2 : arg2.IsWhole) (arg3 : Memref sig .tc .vmem S4x4096 .f32) (harg3 : arg3.IsWhole) (hc0 : ¬cond0_0 i) (hc1 : cond0_1 i)
    (x0 : Vec F S4x256x4096 .f32) (xs0 : Vec F S4x4096 .f32) :
    Σ' (L1 : List (View.Piece (Elt F) S4x4096 .f32)), { LS0 : List (View.Piece (Elt F) S4x4096 .f32) //
      ∀ (E : Set ℕ) (K : PUnit → sProp 𝕄),
        iprop(owns (c : Thread nD τ) arg1 fullShare x0 ∗ (∃ d, owns (c : Thread nD τ) arg2 fullShare d) ∗ owns (c : Thread nD τ) arg3 fullShare xs0
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f LS0)) -∗ K ⟨⟩))
          ⊢ wp frame (wpE (defs₀ (F := F)) Variants.none c none) E (cc0__deg_kernel i arg1 harg1 arg2 harg2 arg3 harg3) K } := by
  refine ⟨?_, ?_, fun E K => ?run⟩
  case run =>
    simp only [cc0__deg_kernel_eq_skeleton]; unfold cc0__deg_kernel_skel
    unfold owns
    iintro ⟨⟨%f0, %hf0, H0⟩, ⟨%d1, %f1, -, H1⟩, ⟨%fs0, %hfs0, HS0⟩, Hk⟩
    obtain rfl := harg1.eq_unread hf0; obtain rfl := harg3.eq_unread hfs0
    sl_exec (disch := first | exact hc0 | exact hc1)
    sl_step
    iapply Hk
    isplitl [H0]
    · iexists _; isplitr; · ipureintro; exact harg1.read_unread _
      iexact H0
    isplitl [H1]; · iexists _; iexact H1
    iexists _; iexact HS0

end Cert.Kernel.Hand

end
-- ==== Proof.KReg0.lean ====
import proofs.«133457_j80410377716426_1_alg».proof.Proof.Gen.Kernel.Launch
import proofs.«133457_j80410377716426_1_alg».proof.Proof.Gen.Kernel.Skeleton
import proofs.«133457_j80410377716426_1_alg».proof.Proof.Gen.Kernel.Points
import proofs.«133457_j80410377716426_1_alg».proof.Proof.KReg0Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves in the accumulator and in the output's buffer -/

/-- The first point stores nothing into the output (a placeholder nothing consults). -/
def out0_A_1 (c : Dev nD) (i : grid0.Coords) (arg1 : Memref sig .tc .vmem S4x256x4096 .f32) (harg1 : arg1.IsWhole) (arg2 : Memref sig .tc .vmem S4x4096 .f32) (harg2 : arg2.IsWhole) (arg3 : Memref sig .tc .vmem S4x4096 .f32) (harg3 : arg3.IsWhole) (hc0 : cond0_0 i) (hc1 : ¬cond0_1 i) (x0 : Vec F S4x256x4096 .f32) : Vec F S4x4096 .f32 :=
  VO0_1.read (Elt F) (VO0_1.writes (Elt F) VO0_1.junk (kernelRun0_A c i arg1 harg1 arg2 harg2 arg3 harg3 hc0 hc1 x0).1)
/-- Its stores cover the accumulator. -/
theorem scover0_A_0 (c : Dev nD) (i : grid0.Coords) (arg1 : Memref sig .tc .vmem S4x256x4096 .f32) (harg1 : arg1.IsWhole) (arg2 : Memref sig .tc .vmem S4x4096 .f32) (harg2 : arg2.IsWhole) (arg3 : Memref sig .tc .vmem S4x4096 .f32) (harg3 : arg3.IsWhole) (hc0 : cond0_0 i) (hc1 : ¬cond0_1 i) (x0 : Vec F S4x256x4096 .f32) (y : S4x4096.Idx) :
    ∃ pc ∈ (kernelRun0_A c i arg1 harg1 arg2 harg2 arg3 harg3 hc0 hc1 x0).2.1, y ∈ pc.1.set :=
  View.cover_of_tiledL (kernelRun0_A c i arg1 harg1 arg2 harg2 arg3 harg3 hc0 hc1 x0).2.1 S4x4096.size (by sl_kernel_rfl) y
/-- What the first point leaves in the accumulator. -/
def sout0_A_0 (c : Dev nD) (i : grid0.Coords) (arg1 : Memref sig .tc .vmem S4x256x4096 .f32) (harg1 : arg1.IsWhole) (arg2 : Memref sig .tc .vmem S4x4096 .f32) (harg2 : arg2.IsWhole) (arg3 : Memref sig .tc .vmem S4x4096 .f32) (harg3 : arg3.IsWhole) (hc0 : cond0_0 i) (hc1 : ¬cond0_1 i) (x0 : Vec F S4x256x4096 .f32) : Vec F S4x4096 .f32 :=
  VS0_0.read (Elt F) (VS0_0.writes (Elt F) VS0_0.junk (kernelRun0_A c i arg1 harg1 arg2 harg2 arg3 harg3 hc0 hc1 x0).2.1)

def out0_B_1 (c : Dev nD) (i : grid0.Coords) (arg1 : Memref sig .tc .vmem S4x256x4096 .f32) (harg1 : arg1.IsWhole) (arg2 : Memref sig .tc .vmem S4x4096 .f32) (harg2 : arg2.IsWhole) (arg3 : Memref sig .tc .vmem S4x4096 .f32) (harg3 : arg3.IsWhole) (hc0 : ¬cond0_0 i) (hc1 : ¬cond0_1 i) (x0 : Vec F S4x256x4096 .f32) (xs0 : Vec F S4x4096 .f32) : Vec F S4x4096 .f32 :=
  VO0_1.read (Elt F) (VO0_1.writes (Elt F) VO0_1.junk (kernelRun0_B c i arg1 harg1 arg2 harg2 arg3 harg3 hc0 hc1 x0 xs0).1)
theorem scover0_B_0 (c : Dev nD) (i : grid0.Coords) (arg1 : Memref sig .tc .vmem S4x256x4096 .f32) (harg1 : arg1.IsWhole) (arg2 : Memref sig .tc .vmem S4x4096 .f32) (harg2 : arg2.IsWhole) (arg3 : Memref sig .tc .vmem S4x4096 .f32) (harg3 : arg3.IsWhole) (hc0 : ¬cond0_0 i) (hc1 : ¬cond0_1 i) (x0 : Vec F S4x256x4096 .f32) (xs0 : Vec F S4x4096 .f32) (y : S4x4096.Idx) :
    ∃ pc ∈ (kernelRun0_B c i arg1 harg1 arg2 harg2 arg3 harg3 hc0 hc1 x0 xs0).2.1, y ∈ pc.1.set :=
  View.cover_of_tiledL (kernelRun0_B c i arg1 harg1 arg2 harg2 arg3 harg3 hc0 hc1 x0 xs0).2.1 S4x4096.size (by sl_kernel_rfl) y
/-- What a middle point leaves in the accumulator, from what it found there. -/
def sout0_B_0 (c : Dev nD) (i : grid0.Coords) (arg1 : Memref sig .tc .vmem S4x256x4096 .f32) (harg1 : arg1.IsWhole) (arg2 : Memref sig .tc .vmem S4x4096 .f32) (harg2 : arg2.IsWhole) (arg3 : Memref sig .tc .vmem S4x4096 .f32) (harg3 : arg3.IsWhole) (hc0 : ¬cond0_0 i) (hc1 : ¬cond0_1 i) (x0 : Vec F S4x256x4096 .f32) (xs0 : Vec F S4x4096 .f32) : Vec F S4x4096 .f32 :=
  VS0_0.read (Elt F) (VS0_0.writes (Elt F) VS0_0.junk (kernelRun0_B c i arg1 harg1 arg2 harg2 arg3 harg3 hc0 hc1 x0 xs0).2.1)

/-- The last point's store covers the output block. -/
theorem cover0_C_1 (c : Dev nD) (i : grid0.Coords) (arg1 : Memref sig .tc .vmem S4x256x4096 .f32) (harg1 : arg1.IsWhole) (arg2 : Memref sig .tc .vmem S4x4096 .f32) (harg2 : arg2.IsWhole) (arg3 : Memref sig .tc .vmem S4x4096 .f32) (harg3 : arg3.IsWhole) (hc0 : ¬cond0_0 i) (hc1 : cond0_1 i) (x0 : Vec F S4x256x4096 .f32) (xs0 : Vec F S4x4096 .f32) (y : S4x4096.Idx) :
    ∃ pc ∈ (kernelRun0_C c i arg1 harg1 arg2 harg2 arg3 harg3 hc0 hc1 x0 xs0).1, y ∈ pc.1.set :=
  View.cover_of_tiledL (kernelRun0_C c i arg1 harg1 arg2 harg2 arg3 harg3 hc0 hc1 x0 xs0).1 S4x4096.size (by sl_kernel_rfl) y
/-- What the last point leaves in the output's buffer. -/
def out0_C_1 (c : Dev nD) (i : grid0.Coords) (arg1 : Memref sig .tc .vmem S4x256x4096 .f32) (harg1 : arg1.IsWhole) (arg2 : Memref sig .tc .vmem S4x4096 .f32) (harg2 : arg2.IsWhole) (arg3 : Memref sig .tc .vmem S4x4096 .f32) (harg3 : arg3.IsWhole) (hc0 : ¬cond0_0 i) (hc1 : cond0_1 i) (x0 : Vec F S4x256x4096 .f32) (xs0 : Vec F S4x4096 .f32) : Vec F S4x4096 .f32 :=
  VO0_1.read (Elt F) (VO0_1.writes (Elt F) VO0_1.junk (kernelRun0_C c i arg1 harg1 arg2 harg2 arg3 harg3 hc0 hc1 x0 xs0).1)
theorem scover0_C_0 (c : Dev nD) (i : grid0.Coords) (arg1 : Memref sig .tc .vmem S4x256x4096 .f32) (harg1 : arg1.IsWhole) (arg2 : Memref sig .tc .vmem S4x4096 .f32) (harg2 : arg2.IsWhole) (arg3 : Memref sig .tc .vmem S4x4096 .f32) (harg3 : arg3.IsWhole) (hc0 : ¬cond0_0 i) (hc1 : cond0_1 i) (x0 : Vec F S4x256x4096 .f32) (xs0 : Vec F S4x4096 .f32) (y : S4x4096.Idx) :
    ∃ pc ∈ (kernelRun0_C c i arg1 harg1 arg2 harg2 arg3 harg3 hc0 hc1 x0 xs0).2.1, y ∈ pc.1.set :=
  View.cover_of_tiledL (kernelRun0_C c i arg1 harg1 arg2 harg2 arg3 harg3 hc0 hc1 x0 xs0).2.1 S4x4096.size (by sl_kernel_rfl) y
def sout0_C_0 (c : Dev nD) (i : grid0.Coords) (arg1 : Memref sig .tc .vmem S4x256x4096 .f32) (harg1 : arg1.IsWhole) (arg2 : Memref sig .tc .vmem S4x4096 .f32) (harg2 : arg2.IsWhole) (arg3 : Memref sig .tc .vmem S4x4096 .f32) (harg3 : arg3.IsWhole) (hc0 : ¬cond0_0 i) (hc1 : cond0_1 i) (x0 : Vec F S4x256x4096 .f32) (xs0 : Vec F S4x4096 .f32) : Vec F S4x4096 .f32 :=
  VS0_0.read (Elt F) (VS0_0.writes (Elt F) VS0_0.junk (kernelRun0_C c i arg1 harg1 arg2 harg2 arg3 harg3 hc0 hc1 x0 xs0).2.1)

/-! ## The accumulation over the sixteen points -/

/-- What the output's buffer (first component) and the accumulator (second) hold after the body at point `n`: the case the
    point is in, run at the point's memrefs and input block, the accumulator taken from the point before. -/
def outsAt0 (c : Dev nD) : (n : ℕ) → n < cfg0.N → Vec F S4x4096 .f32 × Vec F S4x4096 .f32
  | 0, hn =>
    have h0 : (⟨0, hn⟩ : Fin cfg0.N).val = 0 := rfl
    have h1 : ¬ (⟨0, hn⟩ : Fin cfg0.N).val = 15 := fun h => Nat.succ_ne_zero 14 h.symm
    (out0_A_1 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr h0) (fun h => h1 ((hcond0_1 ⟨0, hn⟩).mp h)) (iblk0 V c 0 ⟨0, hn⟩),
     sout0_A_0 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr h0) (fun h => h1 ((hcond0_1 ⟨0, hn⟩).mp h)) (iblk0 V c 0 ⟨0, hn⟩))
  | n + 1, hn =>
    have h0 : ¬ (⟨n + 1, hn⟩ : Fin cfg0.N).val = 0 := Nat.succ_ne_zero n
    if h1 : (⟨n + 1, hn⟩ : Fin cfg0.N).val = 15 then
      (out0_C_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2,
       sout0_C_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2)
    else
      (out0_B_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2,
       sout0_B_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2)

/-- At the first point. -/
theorem outsAt0_A (c : Dev nD) (t : Fin cfg0.N) (h0 : t.val = 0) (h1 : ¬t.val = 15) :
    outsAt0 V c t.val t.isLt = (out0_A_1 c (grid0.coords t) (ms0_0 t) (hs0_0 t) (ms0_1 t) (hs0_1 t) scM0_0 (Memref.isWhole_whole _) ((hcond0_0 t).mpr h0) (fun h => h1 ((hcond0_1 t).mp h)) (iblk0 V c 0 t), sout0_A_0 c (grid0.coords t) (ms0_0 t) (hs0_0 t) (ms0_1 t) (hs0_1 t) scM0_0 (Memref.isWhole_whole _) ((hcond0_0 t).mpr h0) (fun h => h1 ((hcond0_1 t).mp h)) (iblk0 V c 0 t)) := by
  obtain ⟨n, hn⟩ := t
  cases n with
  | zero => exact rfl
  | succ n => exact absurd h0 (Nat.succ_ne_zero n)

/-- At a middle point: over what the point before left in the accumulator. -/
theorem outsAt0_B (c : Dev nD) (t : Fin cfg0.N) (h0 : ¬t.val = 0) (h1 : ¬t.val = 15) :
    outsAt0 V c t.val t.isLt = (out0_B_1 c (grid0.coords t) (ms0_0 t) (hs0_0 t) (ms0_1 t) (hs0_1 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2, sout0_B_0 c (grid0.coords t) (ms0_0 t) (hs0_0 t) (ms0_1 t) (hs0_1 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2) := by
  obtain ⟨n, hn⟩ := t
  cases n with
  | zero => exact absurd rfl h0
  | succ n => exact (dif_neg h1).trans rfl

/-- At the last point. -/
theorem outsAt0_C (c : Dev nD) (t : Fin cfg0.N) (h0 : ¬t.val = 0) (h1 : t.val = 15) :
    outsAt0 V c t.val t.isLt = (out0_C_1 c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2, sout0_C_0 c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2) := by
  obtain ⟨n, hn⟩ := t
  cases n with
  | zero => exact absurd rfl h0
  | succ n => exact (dif_pos h1).trans rfl

/-- The call's invariant before position `n`: before the first point every scoped buffer at anything; afterwards the
    accumulator at what the point before left, the other scoped buffers at anything, the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ restS0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare ((outsAt0 V c n hn).2) ∗ restS0 c) ∗ (∃ r, prngReg c r)) := rfl
theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ restS0 c) ∗ (∃ r, prngReg c r)) := by
  cases n with
  | zero => exact absurd rfl hz
  | succ n => rfl

/-! ## The proof data -/

/-- The arrays as the call finds them; after the body at point `t` the input's buffer at its block and the output's at
    `outsAt0`'s first component; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point: the input's memref holds its block; the point's position says which case it is in; the
    invariant hands the body the accumulator at what the point before left (at anything at the first point) and takes
    it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS0 V c (t.val + 1) t.isLt from rfl, PhiS0_succ]
  have hN : t.val < 16 := lt_of_lt_of_eq t.isLt (show cfg0.N = 16 from N_0)
  rw [show (dat0 V c).leavesExact 0 t = owns (c : Thread nD τ) (ms0_0 t) fullShare ((dat0 V c).after 0 t) from by
    unfold Dat.leavesExact; rw [liveAt0_0 t], after0_0]
  by_cases h0 : t.val = 0
  · have h1 : ¬ t.val = 15 := by omega
    rw [Dat.leavesExact_idle (dat0 V c) 1 t (idleAt0_1 t (fun h => h1 ((hcond0_1 t).mp h))) (noFlush0_1 t (fun h => h1 ((hcond0_1 t).mp h)))]
    rw [outsAt0_A V c t h0 h1]
    unfold sout0_A_0; (try dsimp only)
    rw [PhiS0_castSucc V c t, PhiS0_zero V c _ _ h0, PhiA0_eq]
    iintro ⟨⟨⟨HS0, Hrest⟩, Hg⟩, Ho, ⟨%d0, H0⟩, ⟨%d1, H1⟩⟩
    iapply ((kernelRun0_A c (grid0.coords t) _ _ _ _ _ _ ((hcond0_0 t).mpr h0) (fun h => h1 ((hcond0_1 t).mp h)) (iblk0 V c 0 t)).2.2 _ Set.univ _)
    isplitl [H0]; · iexact H0
    isplitl [H1]; · iexact H1
    isplitl [HS0]; · iexact HS0
    iintro ⟨H0, H1, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover0_A_0 c _ _ _ _ _ _ _ _ _ _)
        iexact Hrest
      iexact Hg
    isplitl [Ho]; · iexact Ho
    isplitl [H0]; · iexact H0
    iexists _; iexact H1
  · by_cases h1 : t.val = 15
    · rw [show (dat0 V c).leavesExact 1 t = owns (c : Thread nD τ) (ms0_1 t) fullShare ((dat0 V c).after 1 t) from by
        unfold Dat.leavesExact; rw [liveAt0_1 t ((hcond0_1 t).mpr h1)], after0_1]
      rw [outsAt0_C V c t h0 h1]
      unfold out0_C_1 sout0_C_0; (try dsimp only)
      rw [PhiS0_castSucc V c t, PhiS0_pos V c _ _ h0]
      iintro ⟨⟨⟨HS0, Hrest⟩, Hg⟩, Ho, ⟨%d0, H0⟩, ⟨%d1, H1⟩⟩
      iapply ((kernelRun0_C c (grid0.coords t) _ _ _ _ _ _ (fun h => h0 ((hcond0_0 t).mp h)) ((hcond0_1 t).mpr h1) (iblk0 V c 0 t) _).2.2 Set.univ _)
      isplitl [H0]; · iexact H0
      isplitl [H1]; · iexists _; iexact H1
      isplitl [HS0]; · iexact HS0
      iintro ⟨H0, ⟨%e1, H1⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_C_0 c _ _ _ _ _ _ _ _ _ _ _)
          iexact Hrest
        iexact Hg
      isplitl [Ho]; · iexact Ho
      isplitl [H0]; · iexact H0
      unfold owns; iexists _; isplitr
      swap; · iexact H1
      ipureintro; exact View.read_writes_of_cover _ _ _ _ _ (cover0_C_1 c _ _ _ _ _ _ _ _ _ _ _)
    · rw [Dat.leavesExact_idle (dat0 V c) 1 t (idleAt0_1 t (fun h => h1 ((hcond0_1 t).mp h))) (noFlush0_1 t (fun h => h1 ((hcond0_1 t).mp h)))]
      rw [outsAt0_B V c t h0 h1]
      unfold sout0_B_0; (try dsimp only)
      rw [PhiS0_castSucc V c t, PhiS0_pos V c _ _ h0]
      iintro ⟨⟨⟨HS0, Hrest⟩, Hg⟩, Ho, ⟨%d0, H0⟩, ⟨%d1, H1⟩⟩
      iapply ((kernelRun0_B c (grid0.coords t) _ _ _ _ _ _ (fun h => h0 ((hcond0_0 t).mp h)) (fun h => h1 ((hcond0_1 t).mp h)) (iblk0 V c 0 t) _).2.2 _ Set.univ _)
      isplitl [H0]; · iexact H0
      isplitl [H1]; · iexact H1
      isplitl [HS0]; · iexact HS0
      iintro ⟨H0, H1, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_B_0 c _ _ _ _ _ _ _ _ _ _ _)
          iexact Hrest
        iexact Hg
      isplitl [Ho]; · iexact Ho
      isplitl [H0]; · iexact H0
      iexists _; iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the call is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives it back: the accumulator's contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 16 := N_0; omega
  rw [show (dat0 V c).Φ (Fin.last cfg0.N) = PhiS0 V c (Fin.last cfg0.N).val (Nat.le_of_lt_succ (Fin.last cfg0.N).isLt) from rfl, PhiS0_pos V c _ _ ht, PhiA0_eq]
  iintro ⟨⟨HS0, Hrest⟩, Hg⟩
  isplitl [HS0 Hrest]
  · isplitl [HS0]
    · iexists _; iexact HS0
    iexact Hrest
  iexact Hg

end Cert.Kernel.Hand

end
-- ==== Proof.KReg1Run.lean ====
import proofs.«133457_j80410377716426_1_alg».proof.Proof.Gen.Kernel.Launch
import proofs.«133457_j80410377716426_1_alg».proof.Proof.Gen.Kernel.Skeleton
import proofs.«133457_j80410377716426_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The feature-transform kernel (the second call)

The grid has eight points; point `t` stages rows `512 t … 512 t + 511` of every graph's features and of the inverse
square-root degrees, and the whole weight matrix. For each of the four graphs the body multiplies the graph's feature
rows by the weights, scales row `n` by its inverse square-root degree, and stores the graph's slab of the output block. -/

abbrev VO1_3 : View sig .tc .vmem S4x512x64 .f32 := (Memref.whole cc1_stg3_0 : Memref sig .tc .vmem S4x512x64 .f32).view
abbrev ms1_0 (t : Fin cfg1.N) : Memref sig .tc .vmem S4x512x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S64x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S4x512x64 .f32 := win1_3.stage (cfg1.slots t 3)
abbrev hs1_3 (t : Fin cfg1.N) : (ms1_3 t).IsWhole := hstage1_3 ((cfg1.slots t 3).cast nbuf1_3)

set_option maxHeartbeats 2000000 in
/-- On whole staging memrefs, the three inputs' at their blocks and the output's at anything, the body runs and leaves
    the inputs as they were and the output's buffer with the four slabs the run finds written. -/
noncomputable def kernelRun1 (c : Dev nD) (i : grid1.Coords) (arg1 : Memref sig .tc .vmem S4x512x64 .f32) (harg1 : arg1.IsWhole) (arg2 : Memref sig .tc .vmem S64x64 .f32) (harg2 : arg2.IsWhole) (arg3 : Memref sig .tc .vmem S4x512 .f32) (harg3 : arg3.IsWhole) (arg4 : Memref sig .tc .vmem S4x512x64 .f32) (harg4 : arg4.IsWhole)
    (x0 : Vec F S4x512x64 .f32) (x1 : Vec F S64x64 .f32) (x2 : Vec F S4x512 .f32) :
    { L3 : List (View.Piece (Elt F) S4x512x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3)) -∗ K ⟨⟩))
          ⊢ wp frame (wpE (defs₀ (F := F)) Variants.none c none) E (cc1__hw_kernel i arg1 harg1 arg2 harg2 arg3 harg3 arg4 harg4) K } := by
  refine ⟨?_, fun E K => ?run⟩
  case run =>
    simp only [cc1__hw_kernel_eq_skeleton]; unfold cc1__hw_kernel_skel
    simp only [k1_part1_eq_skeleton]
    unfold owns
    iintro ⟨⟨%f0, %hf0, H0⟩, ⟨%f1, %hf1, H1⟩, ⟨%f2, %hf2, H2⟩, ⟨%d3, %f3, -, H3⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

end Cert.Kernel.Hand

end
-- ==== Proof.KReg1.lean ====
import proofs.«133457_j80410377716426_1_alg».proof.Proof.Gen.Kernel.Launch
import proofs.«133457_j80410377716426_1_alg».proof.Proof.Gen.Kernel.Skeleton
import proofs.«133457_j80410377716426_1_alg».proof.Proof.Gen.Kernel.Points
import proofs.«133457_j80410377716426_1_alg».proof.Proof.KReg1Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The four slabs tile the output block. -/
theorem cover1_3 (c : Dev nD) (i : grid1.Coords) (arg1 : Memref sig .tc .vmem S4x512x64 .f32) (harg1 : arg1.IsWhole) (arg2 : Memref sig .tc .vmem S64x64 .f32) (harg2 : arg2.IsWhole) (arg3 : Memref sig .tc .vmem S4x512 .f32) (harg3 : arg3.IsWhole) (arg4 : Memref sig .tc .vmem S4x512x64 .f32) (harg4 : arg4.IsWhole) (x0 : Vec F S4x512x64 .f32) (x1 : Vec F S64x64 .f32) (x2 : Vec F S4x512 .f32) (y : S4x512x64.Idx) :
    ∃ pc ∈ (kernelRun1 c i arg1 harg1 arg2 harg2 arg3 harg3 arg4 harg4 x0 x1 x2).1, y ∈ pc.1.set :=
  View.cover_of_tiledL (kernelRun1 c i arg1 harg1 arg2 harg2 arg3 harg3 arg4 harg4 x0 x1 x2).1 S1x512x64.size (by sl_kernel_rfl) y
/-- What the body leaves in the output's buffer, from the three input blocks. -/
def out1_3 (c : Dev nD) (i : grid1.Coords) (arg1 : Memref sig .tc .vmem S4x512x64 .f32) (harg1 : arg1.IsWhole) (arg2 : Memref sig .tc .vmem S64x64 .f32) (harg2 : arg2.IsWhole) (arg3 : Memref sig .tc .vmem S4x512 .f32) (harg3 : arg3.IsWhole) (arg4 : Memref sig .tc .vmem S4x512x64 .f32) (harg4 : arg4.IsWhole) (x0 : Vec F S4x512x64 .f32) (x1 : Vec F S64x64 .f32) (x2 : Vec F S4x512 .f32) : Vec F S4x512x64 .f32 :=
  VO1_3.read (Elt F) (VO1_3.writes (Elt F) VO1_3.junk (kernelRun1 c i arg1 harg1 arg2 harg2 arg3 harg3 arg4 harg4 x0 x1 x2).1)

/-- The arrays as the call finds them; after the body each input's buffer at its block and the output's at `out1_3` of the
    input blocks; the invariant the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 c (grid1.coords t) (ms1_0 t) (hs1_0 t) (ms1_1 t) (hs1_1 t) (ms1_2 t) (hs1_2 t) (ms1_3 t) (hs1_3 t) (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 c (grid1.coords t) (ms1_0 t) (hs1_0 t) (ms1_1 t) (hs1_1 t) (ms1_2 t) (hs1_2 t) (ms1_3 t) (hs1_3 t) (iblk1 V c 0 t) (iblk1 V c 1 t) (iblk1 V c 2 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

set_option maxHeartbeats 2000000 in
/-- The body at any point: the inputs' memrefs hold their blocks, so the run applies; the invariant passes through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  unfold out1_3
  iintro ⟨HΦ, Ho, ⟨%d0, H0⟩, ⟨%d1, H1⟩, ⟨%d2, H2⟩, ⟨%d3, H3⟩⟩
  iapply ((kernelRun1 c (grid1.coords t) _ _ _ _ _ _ _ _ (iblk1 V c 0 t) (iblk1 V c 1 t) (iblk1 V c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover1_3 c _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KReg2Run.lean ====
import proofs.«133457_j80410377716426_1_alg».proof.Proof.Gen.Kernel.Launch
import proofs.«133457_j80410377716426_1_alg».proof.Proof.Gen.Kernel.Skeleton
import proofs.«133457_j80410377716426_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The aggregation kernel (the third call)

The grid is `4 × 2 × 2`: graph `b`, row half `n`, column half `m`, the column half running fastest. A point stages the
`2048 × 2048` block `(b, n, m)` of the adjacency matrix, rows `m` and rows `n` of the graph's scaled features, and columns `n`
of the inverse square-root degrees. A scratch accumulator is zeroed at `m = 0`, takes the block's product with the
rows-`m` features at every point, and at `m = 1` the rows-`n` features are added, row `r` is scaled by its inverse
square-root degree and the result is stored into the output block `(b, n)`. -/

/-- The accumulator is zeroed: the first branch's condition. -/
abbrev cond2_0 (i : grid2.Coords) : Prop := (Scalar.cmpi .ne (Scalar.extui (Scalar.cmpi .eq (BitVec.ofNat 32 (i 2).val) 0#32)) 0#32) = 1#1
/-- It holds at the even points (column half 0). -/
theorem hcond2_0 : ∀ t : Fin cfg2.N, cond2_0 (grid2.coords t) ↔ t.val % 2 = 0 :=
  (by decide +kernel : ∀ t : Fin grid2.N, cond2_0 (grid2.coords t) ↔ t.val % 2 = 0)
/-- The result is stored: the second branch's condition. -/
abbrev cond2_1 (i : grid2.Coords) : Prop := k2_cond2 i = 1#1
/-- It holds at the odd points (column half 1). -/
theorem hcond2_1 : ∀ t : Fin cfg2.N, cond2_1 (grid2.coords t) ↔ t.val % 2 = 1 :=
  (by decide +kernel : ∀ t : Fin grid2.N, cond2_1 (grid2.coords t) ↔ t.val % 2 = 1)

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
/-- Where the result is not stored the output window is idle and its block is not written back. -/
theorem idleAt2_4 : ∀ t : Fin cfg2.N, ¬cond2_1 (grid2.coords t) → cfg2.idle 4 (grid2.coords t) = true := by decide +kernel
theorem noFlush2_4 : ∀ t : Fin cfg2.N, ¬cond2_1 (grid2.coords t) → (cfg2.win 4).flush t = false := by decide +kernel
theorem liveAt2_4 : ∀ t : Fin cfg2.N, cond2_1 (grid2.coords t) → cfg2.idle 4 (grid2.coords t) = false := by decide +kernel

abbrev VO2_4 : View sig .tc .vmem S1x2048x64 .f32 := (Memref.whole cc2_stg4_0 : Memref sig .tc .vmem S1x2048x64 .f32).view
abbrev ms2_0 (t : Fin cfg2.N) : Memref sig .tc .vmem S1x2048x2048 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x2048x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x2048x64 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S4x2048 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x2048x64 .f32 := win2_4.stage (cfg2.slots t 4)
abbrev hs2_4 (t : Fin cfg2.N) : (ms2_4 t).IsWhole := hstage2_4 ((cfg2.slots t 4).cast nbuf2_4)
/-- The accumulator: a whole scoped buffer of the kernel's own. -/
abbrev scM2_0 : Memref sig .tc .vmem S2048x64 .f32 := Memref.whole cc2_scratch0
abbrev VS2_0 : View sig .tc .vmem S2048x64 .f32 := scM2_0.view

set_option maxHeartbeats 2000000 in
/-- EVEN POINTS (zeroing branch taken, storing branch not): the idle output's buffer is handed back untouched, the
    accumulator, at anything before, ends with the run's pieces written. -/
noncomputable def kernelRun2_A (c : Dev nD) (i : grid2.Coords) (arg3 : Memref sig .tc .vmem S1x2048x2048 .f32) (harg3 : arg3.IsWhole) (arg4 : Memref sig .tc .vmem S1x2048x64 .f32) (harg4 : arg4.IsWhole) (arg5 : Memref sig .tc .vmem S1x2048x64 .f32) (harg5 : arg5.IsWhole) (arg6 : Memref sig .tc .vmem S4x2048 .f32) (harg6 : arg6.IsWhole) (arg7 : Memref sig .tc .vmem S1x2048x64 .f32) (harg7 : arg7.IsWhole) (arg8 : Memref sig .tc .vmem S2048x64 .f32) (harg8 : arg8.IsWhole) (hc0 : cond2_0 i) (hc1 : ¬cond2_1 i)
    (x0 : Vec F S1x2048x2048 .f32) (x1 : Vec F S1x2048x64 .f32) (x2 : Vec F S1x2048x64 .f32) (x3 : Vec F S4x2048 .f32) :
    Σ' (L4 : List (View.Piece (Elt F) S1x2048x64 .f32)), { LS0 : List (View.Piece (Elt F) S2048x64 .f32) //
      ∀ (xi4 : Vec F S1x2048x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc2__gcn_kernel i arg3 harg3 arg4 harg4 arg5 harg5 arg6 harg6 arg7 harg7 arg8 harg8) K } := by
  refine ⟨[], ?_, fun xi4 E K => ?run⟩
  case run =>
    simp only [cc2__gcn_kernel_eq_skeleton]; unfold cc2__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

set_option maxHeartbeats 2000000 in
/-- ODD POINTS (storing branch taken): the accumulator comes in at what the point before left; the output's buffer, at
    anything before, ends with the run's pieces written. -/
noncomputable def kernelRun2_C (c : Dev nD) (i : grid2.Coords) (arg3 : Memref sig .tc .vmem S1x2048x2048 .f32) (harg3 : arg3.IsWhole) (arg4 : Memref sig .tc .vmem S1x2048x64 .f32) (harg4 : arg4.IsWhole) (arg5 : Memref sig .tc .vmem S1x2048x64 .f32) (harg5 : arg5.IsWhole) (arg6 : Memref sig .tc .vmem S4x2048 .f32) (harg6 : arg6.IsWhole) (arg7 : Memref sig .tc .vmem S1x2048x64 .f32) (harg7 : arg7.IsWhole) (arg8 : Memref sig .tc .vmem S2048x64 .f32) (harg8 : arg8.IsWhole) (hc0 : ¬cond2_0 i) (hc1 : cond2_1 i)
    (x0 : Vec F S1x2048x2048 .f32) (x1 : Vec F S1x2048x64 .f32) (x2 : Vec F S1x2048x64 .f32) (x3 : Vec F S4x2048 .f32) (xs0 : Vec F S2048x64 .f32) :
    Σ' (L4 : List (View.Piece (Elt F) S1x2048x64 .f32)), { LS0 : List (View.Piece (Elt F) S2048x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0)) -∗ K ⟨⟩))
          ⊢ wp frame (wpE (defs₀ (F := F)) Variants.none c none) E (cc2__gcn_kernel i arg3 harg3 arg4 harg4 arg5 harg5 arg6 harg6 arg7 harg7 arg8 harg8) K } := by
  refine ⟨?_, ?_, fun E K => ?run⟩
  case run =>
    simp only [cc2__gcn_kernel_eq_skeleton]; unfold cc2__gcn_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS0

end Cert.Kernel.Hand

end
-- ==== Proof.KReg2.lean ====
import proofs.«133457_j80410377716426_1_alg».proof.Proof.Gen.Kernel.Launch
import proofs.«133457_j80410377716426_1_alg».proof.Proof.Gen.Kernel.Skeleton
import proofs.«133457_j80410377716426_1_alg».proof.Proof.Gen.Kernel.Points
import proofs.«133457_j80410377716426_1_alg».proof.Proof.KReg2Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The call's invariant between points with the accumulator, the last of its scoped buffers, as a memref owned at some contents. -/
theorem PhiA2_eq (c : Dev nD) :
    (Pipeline.ΦA spec2 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ d, owns (c : Thread nD τ) scM2_0 fullShare d)) ∗ (∃ r, prngReg c r)) := by
  unfold Pipeline.ΦA; rw [scopedRest2_eq]; simp only [scM2_0, owns_whole]; try rfl

/-! ## What each case leaves in the accumulator and in the output's buffer -/

def out2_A_4 (c : Dev nD) (i : grid2.Coords) (arg3 : Memref sig .tc .vmem S1x2048x2048 .f32) (harg3 : arg3.IsWhole) (arg4 : Memref sig .tc .vmem S1x2048x64 .f32) (harg4 : arg4.IsWhole) (arg5 : Memref sig .tc .vmem S1x2048x64 .f32) (harg5 : arg5.IsWhole) (arg6 : Memref sig .tc .vmem S4x2048 .f32) (harg6 : arg6.IsWhole) (arg7 : Memref sig .tc .vmem S1x2048x64 .f32) (harg7 : arg7.IsWhole) (arg8 : Memref sig .tc .vmem S2048x64 .f32) (harg8 : arg8.IsWhole) (hc0 : cond2_0 i) (hc1 : ¬cond2_1 i) (x0 : Vec F S1x2048x2048 .f32) (x1 : Vec F S1x2048x64 .f32) (x2 : Vec F S1x2048x64 .f32) (x3 : Vec F S4x2048 .f32) : Vec F S1x2048x64 .f32 :=
  VO2_4.read (Elt F) (VO2_4.writes (Elt F) VO2_4.junk (kernelRun2_A c i arg3 harg3 arg4 harg4 arg5 harg5 arg6 harg6 arg7 harg7 arg8 harg8 hc0 hc1 x0 x1 x2 x3).1)
theorem scover2_A_0 (c : Dev nD) (i : grid2.Coords) (arg3 : Memref sig .tc .vmem S1x2048x2048 .f32) (harg3 : arg3.IsWhole) (arg4 : Memref sig .tc .vmem S1x2048x64 .f32) (harg4 : arg4.IsWhole) (arg5 : Memref sig .tc .vmem S1x2048x64 .f32) (harg5 : arg5.IsWhole) (arg6 : Memref sig .tc .vmem S4x2048 .f32) (harg6 : arg6.IsWhole) (arg7 : Memref sig .tc .vmem S1x2048x64 .f32) (harg7 : arg7.IsWhole) (arg8 : Memref sig .tc .vmem S2048x64 .f32) (harg8 : arg8.IsWhole) (hc0 : cond2_0 i) (hc1 : ¬cond2_1 i) (x0 : Vec F S1x2048x2048 .f32) (x1 : Vec F S1x2048x64 .f32) (x2 : Vec F S1x2048x64 .f32) (x3 : Vec F S4x2048 .f32) (y : S2048x64.Idx) :
    ∃ pc ∈ (kernelRun2_A c i arg3 harg3 arg4 harg4 arg5 harg5 arg6 harg6 arg7 harg7 arg8 harg8 hc0 hc1 x0 x1 x2 x3).2.1, y ∈ pc.1.set :=
  View.cover_of_tiledL (kernelRun2_A c i arg3 harg3 arg4 harg4 arg5 harg5 arg6 harg6 arg7 harg7 arg8 harg8 hc0 hc1 x0 x1 x2 x3).2.1 S2048x64.size (by sl_kernel_rfl) y
/-- What an even point leaves in the accumulator. -/
def sout2_A_0 (c : Dev nD) (i : grid2.Coords) (arg3 : Memref sig .tc .vmem S1x2048x2048 .f32) (harg3 : arg3.IsWhole) (arg4 : Memref sig .tc .vmem S1x2048x64 .f32) (harg4 : arg4.IsWhole) (arg5 : Memref sig .tc .vmem S1x2048x64 .f32) (harg5 : arg5.IsWhole) (arg6 : Memref sig .tc .vmem S4x2048 .f32) (harg6 : arg6.IsWhole) (arg7 : Memref sig .tc .vmem S1x2048x64 .f32) (harg7 : arg7.IsWhole) (arg8 : Memref sig .tc .vmem S2048x64 .f32) (harg8 : arg8.IsWhole) (hc0 : cond2_0 i) (hc1 : ¬cond2_1 i) (x0 : Vec F S1x2048x2048 .f32) (x1 : Vec F S1x2048x64 .f32) (x2 : Vec F S1x2048x64 .f32) (x3 : Vec F S4x2048 .f32) : Vec F S2048x64 .f32 :=
  VS2_0.read (Elt F) (VS2_0.writes (Elt F) VS2_0.junk (kernelRun2_A c i arg3 harg3 arg4 harg4 arg5 harg5 arg6 harg6 arg7 harg7 arg8 harg8 hc0 hc1 x0 x1 x2 x3).2.1)

theorem cover2_C_4 (c : Dev nD) (i : grid2.Coords) (arg3 : Memref sig .tc .vmem S1x2048x2048 .f32) (harg3 : arg3.IsWhole) (arg4 : Memref sig .tc .vmem S1x2048x64 .f32) (harg4 : arg4.IsWhole) (arg5 : Memref sig .tc .vmem S1x2048x64 .f32) (harg5 : arg5.IsWhole) (arg6 : Memref sig .tc .vmem S4x2048 .f32) (harg6 : arg6.IsWhole) (arg7 : Memref sig .tc .vmem S1x2048x64 .f32) (harg7 : arg7.IsWhole) (arg8 : Memref sig .tc .vmem S2048x64 .f32) (harg8 : arg8.IsWhole) (hc0 : ¬cond2_0 i) (hc1 : cond2_1 i) (x0 : Vec F S1x2048x2048 .f32) (x1 : Vec F S1x2048x64 .f32) (x2 : Vec F S1x2048x64 .f32) (x3 : Vec F S4x2048 .f32) (xs0 : Vec F S2048x64 .f32) (y : S1x2048x64.Idx) :
    ∃ pc ∈ (kernelRun2_C c i arg3 harg3 arg4 harg4 arg5 harg5 arg6 harg6 arg7 harg7 arg8 harg8 hc0 hc1 x0 x1 x2 x3 xs0).1, y ∈ pc.1.set :=
  View.cover_of_tiledL (kernelRun2_C c i arg3 harg3 arg4 harg4 arg5 harg5 arg6 harg6 arg7 harg7 arg8 harg8 hc0 hc1 x0 x1 x2 x3 xs0).1 S1x2048x64.size (by sl_kernel_rfl) y
/-- What an odd point leaves in the output's buffer. -/
def out2_C_4 (c : Dev nD) (i : grid2.Coords) (arg3 : Memref sig .tc .vmem S1x2048x2048 .f32) (harg3 : arg3.IsWhole) (arg4 : Memref sig .tc .vmem S1x2048x64 .f32) (harg4 : arg4.IsWhole) (arg5 : Memref sig .tc .vmem S1x2048x64 .f32) (harg5 : arg5.IsWhole) (arg6 : Memref sig .tc .vmem S4x2048 .f32) (harg6 : arg6.IsWhole) (arg7 : Memref sig .tc .vmem S1x2048x64 .f32) (harg7 : arg7.IsWhole) (arg8 : Memref sig .tc .vmem S2048x64 .f32) (harg8 : arg8.IsWhole) (hc0 : ¬cond2_0 i) (hc1 : cond2_1 i) (x0 : Vec F S1x2048x2048 .f32) (x1 : Vec F S1x2048x64 .f32) (x2 : Vec F S1x2048x64 .f32) (x3 : Vec F S4x2048 .f32) (xs0 : Vec F S2048x64 .f32) : Vec F S1x2048x64 .f32 :=
  VO2_4.read (Elt F) (VO2_4.writes (Elt F) VO2_4.junk (kernelRun2_C c i arg3 harg3 arg4 harg4 arg5 harg5 arg6 harg6 arg7 harg7 arg8 harg8 hc0 hc1 x0 x1 x2 x3 xs0).1)
theorem scover2_C_0 (c : Dev nD) (i : grid2.Coords) (arg3 : Memref sig .tc .vmem S1x2048x2048 .f32) (harg3 : arg3.IsWhole) (arg4 : Memref sig .tc .vmem S1x2048x64 .f32) (harg4 : arg4.IsWhole) (arg5 : Memref sig .tc .vmem S1x2048x64 .f32) (harg5 : arg5.IsWhole) (arg6 : Memref sig .tc .vmem S4x2048 .f32) (harg6 : arg6.IsWhole) (arg7 : Memref sig .tc .vmem S1x2048x64 .f32) (harg7 : arg7.IsWhole) (arg8 : Memref sig .tc .vmem S2048x64 .f32) (harg8 : arg8.IsWhole) (hc0 : ¬cond2_0 i) (hc1 : cond2_1 i) (x0 : Vec F S1x2048x2048 .f32) (x1 : Vec F S1x2048x64 .f32) (x2 : Vec F S1x2048x64 .f32) (x3 : Vec F S4x2048 .f32) (xs0 : Vec F S2048x64 .f32) (y : S2048x64.Idx) :
    ∃ pc ∈ (kernelRun2_C c i arg3 harg3 arg4 harg4 arg5 harg5 arg6 harg6 arg7 harg7 arg8 harg8 hc0 hc1 x0 x1 x2 x3 xs0).2.1, y ∈ pc.1.set :=
  View.cover_of_tiledL (kernelRun2_C c i arg3 harg3 arg4 harg4 arg5 harg5 arg6 harg6 arg7 harg7 arg8 harg8 hc0 hc1 x0 x1 x2 x3 xs0).2.1 S2048x64.size (by sl_kernel_rfl) y
def sout2_C_0 (c : Dev nD) (i : grid2.Coords) (arg3 : Memref sig .tc .vmem S1x2048x2048 .f32) (harg3 : arg3.IsWhole) (arg4 : Memref sig .tc .vmem S1x2048x64 .f32) (harg4 : arg4.IsWhole) (arg5 : Memref sig .tc .vmem S1x2048x64 .f32) (harg5 : arg5.IsWhole) (arg6 : Memref sig .tc .vmem S4x2048 .f32) (harg6 : arg6.IsWhole) (arg7 : Memref sig .tc .vmem S1x2048x64 .f32) (harg7 : arg7.IsWhole) (arg8 : Memref sig .tc .vmem S2048x64 .f32) (harg8 : arg8.IsWhole) (hc0 : ¬cond2_0 i) (hc1 : cond2_1 i) (x0 : Vec F S1x2048x2048 .f32) (x1 : Vec F S1x2048x64 .f32) (x2 : Vec F S1x2048x64 .f32) (x3 : Vec F S4x2048 .f32) (xs0 : Vec F S2048x64 .f32) : Vec F S2048x64 .f32 :=
  VS2_0.read (Elt F) (VS2_0.writes (Elt F) VS2_0.junk (kernelRun2_C c i arg3 harg3 arg4 harg4 arg5 harg5 arg6 harg6 arg7 harg7 arg8 harg8 hc0 hc1 x0 x1 x2 x3 xs0).2.1)

/-! ## The accumulation over the sixteen points -/

/-- What the output's buffer (first component) and the accumulator (second) hold after the body at point `n`. -/
def outsAt2 (c : Dev nD) : (n : ℕ) → n < cfg2.N → Vec F S1x2048x64 .f32 × Vec F S2048x64 .f32
  | 0, hn =>
    have h0 : (⟨0, hn⟩ : Fin cfg2.N).val % 2 = 0 := Nat.zero_mod 2
    have h1 : ¬ (⟨0, hn⟩ : Fin cfg2.N).val % 2 = 1 := fun h => Nat.zero_ne_one ((Nat.zero_mod 2).symm.trans h)
    (out2_A_4 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) ((hcond2_0 ⟨0, hn⟩).mpr h0) (fun h => h1 ((hcond2_1 ⟨0, hn⟩).mp h)) (iblk2 V c 0 ⟨0, hn⟩) (iblk2 V c 1 ⟨0, hn⟩) (iblk2 V c 2 ⟨0, hn⟩) (iblk2 V c 3 ⟨0, hn⟩),
     sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) ((hcond2_0 ⟨0, hn⟩).mpr h0) (fun h => h1 ((hcond2_1 ⟨0, hn⟩).mp h)) (iblk2 V c 0 ⟨0, hn⟩) (iblk2 V c 1 ⟨0, hn⟩) (iblk2 V c 2 ⟨0, hn⟩) (iblk2 V c 3 ⟨0, hn⟩))
  | n + 1, hn =>
    if h0 : (⟨n + 1, hn⟩ : Fin cfg2.N).val % 2 = 0 then
      have h1 : ¬ (⟨n + 1, hn⟩ : Fin cfg2.N).val % 2 = 1 := fun h => by omega
      (out2_A_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩),
       sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩))
    else
      have h1 : (⟨n + 1, hn⟩ : Fin cfg2.N).val % 2 = 1 := by omega
      (out2_C_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2,
       sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2)

theorem outsAt2_A (c : Dev nD) (t : Fin cfg2.N) (h0 : t.val % 2 = 0) (h1 : ¬t.val % 2 = 1) :
    outsAt2 V c t.val t.isLt = (out2_A_4 c (grid2.coords t) (ms2_0 t) (hs2_0 t) (ms2_1 t) (hs2_1 t) (ms2_2 t) (hs2_2 t) (ms2_3 t) (hs2_3 t) (ms2_4 t) (hs2_4 t) scM2_0 (Memref.isWhole_whole _) ((hcond2_0 t).mpr h0) (fun h => h1 ((hcond2_1 t).mp h)) (iblk2 V c 0 t) (iblk2 V c 1 t) (iblk2 V c 2 t) (iblk2 V c 3 t), sout2_A_0 c (grid2.coords t) (ms2_0 t) (hs2_0 t) (ms2_1 t) (hs2_1 t) (ms2_2 t) (hs2_2 t) (ms2_3 t) (hs2_3 t) (ms2_4 t) (hs2_4 t) scM2_0 (Memref.isWhole_whole _) ((hcond2_0 t).mpr h0) (fun h => h1 ((hcond2_1 t).mp h)) (iblk2 V c 0 t) (iblk2 V c 1 t) (iblk2 V c 2 t) (iblk2 V c 3 t)) := by
  obtain ⟨n, hn⟩ := t
  cases n with
  | zero => exact rfl
  | succ n => exact (dif_pos h0).trans rfl

theorem outsAt2_C (c : Dev nD) (t : Fin cfg2.N) (h0 : ¬t.val % 2 = 0) (h1 : t.val % 2 = 1) :
    outsAt2 V c t.val t.isLt = (out2_C_4 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2) := by
  obtain ⟨n, hn⟩ := t
  cases n with
  | zero => exact absurd (Nat.zero_mod 2) h0
  | succ n => exact (dif_neg h0).trans rfl

/-- The call's invariant before position `n`. -/
def PhiS2 (c : Dev nD) : (n : ℕ) → n ≤ cfg2.N → sProp 𝕄
  | 0, _ => Pipeline.ΦA spec2 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ owns (c : Thread nD τ) scM2_0 fullShare ((outsAt2 V c n hn).2)) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ owns (c : Thread nD τ) scM2_0 fullShare ((outsAt2 V c n hn).2)) ∗ (∃ r, prngReg c r)) := rfl
theorem PhiS2_pos (c : Dev nD) (n : ℕ) (h : n ≤ cfg2.N) (hz : n ≠ 0) :
    PhiS2 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ owns (c : Thread nD τ) scM2_0 fullShare ((outsAt2 V c (n - 1) (by omega)).2)) ∗ (∃ r, prngReg c r)) := by
  cases n with
  | zero => exact absurd rfl hz
  | succ n => rfl

/-! ## The proof data -/

/-- The arrays as the call finds them — the scaled features' array is staged through two windows, each holding half of
    it —; after the body at point `t` each input's buffer at its block and the output's at `outsAt2`'s first component;
    the invariant `PhiS2`; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
  Φ t := PhiS2 V c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4800000 in
/-- The body at any point: the inputs' memrefs hold their blocks; the point's parity says which case it is in; the
    invariant hands the body the accumulator and takes it back at this point's contents. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  have hN : t.val < 16 := lt_of_lt_of_eq t.isLt (show cfg2.N = 16 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  by_cases h0 : t.val % 2 = 0
  · have h1 : ¬ t.val % 2 = 1 := by omega
    rw [Dat.leavesExact_idle (dat2 V c) 4 t (idleAt2_4 t (fun h => h1 ((hcond2_1 t).mp h))) (noFlush2_4 t (fun h => h1 ((hcond2_1 t).mp h)))]
    rw [outsAt2_A V c t h0 h1]
    unfold sout2_A_0; (try dsimp only)
    by_cases hz : t.val = 0
    · rw [PhiS2_castSucc V c t, PhiS2_zero V c _ _ hz, PhiA2_eq]
      iintro ⟨⟨⟨R1, R2, R3, R4, R5, R6, R7, R8, R9, R10, R11, HS0⟩, Hg⟩, Ho, ⟨%d0, H0⟩, ⟨%d1, H1⟩, ⟨%d2, H2⟩, ⟨%d3, H3⟩, ⟨%d4, H4⟩⟩
      iapply ((kernelRun2_A c (grid2.coords t) _ _ _ _ _ _ _ _ _ _ _ _ ((hcond2_0 t).mpr h0) (fun h => h1 ((hcond2_1 t).mp h)) (iblk2 V c 0 t) (iblk2 V c 1 t) (iblk2 V c 2 t) (iblk2 V c 3 t)).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [R1 R2 R3 R4 R5 R6 R7 R8 R9 R10 R11 HS0 Hg]
      · isplitl [R1 R2 R3 R4 R5 R6 R7 R8 R9 R10 R11 HS0]
        · isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          isplitl [R11]; · iexact R11
          unfold owns; iexists _; isplitr
          swap; · iexact HS0
          ipureintro; exact View.read_writes_of_cover _ _ _ _ _ (scover2_A_0 c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
    · rw [PhiS2_castSucc V c t, PhiS2_pos V c _ _ hz]
      iintro ⟨⟨⟨R1, R2, R3, R4, R5, R6, R7, R8, R9, R10, R11, HS0⟩, Hg⟩, Ho, ⟨%d0, H0⟩, ⟨%d1, H1⟩, ⟨%d2, H2⟩, ⟨%d3, H3⟩, ⟨%d4, H4⟩⟩
      iapply ((kernelRun2_A c (grid2.coords t) _ _ _ _ _ _ _ _ _ _ _ _ ((hcond2_0 t).mpr h0) (fun h => h1 ((hcond2_1 t).mp h)) (iblk2 V c 0 t) (iblk2 V c 1 t) (iblk2 V c 2 t) (iblk2 V c 3 t)).2.2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [R1 R2 R3 R4 R5 R6 R7 R8 R9 R10 R11 HS0 Hg]
      · isplitl [R1 R2 R3 R4 R5 R6 R7 R8 R9 R10 R11 HS0]
        · isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          isplitl [R11]; · iexact R11
          unfold owns; iexists _; isplitr
          swap; · iexact HS0
          ipureintro; exact View.read_writes_of_cover _ _ _ _ _ (scover2_A_0 c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
  · have h1 : t.val % 2 = 1 := by omega
    have hz : t.val ≠ 0 := by omega
    rw [show (dat2 V c).leavesExact 4 t = owns (c : Thread nD τ) (ms2_4 t) fullShare ((dat2 V c).after 4 t) from by
      unfold Dat.leavesExact; rw [liveAt2_4 t ((hcond2_1 t).mpr h1)], after2_4]
    rw [outsAt2_C V c t h0 h1]
    unfold out2_C_4 sout2_C_0; (try dsimp only)
    rw [PhiS2_castSucc V c t, PhiS2_pos V c _ _ hz]
    iintro ⟨⟨⟨R1, R2, R3, R4, R5, R6, R7, R8, R9, R10, R11, HS0⟩, Hg⟩, Ho, ⟨%d0, H0⟩, ⟨%d1, H1⟩, ⟨%d2, H2⟩, ⟨%d3, H3⟩, ⟨%d4, H4⟩⟩
    iapply ((kernelRun2_C c (grid2.coords t) _ _ _ _ _ _ _ _ _ _ _ _ (fun h => h0 ((hcond2_0 t).mp h)) ((hcond2_1 t).mpr h1) (iblk2 V c 0 t) (iblk2 V c 1 t) (iblk2 V c 2 t) (iblk2 V c 3 t) _).2.2 Set.univ _)
    isplitl [H0]; · iexact H0
    isplitl [H1]; · iexact H1
    isplitl [H2]; · iexact H2
    isplitl [H3]; · iexact H3
    isplitl [H4]; · iexists _; iexact H4
    isplitl [HS0]; · iexact HS0
    iintro ⟨H0, H1, H2, H3, ⟨%e4, H4⟩, ⟨%es0, HS0⟩⟩
    isplitl [R1 R2 R3 R4 R5 R6 R7 R8 R9 R10 R11 HS0 Hg]
    · isplitl [R1 R2 R3 R4 R5 R6 R7 R8 R9 R10 R11 HS0]
      · isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [R10]; · iexact R10
        isplitl [R11]; · iexact R11
        unfold owns; iexists _; isplitr
        swap; · iexact HS0
        ipureintro; exact View.read_writes_of_cover _ _ _ _ _ (scover2_C_0 c _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover2_C_4 c _ _ _ _ _ _ _ _ _ _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

theorem hout2 (c : Dev nD) : (dat2 V c).Φ (Fin.last cfg2.N) ⊢ Pipeline.ΦA spec2 c := by
  have ht : (Fin.last cfg2.N).val ≠ 0 := by rw [Fin.val_last]; have : cfg2.N = 16 := N_2; omega
  rw [show (dat2 V c).Φ (Fin.last cfg2.N) = PhiS2 V c (Fin.last cfg2.N).val (Nat.le_of_lt_succ (Fin.last cfg2.N).isLt) from rfl, PhiS2_pos V c _ _ ht, PhiA2_eq]
  iintro ⟨⟨R1, R2, R3, R4, R5, R6, R7, R8, R9, R10, R11, HS0⟩, Hg⟩
  isplitl [R1 R2 R3 R4 R5 R6 R7 R8 R9 R10 R11 HS0]
  · isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    iexists _; iexact HS0
  iexact Hg

end Cert.Kernel.Hand

end
-- ==== Proof.KRun.lean ====
import proofs.«133457_j80410377716426_1_alg».proof.Proof.Gen.Kernel.Launch
import proofs.«133457_j80410377716426_1_alg».proof.Proof.Gen.Kernel.Skeleton
import proofs.«133457_j80410377716426_1_alg».proof.Proof.Gen.Kernel.Points
import proofs.«133457_j80410377716426_1_alg».proof.Proof.KReg0
import proofs.«133457_j80410377716426_1_alg».proof.Proof.KReg1
import proofs.«133457_j80410377716426_1_alg».proof.Proof.KReg2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run: the three calls in order, from the launch to the return

## The buffer contents at each boundary -/

/-- Core `c`'s buffers at launch (the first call's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the first call: its arrays at what its write-backs leave, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the second call. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-- After the third call: its result array at what its write-backs leave, every other buffer as entered (the call's
    other arrays are inputs, two of its windows staging one of them). -/
def W3 (c : Dev nD) : Valuation τ sig (Elt F) :=
  Function.update (W2 m ρ c) (Proc.devRef .tc main_v2) ((dat2 (V2 m ρ) c).arrAt 4 cfg2.N)
theorem W3_self (c : Dev nD) : W3 m ρ c (Proc.devRef .tc main_v2) = (dat2 (V2 m ρ) c).arrAt 4 cfg2.N := by
  unfold W3; exact Function.update_self _ _ _
theorem W3_of_ne (c : Dev nD) (b : Ref sig .tc) (hb : b ≠ main_v2) :
    W3 m ρ c (Proc.devRef .tc b) = W2 m ρ c (Proc.devRef .tc b) := by
  unfold W3; exact Function.update_of_ne (StableHlo.devRef_ne_of_ne hb) _ _
abbrev V3 : (c : Dev nD) → (b : Ref sig .tc) → Buf (Elt F) ((c : Thread nD τ).loc b) := fun c b => W3 m ρ c b

/-! ### The arguments end as launched -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := (W2_arr m ρ c 0).trans (((dat1 (V1 m ρ) c).arrAt_in 0 rfl _).trans (A_eq1 (V1 m ρ) c 0))
    _ = W0 m ρ c (Proc.devRef .tc main_arg1) := W1_of_ne m ρ c main_arg1 (by decide)
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := (W2_arr m ρ c 1).trans (((dat1 (V1 m ρ) c).arrAt_in 1 rfl _).trans (A_eq1 (V1 m ρ) c 1))
    _ = W0 m ρ c (Proc.devRef .tc main_arg2) := W1_of_ne m ρ c main_arg2 (by decide)
    _ = m ((c : Thread nD τ).loc main_arg2) := rfl

/-! ## The proof data family and the thread state -/

abbrev adm : (p : Fin 3) → (pcfgs (F := F) p).Adm := fun p => (cfgs p).toPCfg_adm
/-- Every call's proof data, each at its entry contents. -/
def pdats : (p : Fin 3) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
  | ⟨2, _⟩ => fun c => dat2 (V2 m ρ) c
abbrev 𝒱₀ : Variants := Variants.none
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-- The core's six unscoped buffers, one by one. -/
theorem unscopedBufs_list (c : Dev nD) (V : (b : Ref sig .tc) → Buf (Elt F) ((c : Thread nD τ).loc b)) :
    (unscopedBufs (Ix := Unit) (Name := ℕ) (U := UR sig nD τ) (Lvl := ℕ) c V : sProp 𝕄)
      = iprop((((c : Thread nD τ).loc main_arg0) ↦{fullShare} V main_arg0) ∗ (((c : Thread nD τ).loc main_arg1) ↦{fullShare} V main_arg1) ∗ (((c : Thread nD τ).loc main_arg2) ↦{fullShare} V main_arg2) ∗ (((c : Thread nD τ).loc main_v0) ↦{fullShare} V main_v0) ∗ (((c : Thread nD τ).loc main_v1) ↦{fullShare} V main_v1) ∗ (((c : Thread nD τ).loc main_v2) ↦{fullShare} V main_v2)) := by
  unfold unscopedBufs
  exact bigSep_eq_bigSepL_of_eq [main_arg0, main_arg1, main_arg2, main_v0, main_v1, main_v2] (by decide) (by decide) _

/-- The third call's arrays, window by window: the adjacency batch, the scaled features twice at half shares, the
    inverse square-root degrees, the result. -/
theorem arrays2_eq (c : Dev nD) (Fa : (w : Fin cfg2.W) → Buf (Elt F) (((cfg2.win w).arr.view.loc (c : Thread nD τ)))) :
    ((dat2 (V2 m ρ) c).arrays Fa : sProp 𝕄)
      = iprop((((c : Thread nD τ).loc main_arg0) ↦{fullShare} Fa 0) ∗ (((c : Thread nD τ).loc main_v1) ↦{fullShare.left} Fa 1) ∗ (((c : Thread nD τ).loc main_v1) ↦{fullShare.right} Fa 2) ∗ (((c : Thread nD τ).loc main_v0) ↦{fullShare} Fa 3) ∗ (((c : Thread nD τ).loc main_v2) ↦{fullShare} Fa 4)) := by
  unfold Dat.arrays
  rw [bigSep_W2, (arr_whole2 0).set_eq_univ, (arr_whole2 1).set_eq_univ, (arr_whole2 3).set_eq_univ, (arr_whole2 4).set_eq_univ]
  rfl

/-! ## The calls as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin0 (V0 m ρ) c
    unfold Pipeline.ΦA at h
    rw [show (pdats m ρ 0 c).Φ 0 = (dat0 (V0 m ρ) c).Φ 0 from rfl]
    iintro ⟨Hp, -, Hr⟩
    iapply h
    isplitl [Hr]; · iexact Hr
    iexact Hp
  hout c := by
    rw [Pipeline.ownSems0_none]
    have h := hout0 (V0 m ρ) c
    unfold Pipeline.ΦA at h
    rw [show (pdats m ρ 0 c).Φ (Fin.last _) = (dat0 (V0 m ρ) c).Φ (Fin.last cfg0.N) from rfl]
    iintro Hq
    ihave H := h $$ Hq
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The third call: the scaled features' array is split into two half shares at entry, one per window staging it, and
    the halves are joined again at exit. -/
def reg2 : Pipeline.RegionSeg (pcfgs (F := F)) adm (pdats m ρ) () defs₀ 𝒱₀ L lv 2 where
  win := winFacts₀2
  block_pos := block_pos2
  stage_whole := stage_whole2
  K := PEmpty
  osem k := k.elim
  ho := Pipeline.OwnSemFacts.none _
  hbody c := (body_obligation2 (V2 m ρ) c).loose
  hwaits := Pipeline.hwaits_of_owed_zero _ _ _ _ L lv 2 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := iprop((((c : Thread nD τ).loc main_arg1) ↦{fullShare} V2 m ρ c main_arg1) ∗ (((c : Thread nD τ).loc main_arg2) ↦{fullShare} V2 m ρ c main_arg2))
  hentry c := by
    rw [Pipeline.ownSems0_none]
    have hl := unscopedBufs_list c (V2 m ρ c)
    rw [Pipeline.unscopedBufs_held] at hl
    rw [hl, show (pdats m ρ 2 c) = dat2 (V2 m ρ) c from rfl, arrays2_eq]
    iintro ⟨⟨⟨Ha0, Ha1, Ha2, Hv0, Hv1, Hv2⟩, Hp, HO⟩, -, -⟩
    ihave Hs := (pointsTo_share (PosShare.mem_left_op_right fullShare)).1 $$ Hv1
    icases Hs with ⟨Hv1l, Hv1r⟩
    imodintro
    isplitl [Ha0 Hv0 Hv1l Hv1r Hv2]
    · isplitl [Ha0]; · iexact Ha0
      isplitl [Hv1l]; · iexact Hv1l
      isplitl [Hv1r]; · iexact Hv1r
      isplitl [Hv0]; · iexact Hv0
      iexact Hv2
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    isplitl [Ha1]; · iexact Ha1
    iexact Ha2
  hin c := by
    have h := hin2 (V2 m ρ) c
    unfold Pipeline.ΦA at h
    rw [show (pdats m ρ 2 c).Φ 0 = (dat2 (V2 m ρ) c).Φ 0 from rfl]
    iintro ⟨Hp, -, Hr⟩
    iapply h
    isplitl [Hr]; · iexact Hr
    iexact Hp
  hout c := by
    rw [Pipeline.ownSems0_none]
    have h := hout2 (V2 m ρ) c
    unfold Pipeline.ΦA at h
    rw [show (pdats m ρ 2 c).Φ (Fin.last _) = (dat2 (V2 m ρ) c).Φ (Fin.last cfg2.N) from rfl]
    iintro Hq
    ihave H := h $$ Hq
    icases H with ⟨Hr, Hp⟩
    isplitl [Hp]; · iexact Hp
    isplitr; · iempintro
    iexact Hr
  hexit c := by
    have hl := unscopedBufs_list c (V3 m ρ c)
    rw [Pipeline.unscopedBufs_held] at hl
    rw [show Tₙ m ρ c = iprop(StableHlo.held (c : Thread nD τ) (Pipeline.ucRefs τ sig) (W3 m ρ c) ∗ ∃ r, prngReg c r) from rfl, hl, show (pdats m ρ 2 c) = dat2 (V2 m ρ) c from rfl, arrays2_eq]
    rw [(dat2 (V2 m ρ) c).arrAt_in 0 rfl _, (dat2 (V2 m ρ) c).arrAt_in 1 rfl _, (dat2 (V2 m ρ) c).arrAt_in 2 rfl _, (dat2 (V2 m ρ) c).arrAt_in 3 rfl _]
    rw [show V3 m ρ c main_arg0 = V2 m ρ c main_arg0 from W3_of_ne m ρ c main_arg0 (by decide),
      show V3 m ρ c main_arg1 = V2 m ρ c main_arg1 from W3_of_ne m ρ c main_arg1 (by decide),
      show V3 m ρ c main_arg2 = V2 m ρ c main_arg2 from W3_of_ne m ρ c main_arg2 (by decide),
      show V3 m ρ c main_v0 = V2 m ρ c main_v0 from W3_of_ne m ρ c main_v0 (by decide),
      show V3 m ρ c main_v1 = V2 m ρ c main_v1 from W3_of_ne m ρ c main_v1 (by decide),
      show V3 m ρ c main_v2 = (dat2 (V2 m ρ) c).arrAt 4 cfg2.N from W3_self m ρ c]
    iintro ⟨⟨Ha0, Hv1l, Hv1r, Hv0, Hv2⟩, HO, HY, Ha1, Ha2⟩
    ihave Hv1 := (pointsTo_share (PosShare.mem_left_op_right fullShare)).2 $$ [Hv1l Hv1r]
    · isplitl [Hv1l]; · iexact Hv1l
      iexact Hv1r
    imodintro
    isplitl [Ha0 Ha1 Ha2 Hv0 Hv1 Hv2 HY]
    · isplitl [Ha0 Ha1 Ha2 Hv0 Hv1 Hv2]
      · isplitl [Ha0]; · iexact Ha0
        isplitl [Ha1]; · iexact Ha1
        isplitl [Ha2]; · iexact Ha2
        isplitl [Hv0]; · iexact Hv0
        isplitl [Hv1]; · iexact Hv1
        iexact Hv2
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ), .region (reg1 m ρ), .region (reg2 m ρ) ]
theorem main_run (c : Dev nD) : main (F := F) c = Pipeline.Seg.run (segs m ρ) := (main_chain c).trans (by chain_rfl)

set_option backward.isDefEq.respectTransparency.types false in
/-- From any memory with zero counters, every weakly fair execution of the program terminates without a fault, and
    every final state has the result array at what the third call's write-backs leave and the three argument arrays as
    launched. -/
theorem run_all : θ_run defs (onTc (τ := τ) (main (F := F))) ⟨m, fun _ => 0, ρ⟩ (fun r => ∀ c : Dev nD,
      r.2.mem ((c.tc : Thread nD τ).loc main_v2) = (dat2 (V2 m ρ) c).arrAt 4 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v2 (by decide))).trans (W3_self m ρ c),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c)⟩)

end Cert.Kernel.Hand

end
-- ==== Proof.KIReg0Run.lean ====
import proofs.«133457_j80410377716426_1_alg».proof.Proof.Gen.KernelIdeal.Launch
import proofs.«133457_j80410377716426_1_alg».proof.Proof.Gen.KernelIdeal.Skeleton
import proofs.«133457_j80410377716426_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The degree kernel (the first call), at the buffer contents `V` it is entered from

The grid has sixteen points; point `t` stages rows `256 t … 256 t + 255` of every graph's adjacency matrix. A scratch
accumulator is zeroed at the first point, takes the block's column sums at every point, and at the last point its
inverse square root (after adding one) is stored into the output block, which is the whole `4 × 4096` result. -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is `V`'s
    and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The two branches, decided over the grid -/

/-- The accumulator is zeroed: the first branch's condition, from the grid coordinate. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val = 0 :=
  (by decide +kernel : ∀ t : Fin grid0.N, cond0_0 (grid0.coords t) ↔ t.val = 0)
/-- The result is stored: the second branch's condition. -/
abbrev cond0_1 (i : grid0.Coords) : Prop := k0_cond2 i = 1#1
/-- It holds at the last point only. -/
theorem hcond0_1 : ∀ t : Fin cfg0.N, cond0_1 (grid0.coords t) ↔ t.val = 15 :=
  (by decide +kernel : ∀ t : Fin grid0.N, cond0_1 (grid0.coords t) ↔ t.val = 15)

/-- The input window is never idle. -/
theorem liveAt0_0 : ∀ t : Fin cfg0.N, cfg0.idle 0 (grid0.coords t) = false := by decide +kernel
/-- Where the result is not stored the output window is idle, -/
theorem idleAt0_1 : ∀ t : Fin cfg0.N, ¬cond0_1 (grid0.coords t) → cfg0.idle 1 (grid0.coords t) = true := by decide +kernel
/-- and its block is not written back; -/
theorem noFlush0_1 : ∀ t : Fin cfg0.N, ¬cond0_1 (grid0.coords t) → (cfg0.win 1).flush t = false := by decide +kernel
/-- where it is stored the window is live. -/
theorem liveAt0_1 : ∀ t : Fin cfg0.N, cond0_1 (grid0.coords t) → cfg0.idle 1 (grid0.coords t) = false := by decide +kernel

/-! ## The memrefs the body is called with -/

abbrev VO0_1 : View sig .tc .vmem S4x4096 .f32 := (Memref.whole cc0_stg1_0 : Memref sig .tc .vmem S4x4096 .f32).view
abbrev ms0_0 (t : Fin cfg0.N) : Memref sig .tc .vmem S4x256x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4x4096 .f32 := win0_1.stage (cfg0.slots t 1)
abbrev hs0_1 (t : Fin cfg0.N) : (ms0_1 t).IsWhole := hstage0_1 ((cfg0.slots t 1).cast nbuf0_1)
/-- The accumulator: a whole scoped buffer of the kernel's own. -/
abbrev scM0_0 : Memref sig .tc .vmem S4x4096 .f32 := Memref.whole cc0_scratch0
abbrev VS0_0 : View sig .tc .vmem S4x4096 .f32 := scM0_0.view

/-- The scoped buffers this call neither stages through nor accumulates in, each whole at some contents. -/
def restS0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f) ∗ (∃ f : Buf (Elt F) ((c : Thread nD τ).loc cc2_scratch0), ((c : Thread nD τ).loc cc2_scratch0) ↦{fullShare} f))

/-- The call's invariant between points with the accumulator split off as a memref owned at some contents. -/
theorem PhiA0_eq (c : Dev nD) :
    (Pipeline.ΦA spec0 c : sProp 𝕄)
      = iprop(iprop((∃ d, owns (c : Thread nD τ) scM0_0 fullShare d) ∗ restS0 c) ∗ (∃ r, prngReg c r)) := by
  unfold Pipeline.ΦA restS0; rw [scopedRest0_eq]; simp only [scM0_0, owns_whole]; try rfl

/-! ## The body's run in each of its three cases: first point, middle points, last point -/

set_option maxHeartbeats 1000000 in
/-- FIRST POINT (zeroing branch taken, storing branch not): on whole staging memrefs, the input's at its block, the
    idle output's handed back untouched, the accumulator at anything, the body runs and leaves the accumulator with the
    pieces the run finds written. -/
noncomputable def kernelRun0_A (c : Dev nD) (i : grid0.Coords) (arg1 : Memref sig .tc .vmem S4x256x4096 .f32) (harg1 : arg1.IsWhole) (arg2 : Memref sig .tc .vmem S4x4096 .f32) (harg2 : arg2.IsWhole) (arg3 : Memref sig .tc .vmem S4x4096 .f32) (harg3 : arg3.IsWhole) (hc0 : cond0_0 i) (hc1 : ¬cond0_1 i)
    (x0 : Vec F S4x256x4096 .f32) :
    Σ' (L1 : List (View.Piece (Elt F) S4x4096 .f32)), { LS0 : List (View.Piece (Elt F) S4x4096 .f32) //
      ∀ (xi1 : Vec F S4x4096 .f32) (E : Set ℕ) (K : PUnit → sProp 𝕄),
        iprop(owns (c : Thread nD τ) arg1 fullShare x0 ∗ owns (c : Thread nD τ) arg2 fullShare xi1 ∗ (∃ d, owns (c : Thread nD τ) arg3 fullShare d)
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc0__deg_kernel i arg1 harg1 arg2 harg2 arg3 harg3) K } := by
  refine ⟨[], ?_, fun xi1 E K => ?run⟩
  case run =>
    simp only [cc0__deg_kernel_eq_skeleton]; unfold cc0__deg_kernel_skel
    unfold owns
    iintro ⟨⟨%f0, %hf0, H0⟩, ⟨%f1, %hf1, H1⟩, ⟨%ds0, %fs0, -, HS0⟩, Hk⟩
    obtain rfl := harg1.eq_unread hf0; obtain rfl := harg2.eq_unread hf1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

set_option maxHeartbeats 1000000 in
/-- MIDDLE POINTS (neither branch taken): the accumulator comes in at what the point before left. -/
noncomputable def kernelRun0_B (c : Dev nD) (i : grid0.Coords) (arg1 : Memref sig .tc .vmem S4x256x4096 .f32) (harg1 : arg1.IsWhole) (arg2 : Memref sig .tc .vmem S4x4096 .f32) (harg2 : arg2.IsWhole) (arg3 : Memref sig .tc .vmem S4x4096 .f32) (harg3 : arg3.IsWhole) (hc0 : ¬cond0_0 i) (hc1 : ¬cond0_1 i)
    (x0 : Vec F S4x256x4096 .f32) (xs0 : Vec F S4x4096 .f32) :
    Σ' (L1 : List (View.Piece (Elt F) S4x4096 .f32)), { LS0 : List (View.Piece (Elt F) S4x4096 .f32) //
      ∀ (xi1 : Vec F S4x4096 .f32) (E : Set ℕ) (K : PUnit → sProp 𝕄),
        iprop(owns (c : Thread nD τ) arg1 fullShare x0 ∗ owns (c : Thread nD τ) arg2 fullShare xi1 ∗ owns (c : Thread nD τ) arg3 fullShare xs0
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc0__deg_kernel i arg1 harg1 arg2 harg2 arg3 harg3) K } := by
  refine ⟨[], ?_, fun xi1 E K => ?run⟩
  case run =>
    simp only [cc0__deg_kernel_eq_skeleton]; unfold cc0__deg_kernel_skel
    unfold owns
    iintro ⟨⟨%f0, %hf0, H0⟩, ⟨%f1, %hf1, H1⟩, ⟨%fs0, %hfs0, HS0⟩, Hk⟩
    obtain rfl := harg1.eq_unread hf0; obtain rfl := harg2.eq_unread hf1; obtain rfl := harg3.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

set_option maxHeartbeats 1000000 in
/-- LAST POINT (storing branch taken): the output's buffer, at anything before, ends with the run's pieces written. -/
noncomputable def kernelRun0_C (c : Dev nD) (i : grid0.Coords) (arg1 : Memref sig .tc .vmem S4x256x4096 .f32) (harg1 : arg1.IsWhole) (arg2 : Memref sig .tc .vmem S4x4096 .f32) (harg2 : arg2.IsWhole) (arg3 : Memref sig .tc .vmem S4x4096 .f32) (harg3 : arg3.IsWhole) (hc0 : ¬cond0_0 i) (hc1 : cond0_1 i)
    (x0 : Vec F S4x256x4096 .f32) (xs0 : Vec F S4x4096 .f32) :
    Σ' (L1 : List (View.Piece (Elt F) S4x4096 .f32)), { LS0 : List (View.Piece (Elt F) S4x4096 .f32) //
      ∀ (E : Set ℕ) (K : PUnit → sProp 𝕄),
        iprop(owns (c : Thread nD τ) arg1 fullShare x0 ∗ (∃ d, owns (c : Thread nD τ) arg2 fullShare d) ∗ owns (c : Thread nD τ) arg3 fullShare xs0
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f LS0)) -∗ K ⟨⟩))
          ⊢ wp frame (wpE (defs₀ (F := F)) Variants.none c none) E (cc0__deg_kernel i arg1 harg1 arg2 harg2 arg3 harg3) K } := by
  refine ⟨?_, ?_, fun E K => ?run⟩
  case run =>
    simp only [cc0__deg_kernel_eq_skeleton]; unfold cc0__deg_kernel_skel
    unfold owns
    iintro ⟨⟨%f0, %hf0, H0⟩, ⟨%d1, %f1, -, H1⟩, ⟨%fs0, %hfs0, HS0⟩, Hk⟩
    obtain rfl := harg1.eq_unread hf0; obtain rfl := harg3.eq_unread hfs0
    sl_exec (disch := first | exact hc0 | exact hc1)
    sl_step
    iapply Hk
    isplitl [H0]
    · iexists _; isplitr; · ipureintro; exact harg1.read_unread _
      iexact H0
    isplitl [H1]; · iexists _; iexact H1
    iexists _; iexact HS0

end Cert.KernelIdeal.Hand

end
-- ==== Proof.KIReg0.lean ====
import proofs.«133457_j80410377716426_1_alg».proof.Proof.Gen.KernelIdeal.Launch
import proofs.«133457_j80410377716426_1_alg».proof.Proof.Gen.KernelIdeal.Skeleton
import proofs.«133457_j80410377716426_1_alg».proof.Proof.Gen.KernelIdeal.Points
import proofs.«133457_j80410377716426_1_alg».proof.Proof.KIReg0Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves in the accumulator and in the output's buffer -/

/-- The first point stores nothing into the output (a placeholder nothing consults). -/
def out0_A_1 (c : Dev nD) (i : grid0.Coords) (arg1 : Memref sig .tc .vmem S4x256x4096 .f32) (harg1 : arg1.IsWhole) (arg2 : Memref sig .tc .vmem S4x4096 .f32) (harg2 : arg2.IsWhole) (arg3 : Memref sig .tc .vmem S4x4096 .f32) (harg3 : arg3.IsWhole) (hc0 : cond0_0 i) (hc1 : ¬cond0_1 i) (x0 : Vec F S4x256x4096 .f32) : Vec F S4x4096 .f32 :=
  VO0_1.read (Elt F) (VO0_1.writes (Elt F) VO0_1.junk (kernelRun0_A c i arg1 harg1 arg2 harg2 arg3 harg3 hc0 hc1 x0).1)
/-- Its stores cover the accumulator. -/
theorem scover0_A_0 (c : Dev nD) (i : grid0.Coords) (arg1 : Memref sig .tc .vmem S4x256x4096 .f32) (harg1 : arg1.IsWhole) (arg2 : Memref sig .tc .vmem S4x4096 .f32) (harg2 : arg2.IsWhole) (arg3 : Memref sig .tc .vmem S4x4096 .f32) (harg3 : arg3.IsWhole) (hc0 : cond0_0 i) (hc1 : ¬cond0_1 i) (x0 : Vec F S4x256x4096 .f32) (y : S4x4096.Idx) :
    ∃ pc ∈ (kernelRun0_A c i arg1 harg1 arg2 harg2 arg3 harg3 hc0 hc1 x0).2.1, y ∈ pc.1.set :=
  View.cover_of_tiledL (kernelRun0_A c i arg1 harg1 arg2 harg2 arg3 harg3 hc0 hc1 x0).2.1 S4x4096.size (by sl_kernel_rfl) y
/-- What the first point leaves in the accumulator. -/
def sout0_A_0 (c : Dev nD) (i : grid0.Coords) (arg1 : Memref sig .tc .vmem S4x256x4096 .f32) (harg1 : arg1.IsWhole) (arg2 : Memref sig .tc .vmem S4x4096 .f32) (harg2 : arg2.IsWhole) (arg3 : Memref sig .tc .vmem S4x4096 .f32) (harg3 : arg3.IsWhole) (hc0 : cond0_0 i) (hc1 : ¬cond0_1 i) (x0 : Vec F S4x256x4096 .f32) : Vec F S4x4096 .f32 :=
  VS0_0.read (Elt F) (VS0_0.writes (Elt F) VS0_0.junk (kernelRun0_A c i arg1 harg1 arg2 harg2 arg3 harg3 hc0 hc1 x0).2.1)

def out0_B_1 (c : Dev nD) (i : grid0.Coords) (arg1 : Memref sig .tc .vmem S4x256x4096 .f32) (harg1 : arg1.IsWhole) (arg2 : Memref sig .tc .vmem S4x4096 .f32) (harg2 : arg2.IsWhole) (arg3 : Memref sig .tc .vmem S4x4096 .f32) (harg3 : arg3.IsWhole) (hc0 : ¬cond0_0 i) (hc1 : ¬cond0_1 i) (x0 : Vec F S4x256x4096 .f32) (xs0 : Vec F S4x4096 .f32) : Vec F S4x4096 .f32 :=
  VO0_1.read (Elt F) (VO0_1.writes (Elt F) VO0_1.junk (kernelRun0_B c i arg1 harg1 arg2 harg2 arg3 harg3 hc0 hc1 x0 xs0).1)
theorem scover0_B_0 (c : Dev nD) (i : grid0.Coords) (arg1 : Memref sig .tc .vmem S4x256x4096 .f32) (harg1 : arg1.IsWhole) (arg2 : Memref sig .tc .vmem S4x4096 .f32) (harg2 : arg2.IsWhole) (arg3 : Memref sig .tc .vmem S4x4096 .f32) (harg3 : arg3.IsWhole) (hc0 : ¬cond0_0 i) (hc1 : ¬cond0_1 i) (x0 : Vec F S4x256x4096 .f32) (xs0 : Vec F S4x4096 .f32) (y : S4x4096.Idx) :
    ∃ pc ∈ (kernelRun0_B c i arg1 harg1 arg2 harg2 arg3 harg3 hc0 hc1 x0 xs0).2.1, y ∈ pc.1.set :=
  View.cover_of_tiledL (kernelRun0_B c i arg1 harg1 arg2 harg2 arg3 harg3 hc0 hc1 x0 xs0).2.1 S4x4096.size (by sl_kernel_rfl) y
/-- What a middle point leaves in the accumulator, from what it found there. -/
def sout0_B_0 (c : Dev nD) (i : grid0.Coords) (arg1 : Memref sig .tc .vmem S4x256x4096 .f32) (harg1 : arg1.IsWhole) (arg2 : Memref sig .tc .vmem S4x4096 .f32) (harg2 : arg2.IsWhole) (arg3 : Memref sig .tc .vmem S4x4096 .f32) (harg3 : arg3.IsWhole) (hc0 : ¬cond0_0 i) (hc1 : ¬cond0_1 i) (x0 : Vec F S4x256x4096 .f32) (xs0 : Vec F S4x4096 .f32) : Vec F S4x4096 .f32 :=
  VS0_0.read (Elt F) (VS0_0.writes (Elt F) VS0_0.junk (kernelRun0_B c i arg1 harg1 arg2 harg2 arg3 harg3 hc0 hc1 x0 xs0).2.1)

/-- The last point's store covers the output block. -/
theorem cover0_C_1 (c : Dev nD) (i : grid0.Coords) (arg1 : Memref sig .tc .vmem S4x256x4096 .f32) (harg1 : arg1.IsWhole) (arg2 : Memref sig .tc .vmem S4x4096 .f32) (harg2 : arg2.IsWhole) (arg3 : Memref sig .tc .vmem S4x4096 .f32) (harg3 : arg3.IsWhole) (hc0 : ¬cond0_0 i) (hc1 : cond0_1 i) (x0 : Vec F S4x256x4096 .f32) (xs0 : Vec F S4x4096 .f32) (y : S4x4096.Idx) :
    ∃ pc ∈ (kernelRun0_C c i arg1 harg1 arg2 harg2 arg3 harg3 hc0 hc1 x0 xs0).1, y ∈ pc.1.set :=
  View.cover_of_tiledL (kernelRun0_C c i arg1 harg1 arg2 harg2 arg3 harg3 hc0 hc1 x0 xs0).1 S4x4096.size (by sl_kernel_rfl) y
/-- What the last point leaves in the output's buffer. -/
def out0_C_1 (c : Dev nD) (i : grid0.Coords) (arg1 : Memref sig .tc .vmem S4x256x4096 .f32) (harg1 : arg1.IsWhole) (arg2 : Memref sig .tc .vmem S4x4096 .f32) (harg2 : arg2.IsWhole) (arg3 : Memref sig .tc .vmem S4x4096 .f32) (harg3 : arg3.IsWhole) (hc0 : ¬cond0_0 i) (hc1 : cond0_1 i) (x0 : Vec F S4x256x4096 .f32) (xs0 : Vec F S4x4096 .f32) : Vec F S4x4096 .f32 :=
  VO0_1.read (Elt F) (VO0_1.writes (Elt F) VO0_1.junk (kernelRun0_C c i arg1 harg1 arg2 harg2 arg3 harg3 hc0 hc1 x0 xs0).1)
theorem scover0_C_0 (c : Dev nD) (i : grid0.Coords) (arg1 : Memref sig .tc .vmem S4x256x4096 .f32) (harg1 : arg1.IsWhole) (arg2 : Memref sig .tc .vmem S4x4096 .f32) (harg2 : arg2.IsWhole) (arg3 : Memref sig .tc .vmem S4x4096 .f32) (harg3 : arg3.IsWhole) (hc0 : ¬cond0_0 i) (hc1 : cond0_1 i) (x0 : Vec F S4x256x4096 .f32) (xs0 : Vec F S4x4096 .f32) (y : S4x4096.Idx) :
    ∃ pc ∈ (kernelRun0_C c i arg1 harg1 arg2 harg2 arg3 harg3 hc0 hc1 x0 xs0).2.1, y ∈ pc.1.set :=
  View.cover_of_tiledL (kernelRun0_C c i arg1 harg1 arg2 harg2 arg3 harg3 hc0 hc1 x0 xs0).2.1 S4x4096.size (by sl_kernel_rfl) y
def sout0_C_0 (c : Dev nD) (i : grid0.Coords) (arg1 : Memref sig .tc .vmem S4x256x4096 .f32) (harg1 : arg1.IsWhole) (arg2 : Memref sig .tc .vmem S4x4096 .f32) (harg2 : arg2.IsWhole) (arg3 : Memref sig .tc .vmem S4x4096 .f32) (harg3 : arg3.IsWhole) (hc0 : ¬cond0_0 i) (hc1 : cond0_1 i) (x0 : Vec F S4x256x4096 .f32) (xs0 : Vec F S4x4096 .f32) : Vec F S4x4096 .f32 :=
  VS0_0.read (Elt F) (VS0_0.writes (Elt F) VS0_0.junk (kernelRun0_C c i arg1 harg1 arg2 harg2 arg3 harg3 hc0 hc1 x0 xs0).2.1)

/-! ## The accumulation over the sixteen points -/

/-- What the output's buffer (first component) and the accumulator (second) hold after the body at point `n`: the case the
    point is in, run at the point's memrefs and input block, the accumulator taken from the point before. -/
def outsAt0 (c : Dev nD) : (n : ℕ) → n < cfg0.N → Vec F S4x4096 .f32 × Vec F S4x4096 .f32
  | 0, hn =>
    have h0 : (⟨0, hn⟩ : Fin cfg0.N).val = 0 := rfl
    have h1 : ¬ (⟨0, hn⟩ : Fin cfg0.N).val = 15 := fun h => Nat.succ_ne_zero 14 h.symm
    (out0_A_1 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr h0) (fun h => h1 ((hcond0_1 ⟨0, hn⟩).mp h)) (iblk0 V c 0 ⟨0, hn⟩),
     sout0_A_0 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr h0) (fun h => h1 ((hcond0_1 ⟨0, hn⟩).mp h)) (iblk0 V c 0 ⟨0, hn⟩))
  | n + 1, hn =>
    have h0 : ¬ (⟨n + 1, hn⟩ : Fin cfg0.N).val = 0 := Nat.succ_ne_zero n
    if h1 : (⟨n + 1, hn⟩ : Fin cfg0.N).val = 15 then
      (out0_C_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2,
       sout0_C_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2)
    else
      (out0_B_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2,
       sout0_B_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2)

/-- At the first point. -/
theorem outsAt0_A (c : Dev nD) (t : Fin cfg0.N) (h0 : t.val = 0) (h1 : ¬t.val = 15) :
    outsAt0 V c t.val t.isLt = (out0_A_1 c (grid0.coords t) (ms0_0 t) (hs0_0 t) (ms0_1 t) (hs0_1 t) scM0_0 (Memref.isWhole_whole _) ((hcond0_0 t).mpr h0) (fun h => h1 ((hcond0_1 t).mp h)) (iblk0 V c 0 t), sout0_A_0 c (grid0.coords t) (ms0_0 t) (hs0_0 t) (ms0_1 t) (hs0_1 t) scM0_0 (Memref.isWhole_whole _) ((hcond0_0 t).mpr h0) (fun h => h1 ((hcond0_1 t).mp h)) (iblk0 V c 0 t)) := by
  obtain ⟨n, hn⟩ := t
  cases n with
  | zero => exact rfl
  | succ n => exact absurd h0 (Nat.succ_ne_zero n)

/-- At a middle point: over what the point before left in the accumulator. -/
theorem outsAt0_B (c : Dev nD) (t : Fin cfg0.N) (h0 : ¬t.val = 0) (h1 : ¬t.val = 15) :
    outsAt0 V c t.val t.isLt = (out0_B_1 c (grid0.coords t) (ms0_0 t) (hs0_0 t) (ms0_1 t) (hs0_1 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2, sout0_B_0 c (grid0.coords t) (ms0_0 t) (hs0_0 t) (ms0_1 t) (hs0_1 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2) := by
  obtain ⟨n, hn⟩ := t
  cases n with
  | zero => exact absurd rfl h0
  | succ n => exact (dif_neg h1).trans rfl

/-- At the last point. -/
theorem outsAt0_C (c : Dev nD) (t : Fin cfg0.N) (h0 : ¬t.val = 0) (h1 : t.val = 15) :
    outsAt0 V c t.val t.isLt = (out0_C_1 c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2, sout0_C_0 c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2) := by
  obtain ⟨n, hn⟩ := t
  cases n with
  | zero => exact absurd rfl h0
  | succ n => exact (dif_pos h1).trans rfl

/-- The call's invariant before position `n`: before the first point every scoped buffer at anything; afterwards the
    accumulator at what the point before left, the other scoped buffers at anything, the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ restS0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare ((outsAt0 V c n hn).2) ∗ restS0 c) ∗ (∃ r, prngReg c r)) := rfl
theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ restS0 c) ∗ (∃ r, prngReg c r)) := by
  cases n with
  | zero => exact absurd rfl hz
  | succ n => rfl

/-! ## The proof data -/

/-- The arrays as the call finds them; after the body at point `t` the input's buffer at its block and the output's at
    `outsAt0`'s first component; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point: the input's memref holds its block; the point's position says which case it is in; the
    invariant hands the body the accumulator at what the point before left (at anything at the first point) and takes
    it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS0 V c (t.val + 1) t.isLt from rfl, PhiS0_succ]
  have hN : t.val < 16 := lt_of_lt_of_eq t.isLt (show cfg0.N = 16 from N_0)
  rw [show (dat0 V c).leavesExact 0 t = owns (c : Thread nD τ) (ms0_0 t) fullShare ((dat0 V c).after 0 t) from by
    unfold Dat.leavesExact; rw [liveAt0_0 t], after0_0]
  by_cases h0 : t.val = 0
  · have h1 : ¬ t.val = 15 := by omega
    rw [Dat.leavesExact_idle (dat0 V c) 1 t (idleAt0_1 t (fun h => h1 ((hcond0_1 t).mp h))) (noFlush0_1 t (fun h => h1 ((hcond0_1 t).mp h)))]
    rw [outsAt0_A V c t h0 h1]
    unfold sout0_A_0; (try dsimp only)
    rw [PhiS0_castSucc V c t, PhiS0_zero V c _ _ h0, PhiA0_eq]
    iintro ⟨⟨⟨HS0, Hrest⟩, Hg⟩, Ho, ⟨%d0, H0⟩, ⟨%d1, H1⟩⟩
    iapply ((kernelRun0_A c (grid0.coords t) _ _ _ _ _ _ ((hcond0_0 t).mpr h0) (fun h => h1 ((hcond0_1 t).mp h)) (iblk0 V c 0 t)).2.2 _ Set.univ _)
    isplitl [H0]; · iexact H0
    isplitl [H1]; · iexact H1
    isplitl [HS0]; · iexact HS0
    iintro ⟨H0, H1, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover0_A_0 c _ _ _ _ _ _ _ _ _ _)
        iexact Hrest
      iexact Hg
    isplitl [Ho]; · iexact Ho
    isplitl [H0]; · iexact H0
    iexists _; iexact H1
  · by_cases h1 : t.val = 15
    · rw [show (dat0 V c).leavesExact 1 t = owns (c : Thread nD τ) (ms0_1 t) fullShare ((dat0 V c).after 1 t) from by
        unfold Dat.leavesExact; rw [liveAt0_1 t ((hcond0_1 t).mpr h1)], after0_1]
      rw [outsAt0_C V c t h0 h1]
      unfold out0_C_1 sout0_C_0; (try dsimp only)
      rw [PhiS0_castSucc V c t, PhiS0_pos V c _ _ h0]
      iintro ⟨⟨⟨HS0, Hrest⟩, Hg⟩, Ho, ⟨%d0, H0⟩, ⟨%d1, H1⟩⟩
      iapply ((kernelRun0_C c (grid0.coords t) _ _ _ _ _ _ (fun h => h0 ((hcond0_0 t).mp h)) ((hcond0_1 t).mpr h1) (iblk0 V c 0 t) _).2.2 Set.univ _)
      isplitl [H0]; · iexact H0
      isplitl [H1]; · iexists _; iexact H1
      isplitl [HS0]; · iexact HS0
      iintro ⟨H0, ⟨%e1, H1⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_C_0 c _ _ _ _ _ _ _ _ _ _ _)
          iexact Hrest
        iexact Hg
      isplitl [Ho]; · iexact Ho
      isplitl [H0]; · iexact H0
      unfold owns; iexists _; isplitr
      swap; · iexact H1
      ipureintro; exact View.read_writes_of_cover _ _ _ _ _ (cover0_C_1 c _ _ _ _ _ _ _ _ _ _ _)
    · rw [Dat.leavesExact_idle (dat0 V c) 1 t (idleAt0_1 t (fun h => h1 ((hcond0_1 t).mp h))) (noFlush0_1 t (fun h => h1 ((hcond0_1 t).mp h)))]
      rw [outsAt0_B V c t h0 h1]
      unfold sout0_B_0; (try dsimp only)
      rw [PhiS0_castSucc V c t, PhiS0_pos V c _ _ h0]
      iintro ⟨⟨⟨HS0, Hrest⟩, Hg⟩, Ho, ⟨%d0, H0⟩, ⟨%d1, H1⟩⟩
      iapply ((kernelRun0_B c (grid0.coords t) _ _ _ _ _ _ (fun h => h0 ((hcond0_0 t).mp h)) (fun h => h1 ((hcond0_1 t).mp h)) (iblk0 V c 0 t) _).2.2 _ Set.univ _)
      isplitl [H0]; · iexact H0
      isplitl [H1]; · iexact H1
      isplitl [HS0]; · iexact HS0
      iintro ⟨H0, H1, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_B_0 c _ _ _ _ _ _ _ _ _ _ _)
          iexact Hrest
        iexact Hg
      isplitl [Ho]; · iexact Ho
      isplitl [H0]; · iexact H0
      iexists _; iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the call is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives it back: the accumulator's contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 16 := N_0; omega
  rw [show (dat0 V c).Φ (Fin.last cfg0.N) = PhiS0 V c (Fin.last cfg0.N).val (Nat.le_of_lt_succ (Fin.last cfg0.N).isLt) from rfl, PhiS0_pos V c _ _ ht, PhiA0_eq]
  iintro ⟨⟨HS0, Hrest⟩, Hg⟩
  isplitl [HS0 Hrest]
  · isplitl [HS0]
    · iexists _; iexact HS0
    iexact Hrest
  iexact Hg

end Cert.KernelIdeal.Hand

end
-- ==== Proof.KIReg1Run.lean ====
import proofs.«133457_j80410377716426_1_alg».proof.Proof.Gen.KernelIdeal.Launch
import proofs.«133457_j80410377716426_1_alg».proof.Proof.Gen.KernelIdeal.Skeleton
import proofs.«133457_j80410377716426_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The feature-transform kernel (the second call)

The grid has eight points; point `t` stages rows `512 t … 512 t + 511` of every graph's features and of the inverse
square-root degrees, and the whole weight matrix. For each of the four graphs the body multiplies the graph's feature
rows by the weights, scales row `n` by its inverse square-root degree, and stores the graph's slab of the output block. -/

abbrev VO1_3 : View sig .tc .vmem S4x512x64 .f32 := (Memref.whole cc1_stg3_0 : Memref sig .tc .vmem S4x512x64 .f32).view
abbrev ms1_0 (t : Fin cfg1.N) : Memref sig .tc .vmem S4x512x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S64x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S4x512x64 .f32 := win1_3.stage (cfg1.slots t 3)
abbrev hs1_3 (t : Fin cfg1.N) : (ms1_3 t).IsWhole := hstage1_3 ((cfg1.slots t 3).cast nbuf1_3)

set_option maxHeartbeats 2000000 in
/-- On whole staging memrefs, the three inputs' at their blocks and the output's at anything, the body runs and leaves
    the inputs as they were and the output's buffer with the four slabs the run finds written. -/
noncomputable def kernelRun1 (c : Dev nD) (i : grid1.Coords) (arg1 : Memref sig .tc .vmem S4x512x64 .f32) (harg1 : arg1.IsWhole) (arg2 : Memref sig .tc .vmem S64x64 .f32) (harg2 : arg2.IsWhole) (arg3 : Memref sig .tc .vmem S4x512 .f32) (harg3 : arg3.IsWhole) (arg4 : Memref sig .tc .vmem S4x512x64 .f32) (harg4 : arg4.IsWhole)
    (x0 : Vec F S4x512x64 .f32) (x1 : Vec F S64x64 .f32) (x2 : Vec F S4x512 .f32) :
    { L3 : List (View.Piece (Elt F) S4x512x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3)) -∗ K ⟨⟩))
          ⊢ wp frame (wpE (defs₀ (F := F)) Variants.none c none) E (cc1__hw_kernel i arg1 harg1 arg2 harg2 arg3 harg3 arg4 harg4) K } := by
  refine ⟨?_, fun E K => ?run⟩
  case run =>
    simp only [cc1__hw_kernel_eq_skeleton]; unfold cc1__hw_kernel_skel
    simp only [k1_part1_eq_skeleton]
    unfold owns
    iintro ⟨⟨%f0, %hf0, H0⟩, ⟨%f1, %hf1, H1⟩, ⟨%f2, %hf2, H2⟩, ⟨%d3, %f3, -, H3⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

end Cert.KernelIdeal.Hand

end
-- ==== Proof.KIReg1.lean ====
import proofs.«133457_j80410377716426_1_alg».proof.Proof.Gen.KernelIdeal.Launch
import proofs.«133457_j80410377716426_1_alg».proof.Proof.Gen.KernelIdeal.Skeleton
import proofs.«133457_j80410377716426_1_alg».proof.Proof.Gen.KernelIdeal.Points
import proofs.«133457_j80410377716426_1_alg».proof.Proof.KIReg1Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The four slabs tile the output block. -/
theorem cover1_3 (c : Dev nD) (i : grid1.Coords) (arg1 : Memref sig .tc .vmem S4x512x64 .f32) (harg1 : arg1.IsWhole) (arg2 : Memref sig .tc .vmem S64x64 .f32) (harg2 : arg2.IsWhole) (arg3 : Memref sig .tc .vmem S4x512 .f32) (harg3 : arg3.IsWhole) (arg4 : Memref sig .tc .vmem S4x512x64 .f32) (harg4 : arg4.IsWhole) (x0 : Vec F S4x512x64 .f32) (x1 : Vec F S64x64 .f32) (x2 : Vec F S4x512 .f32) (y : S4x512x64.Idx) :
    ∃ pc ∈ (kernelRun1 c i arg1 harg1 arg2 harg2 arg3 harg3 arg4 harg4 x0 x1 x2).1, y ∈ pc.1.set :=
  View.cover_of_tiledL (kernelRun1 c i arg1 harg1 arg2 harg2 arg3 harg3 arg4 harg4 x0 x1 x2).1 S1x512x64.size (by sl_kernel_rfl) y
/-- What the body leaves in the output's buffer, from the three input blocks. -/
def out1_3 (c : Dev nD) (i : grid1.Coords) (arg1 : Memref sig .tc .vmem S4x512x64 .f32) (harg1 : arg1.IsWhole) (arg2 : Memref sig .tc .vmem S64x64 .f32) (harg2 : arg2.IsWhole) (arg3 : Memref sig .tc .vmem S4x512 .f32) (harg3 : arg3.IsWhole) (arg4 : Memref sig .tc .vmem S4x512x64 .f32) (harg4 : arg4.IsWhole) (x0 : Vec F S4x512x64 .f32) (x1 : Vec F S64x64 .f32) (x2 : Vec F S4x512 .f32) : Vec F S4x512x64 .f32 :=
  VO1_3.read (Elt F) (VO1_3.writes (Elt F) VO1_3.junk (kernelRun1 c i arg1 harg1 arg2 harg2 arg3 harg3 arg4 harg4 x0 x1 x2).1)

/-- The arrays as the call finds them; after the body each input's buffer at its block and the output's at `out1_3` of the
    input blocks; the invariant the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 c (grid1.coords t) (ms1_0 t) (hs1_0 t) (ms1_1 t) (hs1_1 t) (ms1_2 t) (hs1_2 t) (ms1_3 t) (hs1_3 t) (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 c (grid1.coords t) (ms1_0 t) (hs1_0 t) (ms1_1 t) (hs1_1 t) (ms1_2 t) (hs1_2 t) (ms1_3 t) (hs1_3 t) (iblk1 V c 0 t) (iblk1 V c 1 t) (iblk1 V c 2 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

set_option maxHeartbeats 2000000 in
/-- The body at any point: the inputs' memrefs hold their blocks, so the run applies; the invariant passes through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  unfold out1_3
  iintro ⟨HΦ, Ho, ⟨%d0, H0⟩, ⟨%d1, H1⟩, ⟨%d2, H2⟩, ⟨%d3, H3⟩⟩
  iapply ((kernelRun1 c (grid1.coords t) _ _ _ _ _ _ _ _ (iblk1 V c 0 t) (iblk1 V c 1 t) (iblk1 V c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover1_3 c _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KIReg2Run.lean ====
import proofs.«133457_j80410377716426_1_alg».proof.Proof.Gen.KernelIdeal.Launch
import proofs.«133457_j80410377716426_1_alg».proof.Proof.Gen.KernelIdeal.Skeleton
import proofs.«133457_j80410377716426_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The aggregation kernel (the third call)

The grid is `4 × 2 × 2`: graph `b`, row half `n`, column half `m`, the column half running fastest. A point stages the
`2048 × 2048` block `(b, n, m)` of the adjacency matrix, rows `m` and rows `n` of the graph's scaled features, and columns `n`
of the inverse square-root degrees. A scratch accumulator is zeroed at `m = 0`, takes the block's product with the
rows-`m` features at every point, and at `m = 1` the rows-`n` features are added, row `r` is scaled by its inverse
square-root degree and the result is stored into the output block `(b, n)`. -/

/-- The accumulator is zeroed: the first branch's condition. -/
abbrev cond2_0 (i : grid2.Coords) : Prop := (Scalar.cmpi .ne (Scalar.extui (Scalar.cmpi .eq (BitVec.ofNat 32 (i 2).val) 0#32)) 0#32) = 1#1
/-- It holds at the even points (column half 0). -/
theorem hcond2_0 : ∀ t : Fin cfg2.N, cond2_0 (grid2.coords t) ↔ t.val % 2 = 0 :=
  (by decide +kernel : ∀ t : Fin grid2.N, cond2_0 (grid2.coords t) ↔ t.val % 2 = 0)
/-- The result is stored: the second branch's condition. -/
abbrev cond2_1 (i : grid2.Coords) : Prop := k2_cond2 i = 1#1
/-- It holds at the odd points (column half 1). -/
theorem hcond2_1 : ∀ t : Fin cfg2.N, cond2_1 (grid2.coords t) ↔ t.val % 2 = 1 :=
  (by decide +kernel : ∀ t : Fin grid2.N, cond2_1 (grid2.coords t) ↔ t.val % 2 = 1)

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
/-- Where the result is not stored the output window is idle and its block is not written back. -/
theorem idleAt2_4 : ∀ t : Fin cfg2.N, ¬cond2_1 (grid2.coords t) → cfg2.idle 4 (grid2.coords t) = true := by decide +kernel
theorem noFlush2_4 : ∀ t : Fin cfg2.N, ¬cond2_1 (grid2.coords t) → (cfg2.win 4).flush t = false := by decide +kernel
theorem liveAt2_4 : ∀ t : Fin cfg2.N, cond2_1 (grid2.coords t) → cfg2.idle 4 (grid2.coords t) = false := by decide +kernel

abbrev VO2_4 : View sig .tc .vmem S1x2048x64 .f32 := (Memref.whole cc2_stg4_0 : Memref sig .tc .vmem S1x2048x64 .f32).view
abbrev ms2_0 (t : Fin cfg2.N) : Memref sig .tc .vmem S1x2048x2048 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x2048x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x2048x64 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S4x2048 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x2048x64 .f32 := win2_4.stage (cfg2.slots t 4)
abbrev hs2_4 (t : Fin cfg2.N) : (ms2_4 t).IsWhole := hstage2_4 ((cfg2.slots t 4).cast nbuf2_4)
/-- The accumulator: a whole scoped buffer of the kernel's own. -/
abbrev scM2_0 : Memref sig .tc .vmem S2048x64 .f32 := Memref.whole cc2_scratch0
abbrev VS2_0 : View sig .tc .vmem S2048x64 .f32 := scM2_0.view

set_option maxHeartbeats 2000000 in
/-- EVEN POINTS (zeroing branch taken, storing branch not): the idle output's buffer is handed back untouched, the
    accumulator, at anything before, ends with the run's pieces written. -/
noncomputable def kernelRun2_A (c : Dev nD) (i : grid2.Coords) (arg3 : Memref sig .tc .vmem S1x2048x2048 .f32) (harg3 : arg3.IsWhole) (arg4 : Memref sig .tc .vmem S1x2048x64 .f32) (harg4 : arg4.IsWhole) (arg5 : Memref sig .tc .vmem S1x2048x64 .f32) (harg5 : arg5.IsWhole) (arg6 : Memref sig .tc .vmem S4x2048 .f32) (harg6 : arg6.IsWhole) (arg7 : Memref sig .tc .vmem S1x2048x64 .f32) (harg7 : arg7.IsWhole) (arg8 : Memref sig .tc .vmem S2048x64 .f32) (harg8 : arg8.IsWhole) (hc0 : cond2_0 i) (hc1 : ¬cond2_1 i)
    (x0 : Vec F S1x2048x2048 .f32) (x1 : Vec F S1x2048x64 .f32) (x2 : Vec F S1x2048x64 .f32) (x3 : Vec F S4x2048 .f32) :
    Σ' (L4 : List (View.Piece (Elt F) S1x2048x64 .f32)), { LS0 : List (View.Piece (Elt F) S2048x64 .f32) //
      ∀ (xi4 : Vec F S1x2048x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc2__gcn_kernel i arg3 harg3 arg4 harg4 arg5 harg5 arg6 harg6 arg7 harg7 arg8 harg8) K } := by
  refine ⟨[], ?_, fun xi4 E K => ?run⟩
  case run =>
    simp only [cc2__gcn_kernel_eq_skeleton]; unfold cc2__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

set_option maxHeartbeats 2000000 in
/-- ODD POINTS (storing branch taken): the accumulator comes in at what the point before left; the output's buffer, at
    anything before, ends with the run's pieces written. -/
noncomputable def kernelRun2_C (c : Dev nD) (i : grid2.Coords) (arg3 : Memref sig .tc .vmem S1x2048x2048 .f32) (harg3 : arg3.IsWhole) (arg4 : Memref sig .tc .vmem S1x2048x64 .f32) (harg4 : arg4.IsWhole) (arg5 : Memref sig .tc .vmem S1x2048x64 .f32) (harg5 : arg5.IsWhole) (arg6 : Memref sig .tc .vmem S4x2048 .f32) (harg6 : arg6.IsWhole) (arg7 : Memref sig .tc .vmem S1x2048x64 .f32) (harg7 : arg7.IsWhole) (arg8 : Memref sig .tc .vmem S2048x64 .f32) (harg8 : arg8.IsWhole) (hc0 : ¬cond2_0 i) (hc1 : cond2_1 i)
    (x0 : Vec F S1x2048x2048 .f32) (x1 : Vec F S1x2048x64 .f32) (x2 : Vec F S1x2048x64 .f32) (x3 : Vec F S4x2048 .f32) (xs0 : Vec F S2048x64 .f32) :
    Σ' (L4 : List (View.Piece (Elt F) S1x2048x64 .f32)), { LS0 : List (View.Piece (Elt F) S2048x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0)) -∗ K ⟨⟩))
          ⊢ wp frame (wpE (defs₀ (F := F)) Variants.none c none) E (cc2__gcn_kernel i arg3 harg3 arg4 harg4 arg5 harg5 arg6 harg6 arg7 harg7 arg8 harg8) K } := by
  refine ⟨?_, ?_, fun E K => ?run⟩
  case run =>
    simp only [cc2__gcn_kernel_eq_skeleton]; unfold cc2__gcn_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS0

end Cert.KernelIdeal.Hand

end
-- ==== Proof.KIReg2.lean ====
import proofs.«133457_j80410377716426_1_alg».proof.Proof.Gen.KernelIdeal.Launch
import proofs.«133457_j80410377716426_1_alg».proof.Proof.Gen.KernelIdeal.Skeleton
import proofs.«133457_j80410377716426_1_alg».proof.Proof.Gen.KernelIdeal.Points
import proofs.«133457_j80410377716426_1_alg».proof.Proof.KIReg2Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The call's invariant between points with the accumulator, the last of its scoped buffers, as a memref owned at some contents. -/
theorem PhiA2_eq (c : Dev nD) :
    (Pipeline.ΦA spec2 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ d, owns (c : Thread nD τ) scM2_0 fullShare d)) ∗ (∃ r, prngReg c r)) := by
  unfold Pipeline.ΦA; rw [scopedRest2_eq]; simp only [scM2_0, owns_whole]; try rfl

/-! ## What each case leaves in the accumulator and in the output's buffer -/

def out2_A_4 (c : Dev nD) (i : grid2.Coords) (arg3 : Memref sig .tc .vmem S1x2048x2048 .f32) (harg3 : arg3.IsWhole) (arg4 : Memref sig .tc .vmem S1x2048x64 .f32) (harg4 : arg4.IsWhole) (arg5 : Memref sig .tc .vmem S1x2048x64 .f32) (harg5 : arg5.IsWhole) (arg6 : Memref sig .tc .vmem S4x2048 .f32) (harg6 : arg6.IsWhole) (arg7 : Memref sig .tc .vmem S1x2048x64 .f32) (harg7 : arg7.IsWhole) (arg8 : Memref sig .tc .vmem S2048x64 .f32) (harg8 : arg8.IsWhole) (hc0 : cond2_0 i) (hc1 : ¬cond2_1 i) (x0 : Vec F S1x2048x2048 .f32) (x1 : Vec F S1x2048x64 .f32) (x2 : Vec F S1x2048x64 .f32) (x3 : Vec F S4x2048 .f32) : Vec F S1x2048x64 .f32 :=
  VO2_4.read (Elt F) (VO2_4.writes (Elt F) VO2_4.junk (kernelRun2_A c i arg3 harg3 arg4 harg4 arg5 harg5 arg6 harg6 arg7 harg7 arg8 harg8 hc0 hc1 x0 x1 x2 x3).1)
theorem scover2_A_0 (c : Dev nD) (i : grid2.Coords) (arg3 : Memref sig .tc .vmem S1x2048x2048 .f32) (harg3 : arg3.IsWhole) (arg4 : Memref sig .tc .vmem S1x2048x64 .f32) (harg4 : arg4.IsWhole) (arg5 : Memref sig .tc .vmem S1x2048x64 .f32) (harg5 : arg5.IsWhole) (arg6 : Memref sig .tc .vmem S4x2048 .f32) (harg6 : arg6.IsWhole) (arg7 : Memref sig .tc .vmem S1x2048x64 .f32) (harg7 : arg7.IsWhole) (arg8 : Memref sig .tc .vmem S2048x64 .f32) (harg8 : arg8.IsWhole) (hc0 : cond2_0 i) (hc1 : ¬cond2_1 i) (x0 : Vec F S1x2048x2048 .f32) (x1 : Vec F S1x2048x64 .f32) (x2 : Vec F S1x2048x64 .f32) (x3 : Vec F S4x2048 .f32) (y : S2048x64.Idx) :
    ∃ pc ∈ (kernelRun2_A c i arg3 harg3 arg4 harg4 arg5 harg5 arg6 harg6 arg7 harg7 arg8 harg8 hc0 hc1 x0 x1 x2 x3).2.1, y ∈ pc.1.set :=
  View.cover_of_tiledL (kernelRun2_A c i arg3 harg3 arg4 harg4 arg5 harg5 arg6 harg6 arg7 harg7 arg8 harg8 hc0 hc1 x0 x1 x2 x3).2.1 S2048x64.size (by sl_kernel_rfl) y
/-- What an even point leaves in the accumulator. -/
def sout2_A_0 (c : Dev nD) (i : grid2.Coords) (arg3 : Memref sig .tc .vmem S1x2048x2048 .f32) (harg3 : arg3.IsWhole) (arg4 : Memref sig .tc .vmem S1x2048x64 .f32) (harg4 : arg4.IsWhole) (arg5 : Memref sig .tc .vmem S1x2048x64 .f32) (harg5 : arg5.IsWhole) (arg6 : Memref sig .tc .vmem S4x2048 .f32) (harg6 : arg6.IsWhole) (arg7 : Memref sig .tc .vmem S1x2048x64 .f32) (harg7 : arg7.IsWhole) (arg8 : Memref sig .tc .vmem S2048x64 .f32) (harg8 : arg8.IsWhole) (hc0 : cond2_0 i) (hc1 : ¬cond2_1 i) (x0 : Vec F S1x2048x2048 .f32) (x1 : Vec F S1x2048x64 .f32) (x2 : Vec F S1x2048x64 .f32) (x3 : Vec F S4x2048 .f32) : Vec F S2048x64 .f32 :=
  VS2_0.read (Elt F) (VS2_0.writes (Elt F) VS2_0.junk (kernelRun2_A c i arg3 harg3 arg4 harg4 arg5 harg5 arg6 harg6 arg7 harg7 arg8 harg8 hc0 hc1 x0 x1 x2 x3).2.1)

theorem cover2_C_4 (c : Dev nD) (i : grid2.Coords) (arg3 : Memref sig .tc .vmem S1x2048x2048 .f32) (harg3 : arg3.IsWhole) (arg4 : Memref sig .tc .vmem S1x2048x64 .f32) (harg4 : arg4.IsWhole) (arg5 : Memref sig .tc .vmem S1x2048x64 .f32) (harg5 : arg5.IsWhole) (arg6 : Memref sig .tc .vmem S4x2048 .f32) (harg6 : arg6.IsWhole) (arg7 : Memref sig .tc .vmem S1x2048x64 .f32) (harg7 : arg7.IsWhole) (arg8 : Memref sig .tc .vmem S2048x64 .f32) (harg8 : arg8.IsWhole) (hc0 : ¬cond2_0 i) (hc1 : cond2_1 i) (x0 : Vec F S1x2048x2048 .f32) (x1 : Vec F S1x2048x64 .f32) (x2 : Vec F S1x2048x64 .f32) (x3 : Vec F S4x2048 .f32) (xs0 : Vec F S2048x64 .f32) (y : S1x2048x64.Idx) :
    ∃ pc ∈ (kernelRun2_C c i arg3 harg3 arg4 harg4 arg5 harg5 arg6 harg6 arg7 harg7 arg8 harg8 hc0 hc1 x0 x1 x2 x3 xs0).1, y ∈ pc.1.set :=
  View.cover_of_tiledL (kernelRun2_C c i arg3 harg3 arg4 harg4 arg5 harg5 arg6 harg6 arg7 harg7 arg8 harg8 hc0 hc1 x0 x1 x2 x3 xs0).1 S1x2048x64.size (by sl_kernel_rfl) y
/-- What an odd point leaves in the output's buffer. -/
def out2_C_4 (c : Dev nD) (i : grid2.Coords) (arg3 : Memref sig .tc .vmem S1x2048x2048 .f32) (harg3 : arg3.IsWhole) (arg4 : Memref sig .tc .vmem S1x2048x64 .f32) (harg4 : arg4.IsWhole) (arg5 : Memref sig .tc .vmem S1x2048x64 .f32) (harg5 : arg5.IsWhole) (arg6 : Memref sig .tc .vmem S4x2048 .f32) (harg6 : arg6.IsWhole) (arg7 : Memref sig .tc .vmem S1x2048x64 .f32) (harg7 : arg7.IsWhole) (arg8 : Memref sig .tc .vmem S2048x64 .f32) (harg8 : arg8.IsWhole) (hc0 : ¬cond2_0 i) (hc1 : cond2_1 i) (x0 : Vec F S1x2048x2048 .f32) (x1 : Vec F S1x2048x64 .f32) (x2 : Vec F S1x2048x64 .f32) (x3 : Vec F S4x2048 .f32) (xs0 : Vec F S2048x64 .f32) : Vec F S1x2048x64 .f32 :=
  VO2_4.read (Elt F) (VO2_4.writes (Elt F) VO2_4.junk (kernelRun2_C c i arg3 harg3 arg4 harg4 arg5 harg5 arg6 harg6 arg7 harg7 arg8 harg8 hc0 hc1 x0 x1 x2 x3 xs0).1)
theorem scover2_C_0 (c : Dev nD) (i : grid2.Coords) (arg3 : Memref sig .tc .vmem S1x2048x2048 .f32) (harg3 : arg3.IsWhole) (arg4 : Memref sig .tc .vmem S1x2048x64 .f32) (harg4 : arg4.IsWhole) (arg5 : Memref sig .tc .vmem S1x2048x64 .f32) (harg5 : arg5.IsWhole) (arg6 : Memref sig .tc .vmem S4x2048 .f32) (harg6 : arg6.IsWhole) (arg7 : Memref sig .tc .vmem S1x2048x64 .f32) (harg7 : arg7.IsWhole) (arg8 : Memref sig .tc .vmem S2048x64 .f32) (harg8 : arg8.IsWhole) (hc0 : ¬cond2_0 i) (hc1 : cond2_1 i) (x0 : Vec F S1x2048x2048 .f32) (x1 : Vec F S1x2048x64 .f32) (x2 : Vec F S1x2048x64 .f32) (x3 : Vec F S4x2048 .f32) (xs0 : Vec F S2048x64 .f32) (y : S2048x64.Idx) :
    ∃ pc ∈ (kernelRun2_C c i arg3 harg3 arg4 harg4 arg5 harg5 arg6 harg6 arg7 harg7 arg8 harg8 hc0 hc1 x0 x1 x2 x3 xs0).2.1, y ∈ pc.1.set :=
  View.cover_of_tiledL (kernelRun2_C c i arg3 harg3 arg4 harg4 arg5 harg5 arg6 harg6 arg7 harg7 arg8 harg8 hc0 hc1 x0 x1 x2 x3 xs0).2.1 S2048x64.size (by sl_kernel_rfl) y
def sout2_C_0 (c : Dev nD) (i : grid2.Coords) (arg3 : Memref sig .tc .vmem S1x2048x2048 .f32) (harg3 : arg3.IsWhole) (arg4 : Memref sig .tc .vmem S1x2048x64 .f32) (harg4 : arg4.IsWhole) (arg5 : Memref sig .tc .vmem S1x2048x64 .f32) (harg5 : arg5.IsWhole) (arg6 : Memref sig .tc .vmem S4x2048 .f32) (harg6 : arg6.IsWhole) (arg7 : Memref sig .tc .vmem S1x2048x64 .f32) (harg7 : arg7.IsWhole) (arg8 : Memref sig .tc .vmem S2048x64 .f32) (harg8 : arg8.IsWhole) (hc0 : ¬cond2_0 i) (hc1 : cond2_1 i) (x0 : Vec F S1x2048x2048 .f32) (x1 : Vec F S1x2048x64 .f32) (x2 : Vec F S1x2048x64 .f32) (x3 : Vec F S4x2048 .f32) (xs0 : Vec F S2048x64 .f32) : Vec F S2048x64 .f32 :=
  VS2_0.read (Elt F) (VS2_0.writes (Elt F) VS2_0.junk (kernelRun2_C c i arg3 harg3 arg4 harg4 arg5 harg5 arg6 harg6 arg7 harg7 arg8 harg8 hc0 hc1 x0 x1 x2 x3 xs0).2.1)

/-! ## The accumulation over the sixteen points -/

/-- What the output's buffer (first component) and the accumulator (second) hold after the body at point `n`. -/
def outsAt2 (c : Dev nD) : (n : ℕ) → n < cfg2.N → Vec F S1x2048x64 .f32 × Vec F S2048x64 .f32
  | 0, hn =>
    have h0 : (⟨0, hn⟩ : Fin cfg2.N).val % 2 = 0 := Nat.zero_mod 2
    have h1 : ¬ (⟨0, hn⟩ : Fin cfg2.N).val % 2 = 1 := fun h => Nat.zero_ne_one ((Nat.zero_mod 2).symm.trans h)
    (out2_A_4 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) ((hcond2_0 ⟨0, hn⟩).mpr h0) (fun h => h1 ((hcond2_1 ⟨0, hn⟩).mp h)) (iblk2 V c 0 ⟨0, hn⟩) (iblk2 V c 1 ⟨0, hn⟩) (iblk2 V c 2 ⟨0, hn⟩) (iblk2 V c 3 ⟨0, hn⟩),
     sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) ((hcond2_0 ⟨0, hn⟩).mpr h0) (fun h => h1 ((hcond2_1 ⟨0, hn⟩).mp h)) (iblk2 V c 0 ⟨0, hn⟩) (iblk2 V c 1 ⟨0, hn⟩) (iblk2 V c 2 ⟨0, hn⟩) (iblk2 V c 3 ⟨0, hn⟩))
  | n + 1, hn =>
    if h0 : (⟨n + 1, hn⟩ : Fin cfg2.N).val % 2 = 0 then
      have h1 : ¬ (⟨n + 1, hn⟩ : Fin cfg2.N).val % 2 = 1 := fun h => by omega
      (out2_A_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩),
       sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩))
    else
      have h1 : (⟨n + 1, hn⟩ : Fin cfg2.N).val % 2 = 1 := by omega
      (out2_C_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2,
       sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2)

theorem outsAt2_A (c : Dev nD) (t : Fin cfg2.N) (h0 : t.val % 2 = 0) (h1 : ¬t.val % 2 = 1) :
    outsAt2 V c t.val t.isLt = (out2_A_4 c (grid2.coords t) (ms2_0 t) (hs2_0 t) (ms2_1 t) (hs2_1 t) (ms2_2 t) (hs2_2 t) (ms2_3 t) (hs2_3 t) (ms2_4 t) (hs2_4 t) scM2_0 (Memref.isWhole_whole _) ((hcond2_0 t).mpr h0) (fun h => h1 ((hcond2_1 t).mp h)) (iblk2 V c 0 t) (iblk2 V c 1 t) (iblk2 V c 2 t) (iblk2 V c 3 t), sout2_A_0 c (grid2.coords t) (ms2_0 t) (hs2_0 t) (ms2_1 t) (hs2_1 t) (ms2_2 t) (hs2_2 t) (ms2_3 t) (hs2_3 t) (ms2_4 t) (hs2_4 t) scM2_0 (Memref.isWhole_whole _) ((hcond2_0 t).mpr h0) (fun h => h1 ((hcond2_1 t).mp h)) (iblk2 V c 0 t) (iblk2 V c 1 t) (iblk2 V c 2 t) (iblk2 V c 3 t)) := by
  obtain ⟨n, hn⟩ := t
  cases n with
  | zero => exact rfl
  | succ n => exact (dif_pos h0).trans rfl

theorem outsAt2_C (c : Dev nD) (t : Fin cfg2.N) (h0 : ¬t.val % 2 = 0) (h1 : t.val % 2 = 1) :
    outsAt2 V c t.val t.isLt = (out2_C_4 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2) := by
  obtain ⟨n, hn⟩ := t
  cases n with
  | zero => exact absurd (Nat.zero_mod 2) h0
  | succ n => exact (dif_neg h0).trans rfl

/-- The call's invariant before position `n`. -/
def PhiS2 (c : Dev nD) : (n : ℕ) → n ≤ cfg2.N → sProp 𝕄
  | 0, _ => Pipeline.ΦA spec2 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ owns (c : Thread nD τ) scM2_0 fullShare ((outsAt2 V c n hn).2)) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ owns (c : Thread nD τ) scM2_0 fullShare ((outsAt2 V c n hn).2)) ∗ (∃ r, prngReg c r)) := rfl
theorem PhiS2_pos (c : Dev nD) (n : ℕ) (h : n ≤ cfg2.N) (hz : n ≠ 0) :
    PhiS2 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ owns (c : Thread nD τ) scM2_0 fullShare ((outsAt2 V c (n - 1) (by omega)).2)) ∗ (∃ r, prngReg c r)) := by
  cases n with
  | zero => exact absurd rfl hz
  | succ n => rfl

/-! ## The proof data -/

/-- The arrays as the call finds them — the scaled features' array is staged through two windows, each holding half of
    it —; after the body at point `t` each input's buffer at its block and the output's at `outsAt2`'s first component;
    the invariant `PhiS2`; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
  Φ t := PhiS2 V c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4800000 in
/-- The body at any point: the inputs' memrefs hold their blocks; the point's parity says which case it is in; the
    invariant hands the body the accumulator and takes it back at this point's contents. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  have hN : t.val < 16 := lt_of_lt_of_eq t.isLt (show cfg2.N = 16 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  by_cases h0 : t.val % 2 = 0
  · have h1 : ¬ t.val % 2 = 1 := by omega
    rw [Dat.leavesExact_idle (dat2 V c) 4 t (idleAt2_4 t (fun h => h1 ((hcond2_1 t).mp h))) (noFlush2_4 t (fun h => h1 ((hcond2_1 t).mp h)))]
    rw [outsAt2_A V c t h0 h1]
    unfold sout2_A_0; (try dsimp only)
    by_cases hz : t.val = 0
    · rw [PhiS2_castSucc V c t, PhiS2_zero V c _ _ hz, PhiA2_eq]
      iintro ⟨⟨⟨R1, R2, R3, R4, R5, R6, R7, R8, R9, R10, R11, HS0⟩, Hg⟩, Ho, ⟨%d0, H0⟩, ⟨%d1, H1⟩, ⟨%d2, H2⟩, ⟨%d3, H3⟩, ⟨%d4, H4⟩⟩
      iapply ((kernelRun2_A c (grid2.coords t) _ _ _ _ _ _ _ _ _ _ _ _ ((hcond2_0 t).mpr h0) (fun h => h1 ((hcond2_1 t).mp h)) (iblk2 V c 0 t) (iblk2 V c 1 t) (iblk2 V c 2 t) (iblk2 V c 3 t)).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [R1 R2 R3 R4 R5 R6 R7 R8 R9 R10 R11 HS0 Hg]
      · isplitl [R1 R2 R3 R4 R5 R6 R7 R8 R9 R10 R11 HS0]
        · isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          isplitl [R11]; · iexact R11
          unfold owns; iexists _; isplitr
          swap; · iexact HS0
          ipureintro; exact View.read_writes_of_cover _ _ _ _ _ (scover2_A_0 c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
    · rw [PhiS2_castSucc V c t, PhiS2_pos V c _ _ hz]
      iintro ⟨⟨⟨R1, R2, R3, R4, R5, R6, R7, R8, R9, R10, R11, HS0⟩, Hg⟩, Ho, ⟨%d0, H0⟩, ⟨%d1, H1⟩, ⟨%d2, H2⟩, ⟨%d3, H3⟩, ⟨%d4, H4⟩⟩
      iapply ((kernelRun2_A c (grid2.coords t) _ _ _ _ _ _ _ _ _ _ _ _ ((hcond2_0 t).mpr h0) (fun h => h1 ((hcond2_1 t).mp h)) (iblk2 V c 0 t) (iblk2 V c 1 t) (iblk2 V c 2 t) (iblk2 V c 3 t)).2.2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [R1 R2 R3 R4 R5 R6 R7 R8 R9 R10 R11 HS0 Hg]
      · isplitl [R1 R2 R3 R4 R5 R6 R7 R8 R9 R10 R11 HS0]
        · isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          isplitl [R11]; · iexact R11
          unfold owns; iexists _; isplitr
          swap; · iexact HS0
          ipureintro; exact View.read_writes_of_cover _ _ _ _ _ (scover2_A_0 c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
  · have h1 : t.val % 2 = 1 := by omega
    have hz : t.val ≠ 0 := by omega
    rw [show (dat2 V c).leavesExact 4 t = owns (c : Thread nD τ) (ms2_4 t) fullShare ((dat2 V c).after 4 t) from by
      unfold Dat.leavesExact; rw [liveAt2_4 t ((hcond2_1 t).mpr h1)], after2_4]
    rw [outsAt2_C V c t h0 h1]
    unfold out2_C_4 sout2_C_0; (try dsimp only)
    rw [PhiS2_castSucc V c t, PhiS2_pos V c _ _ hz]
    iintro ⟨⟨⟨R1, R2, R3, R4, R5, R6, R7, R8, R9, R10, R11, HS0⟩, Hg⟩, Ho, ⟨%d0, H0⟩, ⟨%d1, H1⟩, ⟨%d2, H2⟩, ⟨%d3, H3⟩, ⟨%d4, H4⟩⟩
    iapply ((kernelRun2_C c (grid2.coords t) _ _ _ _ _ _ _ _ _ _ _ _ (fun h => h0 ((hcond2_0 t).mp h)) ((hcond2_1 t).mpr h1) (iblk2 V c 0 t) (iblk2 V c 1 t) (iblk2 V c 2 t) (iblk2 V c 3 t) _).2.2 Set.univ _)
    isplitl [H0]; · iexact H0
    isplitl [H1]; · iexact H1
    isplitl [H2]; · iexact H2
    isplitl [H3]; · iexact H3
    isplitl [H4]; · iexists _; iexact H4
    isplitl [HS0]; · iexact HS0
    iintro ⟨H0, H1, H2, H3, ⟨%e4, H4⟩, ⟨%es0, HS0⟩⟩
    isplitl [R1 R2 R3 R4 R5 R6 R7 R8 R9 R10 R11 HS0 Hg]
    · isplitl [R1 R2 R3 R4 R5 R6 R7 R8 R9 R10 R11 HS0]
      · isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [R10]; · iexact R10
        isplitl [R11]; · iexact R11
        unfold owns; iexists _; isplitr
        swap; · iexact HS0
        ipureintro; exact View.read_writes_of_cover _ _ _ _ _ (scover2_C_0 c _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover2_C_4 c _ _ _ _ _ _ _ _ _ _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

theorem hout2 (c : Dev nD) : (dat2 V c).Φ (Fin.last cfg2.N) ⊢ Pipeline.ΦA spec2 c := by
  have ht : (Fin.last cfg2.N).val ≠ 0 := by rw [Fin.val_last]; have : cfg2.N = 16 := N_2; omega
  rw [show (dat2 V c).Φ (Fin.last cfg2.N) = PhiS2 V c (Fin.last cfg2.N).val (Nat.le_of_lt_succ (Fin.last cfg2.N).isLt) from rfl, PhiS2_pos V c _ _ ht, PhiA2_eq]
  iintro ⟨⟨R1, R2, R3, R4, R5, R6, R7, R8, R9, R10, R11, HS0⟩, Hg⟩
  isplitl [R1 R2 R3 R4 R5 R6 R7 R8 R9 R10 R11 HS0]
  · isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    iexists _; iexact HS0
  iexact Hg

end Cert.KernelIdeal.Hand

end
-- ==== Proof.KIRun.lean ====
import proofs.«133457_j80410377716426_1_alg».proof.Proof.Gen.KernelIdeal.Launch
import proofs.«133457_j80410377716426_1_alg».proof.Proof.Gen.KernelIdeal.Skeleton
import proofs.«133457_j80410377716426_1_alg».proof.Proof.Gen.KernelIdeal.Points
import proofs.«133457_j80410377716426_1_alg».proof.Proof.KIReg0
import proofs.«133457_j80410377716426_1_alg».proof.Proof.KIReg1
import proofs.«133457_j80410377716426_1_alg».proof.Proof.KIReg2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run: the three calls in order, from the launch to the return

## The buffer contents at each boundary -/

/-- Core `c`'s buffers at launch (the first call's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the first call: its arrays at what its write-backs leave, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the second call. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-- After the third call: its result array at what its write-backs leave, every other buffer as entered (the call's
    other arrays are inputs, two of its windows staging one of them). -/
def W3 (c : Dev nD) : Valuation τ sig (Elt F) :=
  Function.update (W2 m ρ c) (Proc.devRef .tc main_v2) ((dat2 (V2 m ρ) c).arrAt 4 cfg2.N)
theorem W3_self (c : Dev nD) : W3 m ρ c (Proc.devRef .tc main_v2) = (dat2 (V2 m ρ) c).arrAt 4 cfg2.N := by
  unfold W3; exact Function.update_self _ _ _
theorem W3_of_ne (c : Dev nD) (b : Ref sig .tc) (hb : b ≠ main_v2) :
    W3 m ρ c (Proc.devRef .tc b) = W2 m ρ c (Proc.devRef .tc b) := by
  unfold W3; exact Function.update_of_ne (StableHlo.devRef_ne_of_ne hb) _ _
abbrev V3 : (c : Dev nD) → (b : Ref sig .tc) → Buf (Elt F) ((c : Thread nD τ).loc b) := fun c b => W3 m ρ c b

/-! ### The arguments end as launched -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := (W2_arr m ρ c 0).trans (((dat1 (V1 m ρ) c).arrAt_in 0 rfl _).trans (A_eq1 (V1 m ρ) c 0))
    _ = W0 m ρ c (Proc.devRef .tc main_arg1) := W1_of_ne m ρ c main_arg1 (by decide)
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := (W2_arr m ρ c 1).trans (((dat1 (V1 m ρ) c).arrAt_in 1 rfl _).trans (A_eq1 (V1 m ρ) c 1))
    _ = W0 m ρ c (Proc.devRef .tc main_arg2) := W1_of_ne m ρ c main_arg2 (by decide)
    _ = m ((c : Thread nD τ).loc main_arg2) := rfl

/-! ## The proof data family and the thread state -/

abbrev adm : (p : Fin 3) → (pcfgs (F := F) p).Adm := fun p => (cfgs p).toPCfg_adm
/-- Every call's proof data, each at its entry contents. -/
def pdats : (p : Fin 3) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
  | ⟨2, _⟩ => fun c => dat2 (V2 m ρ) c
abbrev 𝒱₀ : Variants := Variants.none
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-- The core's six unscoped buffers, one by one. -/
theorem unscopedBufs_list (c : Dev nD) (V : (b : Ref sig .tc) → Buf (Elt F) ((c : Thread nD τ).loc b)) :
    (unscopedBufs (Ix := Unit) (Name := ℕ) (U := UR sig nD τ) (Lvl := ℕ) c V : sProp 𝕄)
      = iprop((((c : Thread nD τ).loc main_arg0) ↦{fullShare} V main_arg0) ∗ (((c : Thread nD τ).loc main_arg1) ↦{fullShare} V main_arg1) ∗ (((c : Thread nD τ).loc main_arg2) ↦{fullShare} V main_arg2) ∗ (((c : Thread nD τ).loc main_v0) ↦{fullShare} V main_v0) ∗ (((c : Thread nD τ).loc main_v1) ↦{fullShare} V main_v1) ∗ (((c : Thread nD τ).loc main_v2) ↦{fullShare} V main_v2)) := by
  unfold unscopedBufs
  exact bigSep_eq_bigSepL_of_eq [main_arg0, main_arg1, main_arg2, main_v0, main_v1, main_v2] (by decide) (by decide) _

/-- The third call's arrays, window by window: the adjacency batch, the scaled features twice at half shares, the
    inverse square-root degrees, the result. -/
theorem arrays2_eq (c : Dev nD) (Fa : (w : Fin cfg2.W) → Buf (Elt F) (((cfg2.win w).arr.view.loc (c : Thread nD τ)))) :
    ((dat2 (V2 m ρ) c).arrays Fa : sProp 𝕄)
      = iprop((((c : Thread nD τ).loc main_arg0) ↦{fullShare} Fa 0) ∗ (((c : Thread nD τ).loc main_v1) ↦{fullShare.left} Fa 1) ∗ (((c : Thread nD τ).loc main_v1) ↦{fullShare.right} Fa 2) ∗ (((c : Thread nD τ).loc main_v0) ↦{fullShare} Fa 3) ∗ (((c : Thread nD τ).loc main_v2) ↦{fullShare} Fa 4)) := by
  unfold Dat.arrays
  rw [bigSep_W2, (arr_whole2 0).set_eq_univ, (arr_whole2 1).set_eq_univ, (arr_whole2 3).set_eq_univ, (arr_whole2 4).set_eq_univ]
  rfl

/-! ## The calls as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin0 (V0 m ρ) c
    unfold Pipeline.ΦA at h
    rw [show (pdats m ρ 0 c).Φ 0 = (dat0 (V0 m ρ) c).Φ 0 from rfl]
    iintro ⟨Hp, -, Hr⟩
    iapply h
    isplitl [Hr]; · iexact Hr
    iexact Hp
  hout c := by
    rw [Pipeline.ownSems0_none]
    have h := hout0 (V0 m ρ) c
    unfold Pipeline.ΦA at h
    rw [show (pdats m ρ 0 c).Φ (Fin.last _) = (dat0 (V0 m ρ) c).Φ (Fin.last cfg0.N) from rfl]
    iintro Hq
    ihave H := h $$ Hq
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The third call: the scaled features' array is split into two half shares at entry, one per window staging it, and
    the halves are joined again at exit. -/
def reg2 : Pipeline.RegionSeg (pcfgs (F := F)) adm (pdats m ρ) () defs₀ 𝒱₀ L lv 2 where
  win := winFacts₀2
  block_pos := block_pos2
  stage_whole := stage_whole2
  K := PEmpty
  osem k := k.elim
  ho := Pipeline.OwnSemFacts.none _
  hbody c := (body_obligation2 (V2 m ρ) c).loose
  hwaits := Pipeline.hwaits_of_owed_zero _ _ _ _ L lv 2 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := iprop((((c : Thread nD τ).loc main_arg1) ↦{fullShare} V2 m ρ c main_arg1) ∗ (((c : Thread nD τ).loc main_arg2) ↦{fullShare} V2 m ρ c main_arg2))
  hentry c := by
    rw [Pipeline.ownSems0_none]
    have hl := unscopedBufs_list c (V2 m ρ c)
    rw [Pipeline.unscopedBufs_held] at hl
    rw [hl, show (pdats m ρ 2 c) = dat2 (V2 m ρ) c from rfl, arrays2_eq]
    iintro ⟨⟨⟨Ha0, Ha1, Ha2, Hv0, Hv1, Hv2⟩, Hp, HO⟩, -, -⟩
    ihave Hs := (pointsTo_share (PosShare.mem_left_op_right fullShare)).1 $$ Hv1
    icases Hs with ⟨Hv1l, Hv1r⟩
    imodintro
    isplitl [Ha0 Hv0 Hv1l Hv1r Hv2]
    · isplitl [Ha0]; · iexact Ha0
      isplitl [Hv1l]; · iexact Hv1l
      isplitl [Hv1r]; · iexact Hv1r
      isplitl [Hv0]; · iexact Hv0
      iexact Hv2
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    isplitl [Ha1]; · iexact Ha1
    iexact Ha2
  hin c := by
    have h := hin2 (V2 m ρ) c
    unfold Pipeline.ΦA at h
    rw [show (pdats m ρ 2 c).Φ 0 = (dat2 (V2 m ρ) c).Φ 0 from rfl]
    iintro ⟨Hp, -, Hr⟩
    iapply h
    isplitl [Hr]; · iexact Hr
    iexact Hp
  hout c := by
    rw [Pipeline.ownSems0_none]
    have h := hout2 (V2 m ρ) c
    unfold Pipeline.ΦA at h
    rw [show (pdats m ρ 2 c).Φ (Fin.last _) = (dat2 (V2 m ρ) c).Φ (Fin.last cfg2.N) from rfl]
    iintro Hq
    ihave H := h $$ Hq
    icases H with ⟨Hr, Hp⟩
    isplitl [Hp]; · iexact Hp
    isplitr; · iempintro
    iexact Hr
  hexit c := by
    have hl := unscopedBufs_list c (V3 m ρ c)
    rw [Pipeline.unscopedBufs_held] at hl
    rw [show Tₙ m ρ c = iprop(StableHlo.held (c : Thread nD τ) (Pipeline.ucRefs τ sig) (W3 m ρ c) ∗ ∃ r, prngReg c r) from rfl, hl, show (pdats m ρ 2 c) = dat2 (V2 m ρ) c from rfl, arrays2_eq]
    rw [(dat2 (V2 m ρ) c).arrAt_in 0 rfl _, (dat2 (V2 m ρ) c).arrAt_in 1 rfl _, (dat2 (V2 m ρ) c).arrAt_in 2 rfl _, (dat2 (V2 m ρ) c).arrAt_in 3 rfl _]
    rw [show V3 m ρ c main_arg0 = V2 m ρ c main_arg0 from W3_of_ne m ρ c main_arg0 (by decide),
      show V3 m ρ c main_arg1 = V2 m ρ c main_arg1 from W3_of_ne m ρ c main_arg1 (by decide),
      show V3 m ρ c main_arg2 = V2 m ρ c main_arg2 from W3_of_ne m ρ c main_arg2 (by decide),
      show V3 m ρ c main_v0 = V2 m ρ c main_v0 from W3_of_ne m ρ c main_v0 (by decide),
      show V3 m ρ c main_v1 = V2 m ρ c main_v1 from W3_of_ne m ρ c main_v1 (by decide),
      show V3 m ρ c main_v2 = (dat2 (V2 m ρ) c).arrAt 4 cfg2.N from W3_self m ρ c]
    iintro ⟨⟨Ha0, Hv1l, Hv1r, Hv0, Hv2⟩, HO, HY, Ha1, Ha2⟩
    ihave Hv1 := (pointsTo_share (PosShare.mem_left_op_right fullShare)).2 $$ [Hv1l Hv1r]
    · isplitl [Hv1l]; · iexact Hv1l
      iexact Hv1r
    imodintro
    isplitl [Ha0 Ha1 Ha2 Hv0 Hv1 Hv2 HY]
    · isplitl [Ha0 Ha1 Ha2 Hv0 Hv1 Hv2]
      · isplitl [Ha0]; · iexact Ha0
        isplitl [Ha1]; · iexact Ha1
        isplitl [Ha2]; · iexact Ha2
        isplitl [Hv0]; · iexact Hv0
        isplitl [Hv1]; · iexact Hv1
        iexact Hv2
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ), .region (reg1 m ρ), .region (reg2 m ρ) ]
theorem main_run (c : Dev nD) : main (F := F) c = Pipeline.Seg.run (segs m ρ) := (main_chain c).trans (by chain_rfl)

set_option backward.isDefEq.respectTransparency.types false in
/-- From any memory with zero counters, every weakly fair execution of the program terminates without a fault, and
    every final state has the result array at what the third call's write-backs leave and the three argument arrays as
    launched. -/
theorem run_all : θ_run defs (onTc (τ := τ) (main (F := F))) ⟨m, fun _ => 0, ρ⟩ (fun r => ∀ c : Dev nD,
      r.2.mem ((c.tc : Thread nD τ).loc main_v2) = (dat2 (V2 m ρ) c).arrAt 4 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v2 (by decide))).trans (W3_self m ρ c),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c)⟩)

end Cert.KernelIdeal.Hand

end
-- ==== Proof.LibTiles.lean ====
/-
  A running total taken tile by tile is the total.

  Let f be a function on the natural numbers with values in a commutative additive monoid (the extended reals are one),
  and B a tile width.  Start from 0 + (the sum of f over the first tile) and, tile after tile, add the sum of f over
  the next B arguments: after tile k the running total is the sum of f over the first (k + 1) · B naturals.  Only
  0 + x = x and the associativity of addition are used, so nothing needs to be finite.
  A function given on `Fin n` is carried to the naturals by extending it with zero; with (k + 1) · B = n the running
  total of the extension is the sum over `Fin n`, and the sum over `Fin (T · B)` is the double sum over tiles and
  places in a tile.  The two tilings used are spelt out: 32 tiles of width 1024 and 4 tiles of width 2048.
-/
import Idealize.ShloMosaic.PureOps.Ideal

noncomputable section

namespace Cert.Lib.Tiles

open scoped BigOperators

variable {M : Type*} [AddCommMonoid M]

/-- The running total after tile `k`: tile 0 is added to zero, every later tile to the total so far. -/
def runTot (f : ℕ → M) (B : ℕ) : ℕ → M
  | 0 => 0 + ∑ j : Fin B, f (0 * B + j.val)
  | k + 1 => runTot f B k + ∑ j : Fin B, f ((k + 1) * B + j.val)

theorem runTot_zero (f : ℕ → M) (B : ℕ) : runTot f B 0 = 0 + ∑ j : Fin B, f (0 * B + j.val) := rfl

theorem runTot_succ (f : ℕ → M) (B k : ℕ) :
    runTot f B (k + 1) = runTot f B k + ∑ j : Fin B, f ((k + 1) * B + j.val) := rfl

/-- After tile `k` the running total is the sum over the first `(k + 1) · B` naturals. -/
theorem runTot_eq (f : ℕ → M) (B : ℕ) : ∀ k : ℕ, runTot f B k = ∑ j ∈ Finset.range ((k + 1) * B), f j
  | 0 => by
    rw [runTot_zero, zero_add, Nat.zero_add, Nat.one_mul, Finset.sum_range]
    exact Finset.sum_congr rfl fun j _ => by rw [Nat.zero_mul, Nat.zero_add]
  | k + 1 => by
    rw [runTot_succ, runTot_eq f B k, Nat.succ_mul (k + 1) B, Finset.sum_range_add,
      Finset.sum_range (fun x => f ((k + 1) * B + x))]

/-- A function on `Fin n` extended by zero to all naturals. -/
def ext {n : ℕ} (g : Fin n → M) (j : ℕ) : M := if h : j < n then g ⟨j, h⟩ else 0

theorem ext_of_lt {n : ℕ} (g : Fin n → M) {j : ℕ} (h : j < n) : ext g j = g ⟨j, h⟩ := dif_pos h

/-- The sum over `Fin n` is the sum of the extension over the first `n` naturals. -/
theorem sum_ext {n : ℕ} (g : Fin n → M) : ∑ j ∈ Finset.range n, ext g j = ∑ j : Fin n, g j := by
  rw [Finset.sum_range]
  exact Finset.sum_congr rfl fun j _ => ext_of_lt g j.isLt

/-- With `(k + 1) · B = n`, the running total of the extension after tile `k` is the sum over `Fin n`. -/
theorem runTot_ext {n : ℕ} (g : Fin n → M) (B k : ℕ) (h : (k + 1) * B = n) :
    runTot (ext g) B k = ∑ j : Fin n, g j := by
  rw [runTot_eq, h, sum_ext]

/-- The sum of `f` over `T` consecutive tiles of width `B` is its sum over the first `T · B` naturals. -/
theorem sum_tiles (f : ℕ → M) (B : ℕ) :
    ∀ T : ℕ, ∑ s ∈ Finset.range T, ∑ k : Fin B, f (s * B + k.val) = ∑ j ∈ Finset.range (T * B), f j
  | 0 => by simp
  | T + 1 => by
    rw [Finset.sum_range_succ, sum_tiles f B T, Nat.succ_mul, Finset.sum_range_add,
      Finset.sum_range (fun x => f (T * B + x))]

/-- The sum over `Fin (T · B)` is the double sum over the tile and the place in the tile. -/
theorem sum_fin_tiles (T B : ℕ) (g : Fin (T * B) → M) :
    ∑ j : Fin (T * B), g j = ∑ s : Fin T, ∑ k : Fin B, ext g (s.val * B + k.val) := by
  rw [← sum_ext g, ← Finset.sum_range (fun s => ∑ k : Fin B, ext g (s * B + k.val))]
  exact (sum_tiles (ext g) B T).symm

/-- 32 tiles of width 1024: the running total after the last tile is the sum over all 32768 places. -/
theorem runTot_32x1024 (g : Fin 32768 → M) : runTot (ext g) 1024 31 = ∑ j : Fin 32768, g j :=
  runTot_ext g 1024 31 (by norm_num)

/-- 4 tiles of width 2048: the running total after the last tile is the sum over all 8192 places. -/
theorem runTot_4x2048 (g : Fin 8192 → M) : runTot (ext g) 2048 3 = ∑ j : Fin 8192, g j :=
  runTot_ext g 2048 3 (by norm_num)

/-- Place `j` of tile `s` among 32 tiles of width 1024, read from the extension. -/
theorem ext_32x1024 (g : Fin 32768 → M) (s : Fin 32) (j : Fin 1024) :
    ext g (s.val * 1024 + j.val) = g ⟨s.val * 1024 + j.val, by have := s.isLt; have := j.isLt; omega⟩ :=
  ext_of_lt g _

/-- Place `j` of tile `s` among 4 tiles of width 2048, read from the extension. -/
theorem ext_4x2048 (g : Fin 8192 → M) (s : Fin 4) (j : Fin 2048) :
    ext g (s.val * 2048 + j.val) = g ⟨s.val * 2048 + j.val, by have := s.isLt; have := j.isLt; omega⟩ :=
  ext_of_lt g _

end Cert.Lib.Tiles

end
-- ==== Proof.Spec.lean ====
/-
  The graph-convolution layer both programs compute, as one function of the three argument arrays on the
  extended reals, index by index.

  For a batch of four graphs on 4096 nodes with adjacency matrix `A[b]`, node features `H[b]` (64 per node)
  and a 64×64 weight matrix `W`:
    * the degree of node `j` is the `j`-th column sum of `A[b]` plus one (the self-loop),
    * `dinv b j` is its inverse square root,
    * `hw b n o` is the feature transform `(H[b] · W)[n, o]`,
    * the layer's output is `dinv b n · (Σ_m A[b,n,m] · (dinv b m · hw b m o) + dinv b n · hw b n o)`:
      the normalised adjacency `D^(-1/2) (A + I) D^(-1/2)` applied to `H W`, with the self-loop term
      split off the sum and the row scaling factored out.
-/
import Idealize.ShloMosaic.PureOps.Ideal
import Idealize.ShloMosaic.Lib.ValueIdx

noncomputable section

namespace Cert.Gcn

open Idealize.ShloMosaic Idealize.ShloMosaic.ValueIdx

/-- The adjacency batch's shape, the feature batch's (also the output's) and the weight matrix's. -/
abbrev SA : Shape := ⟨3, ![4, 4096, 4096]⟩
abbrev SH : Shape := ⟨3, ![4, 4096, 64]⟩
abbrev SW : Shape := ⟨2, ![64, 64]⟩

/-- The degree of node `j` of graph `b`: the `j`-th column sum of the adjacency matrix, plus one for the self-loop. -/
def deg (A : SA.Idx → EReal) (b : Fin 4) (j : Fin 4096) : EReal :=
  (∑ i : Fin 4096, A (ix3 b i j)) + 1

/-- The inverse square root of the degree. -/
def dinv (A : SA.Idx → EReal) (b : Fin 4) (j : Fin 4096) : EReal :=
  Ideal.rsqrt (deg A b j)

/-- The transformed features `(H[b] · W)[n, o]`. -/
def hw (H : SH.Idx → EReal) (W : SW.Idx → EReal) (b : Fin 4) (n : Fin 4096) (o : Fin 64) : EReal :=
  ∑ f : Fin 64, H (ix3 b n f) * W (ix2 f o)

/-- The layer's output at node `n`, feature `o` of graph `b`. -/
def out (A : SA.Idx → EReal) (H : SH.Idx → EReal) (W : SW.Idx → EReal) (b : Fin 4) (n : Fin 4096) (o : Fin 64) : EReal :=
  dinv A b n * ((∑ m : Fin 4096, A (ix3 b n m) * (dinv A b m * hw H W b m o)) + dinv A b n * hw H W b n o)

/-- The layer's output as an array. -/
def G (A : SA.Idx → EReal) (H : SH.Idx → EReal) (W : SW.Idx → EReal) : SH.Idx → EReal :=
  fun i => out A H W (i 0) (i 1) (i 2)

theorem G_apply (A : SA.Idx → EReal) (H : SH.Idx → EReal) (W : SW.Idx → EReal) (b : Fin 4) (n : Fin 4096) (o : Fin 64) :
    G A H W (ix3 b n o) = out A H W b n o := rfl

end Cert.Gcn

end
-- ==== Proof.KIVal0.lean ====
import proofs.«133457_j80410377716426_1_alg».proof.Proof.Gen.KernelIdeal.Launch
import proofs.«133457_j80410377716426_1_alg».proof.Proof.Gen.KernelIdeal.Skeleton
import proofs.«133457_j80410377716426_1_alg».proof.Proof.Gen.KernelIdeal.Points
import proofs.«133457_j80410377716426_1_alg».proof.Proof.KIReg0
import proofs.«133457_j80410377716426_1_alg».proof.Proof.LibTiles
import proofs.«133457_j80410377716426_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

/-! # The degree kernel's value

## What each case's stores leave, as the body's arithmetic -/

/-- First point: the accumulator is zeroed, read back, and left at `0 + (the block's column sums)`. -/
theorem sout0_A_eq (c : Dev nD) (i : grid0.Coords) (arg1 : Memref sig .tc .vmem S4x256x4096 .f32) (harg1 : arg1.IsWhole) (arg2 : Memref sig .tc .vmem S4x4096 .f32) (harg2 : arg2.IsWhole) (arg3 : Memref sig .tc .vmem S4x4096 .f32) (harg3 : arg3.IsWhole) (hc0 : cond0_0 i) (hc1 : ¬cond0_1 i) (x0 : Vec F S4x256x4096 .f32) :
    sout0_A_0 c i arg1 harg1 arg2 harg2 arg3 harg3 hc0 hc1 x0 = k0_pay2 (k0_pay1 (F := F)) x0 := by
  unfold sout0_A_0
  rw [View.read_writes_eq_canon _ _ _ (scover0_A_0 c i arg1 harg1 arg2 harg2 arg3 harg3 hc0 hc1 x0)]
  unfold kernelRun0_A
  dsimp only
  sl_unfold_words
  rw [View.canon_cons_unit_zero (S := S4x4096) hz2, View.readCov_unit_zero (S := S4x4096) _ hz2]
  simp only [View.readAt_eq_ld, harg1.read_unread, View.ld_unit_zero (S := S4x256x4096) hz3]

/-- Middle points: the accumulator found plus the block's column sums. -/
theorem sout0_B_eq (c : Dev nD) (i : grid0.Coords) (arg1 : Memref sig .tc .vmem S4x256x4096 .f32) (harg1 : arg1.IsWhole) (arg2 : Memref sig .tc .vmem S4x4096 .f32) (harg2 : arg2.IsWhole) (arg3 : Memref sig .tc .vmem S4x4096 .f32) (harg3 : arg3.IsWhole) (hc0 : ¬cond0_0 i) (hc1 : ¬cond0_1 i) (x0 : Vec F S4x256x4096 .f32) (xs0 : Vec F S4x4096 .f32) :
    sout0_B_0 c i arg1 harg1 arg2 harg2 arg3 harg3 hc0 hc1 x0 xs0 = k0_pay2 xs0 x0 := by
  unfold sout0_B_0
  rw [View.read_writes_eq_canon _ _ _ (scover0_B_0 c i arg1 harg1 arg2 harg2 arg3 harg3 hc0 hc1 x0 xs0)]
  unfold kernelRun0_B
  dsimp only
  sl_unfold_words
  rw [View.canon_unit_zero hz2]
  simp only [View.readAt_eq_ld, harg1.read_unread, harg3.read_unread, View.ld_unit_zero (S := S4x256x4096) hz3, View.ld_unit_zero (S := S4x4096) hz2]

/-- Last point: the same in the accumulator, -/
theorem sout0_C_eq (c : Dev nD) (i : grid0.Coords) (arg1 : Memref sig .tc .vmem S4x256x4096 .f32) (harg1 : arg1.IsWhole) (arg2 : Memref sig .tc .vmem S4x4096 .f32) (harg2 : arg2.IsWhole) (arg3 : Memref sig .tc .vmem S4x4096 .f32) (harg3 : arg3.IsWhole) (hc0 : ¬cond0_0 i) (hc1 : cond0_1 i) (x0 : Vec F S4x256x4096 .f32) (xs0 : Vec F S4x4096 .f32) :
    sout0_C_0 c i arg1 harg1 arg2 harg2 arg3 harg3 hc0 hc1 x0 xs0 = k0_pay2 xs0 x0 := by
  unfold sout0_C_0
  rw [View.read_writes_eq_canon _ _ _ (scover0_C_0 c i arg1 harg1 arg2 harg2 arg3 harg3 hc0 hc1 x0 xs0)]
  unfold kernelRun0_C
  dsimp only
  sl_unfold_words
  rw [View.canon_unit_zero hz2]
  simp only [View.readAt_eq_ld, harg1.read_unread, harg3.read_unread, View.ld_unit_zero (S := S4x256x4096) hz3, View.ld_unit_zero (S := S4x4096) hz2]

/-- and in the output block the inverse square root of (the accumulator just stored, plus one). -/
theorem out0_C_eq (c : Dev nD) (i : grid0.Coords) (arg1 : Memref sig .tc .vmem S4x256x4096 .f32) (harg1 : arg1.IsWhole) (arg2 : Memref sig .tc .vmem S4x4096 .f32) (harg2 : arg2.IsWhole) (arg3 : Memref sig .tc .vmem S4x4096 .f32) (harg3 : arg3.IsWhole) (hc0 : ¬cond0_0 i) (hc1 : cond0_1 i) (x0 : Vec F S4x256x4096 .f32) (xs0 : Vec F S4x4096 .f32) :
    out0_C_1 c i arg1 harg1 arg2 harg2 arg3 harg3 hc0 hc1 x0 xs0 = k0_pay3 (k0_pay2 xs0 x0) := by
  unfold out0_C_1
  rw [View.read_writes_eq_canon _ _ _ (cover0_C_1 c i arg1 harg1 arg2 harg2 arg3 harg3 hc0 hc1 x0 xs0)]
  unfold kernelRun0_C
  dsimp only
  sl_unfold_words
  rw [View.canon_unit_zero hz2, View.readCov_unit_zero (S := S4x4096) _ hz2]
  simp only [View.readAt_eq_ld, harg1.read_unread, harg3.read_unread, View.ld_unit_zero (S := S4x256x4096) hz3, View.ld_unit_zero (S := S4x4096) hz2]

variable (V : (c : Dev nD) → (b : Ref sig .tc) → Buf (Elt F) ((c : Thread nD τ).loc b))

/-- The accumulator after point `n`: zero plus the first block's column sums, then plus each later block's. -/
def acc0 (c : Dev nD) : (n : ℕ) → n < cfg0.N → Vec F S4x4096 .f32
  | 0, h => k0_pay2 (k0_pay1 (F := F)) (iblk0 V c 0 ⟨0, h⟩)
  | n + 1, h => k0_pay2 (acc0 c n (Nat.lt_of_succ_lt h)) (iblk0 V c 0 ⟨n + 1, h⟩)

/-- What the frame's recursion leaves in the accumulator IS that running sum, by induction on the point. -/
theorem outsAt0_snd (c : Dev nD) : ∀ (n : ℕ) (h : n < cfg0.N), (outsAt0 V c n h).2 = acc0 V c n h
  | 0, h => by
    rw [outsAt0_A V c ⟨0, h⟩ rfl (fun e => Nat.succ_ne_zero 14 e.symm)]
    dsimp only
    rw [sout0_A_eq]
    rfl
  | n + 1, h => by
    have h0 : ¬ (⟨n + 1, h⟩ : Fin cfg0.N).val = 0 := Nat.succ_ne_zero n
    by_cases h1 : (⟨n + 1, h⟩ : Fin cfg0.N).val = 15
    · rw [outsAt0_C V c ⟨n + 1, h⟩ h0 h1]
      dsimp only
      rw [sout0_C_eq]
      show k0_pay2 (outsAt0 V c n _).2 _ = k0_pay2 (acc0 V c n _) _
      rw [outsAt0_snd c n]
    · rw [outsAt0_B V c ⟨n + 1, h⟩ h0 h1]
      dsimp only
      rw [sout0_B_eq]
      show k0_pay2 (outsAt0 V c n _).2 _ = k0_pay2 (acc0 V c n _) _
      rw [outsAt0_snd c n]

/-- After the last point the output block holds the inverse square root of (the full running sum, plus one). -/
theorem outsAt0_fst_last (c : Dev nD) (h : 15 < cfg0.N) : (outsAt0 V c 15 h).1 = k0_pay3 (acc0 V c 15 h) := by
  rw [outsAt0_C V c ⟨15, h⟩ (fun e => Nat.succ_ne_zero 14 e) rfl]
  dsimp only
  rw [out0_C_eq]
  show k0_pay3 (k0_pay2 (outsAt0 V c 14 _).2 _) = k0_pay3 (k0_pay2 (acc0 V c 14 _) _)
  rw [outsAt0_snd V c 14]

end Cert.KernelIdeal.Hand

end
-- ==== Proof.KIVal2.lean ====
import proofs.«133457_j80410377716426_1_alg».proof.Proof.Gen.KernelIdeal.Launch
import proofs.«133457_j80410377716426_1_alg».proof.Proof.Gen.KernelIdeal.Skeleton
import proofs.«133457_j80410377716426_1_alg».proof.Proof.Gen.KernelIdeal.Points
import proofs.«133457_j80410377716426_1_alg».proof.Proof.KIReg2
import proofs.«133457_j80410377716426_1_alg».proof.Proof.KIVal0
import proofs.«133457_j80410377716426_1_alg».proof.Proof.LibTiles
import proofs.«133457_j80410377716426_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

/-! # The aggregation kernel's value

## What each case's stores leave, as the body's arithmetic -/

/-- Even points: the accumulator is zeroed, read back, and left at `0 + (the block's product with the rows-m features)`. -/
theorem sout2_A_eq (c : Dev nD) (i : grid2.Coords) (arg3 : Memref sig .tc .vmem S1x2048x2048 .f32) (harg3 : arg3.IsWhole) (arg4 : Memref sig .tc .vmem S1x2048x64 .f32) (harg4 : arg4.IsWhole) (arg5 : Memref sig .tc .vmem S1x2048x64 .f32) (harg5 : arg5.IsWhole) (arg6 : Memref sig .tc .vmem S4x2048 .f32) (harg6 : arg6.IsWhole) (arg7 : Memref sig .tc .vmem S1x2048x64 .f32) (harg7 : arg7.IsWhole) (arg8 : Memref sig .tc .vmem S2048x64 .f32) (harg8 : arg8.IsWhole) (hc0 : cond2_0 i) (hc1 : ¬cond2_1 i) (x0 : Vec F S1x2048x2048 .f32) (x1 : Vec F S1x2048x64 .f32) (x2 : Vec F S1x2048x64 .f32) (x3 : Vec F S4x2048 .f32) :
    sout2_A_0 c i arg3 harg3 arg4 harg4 arg5 harg5 arg6 harg6 arg7 harg7 arg8 harg8 hc0 hc1 x0 x1 x2 x3 = k2_pay2 x0 x1 (k2_pay1 (F := F)) := by
  unfold sout2_A_0
  rw [View.read_writes_eq_canon _ _ _ (scover2_A_0 c i arg3 harg3 arg4 harg4 arg5 harg5 arg6 harg6 arg7 harg7 arg8 harg8 hc0 hc1 x0 x1 x2 x3)]
  unfold kernelRun2_A
  dsimp only
  sl_unfold_words
  rw [View.canon_cons_unit_zero (S := S2048x64) hz2, View.readCov_unit_zero (S := S2048x64) _ hz2]
  simp only [View.readAt_eq_ld, harg3.read_unread, harg4.read_unread, harg5.read_unread, harg6.read_unread, harg8.read_unread, View.ld_unit_zero (S := S1x2048x2048) hz3, View.ld_unit_zero (S := S1x2048x64) hz3, View.ld_unit_zero (S := S2048x64) hz2]

/-- Odd points: the accumulator found plus the block's product, -/
theorem sout2_C_eq (c : Dev nD) (i : grid2.Coords) (arg3 : Memref sig .tc .vmem S1x2048x2048 .f32) (harg3 : arg3.IsWhole) (arg4 : Memref sig .tc .vmem S1x2048x64 .f32) (harg4 : arg4.IsWhole) (arg5 : Memref sig .tc .vmem S1x2048x64 .f32) (harg5 : arg5.IsWhole) (arg6 : Memref sig .tc .vmem S4x2048 .f32) (harg6 : arg6.IsWhole) (arg7 : Memref sig .tc .vmem S1x2048x64 .f32) (harg7 : arg7.IsWhole) (arg8 : Memref sig .tc .vmem S2048x64 .f32) (harg8 : arg8.IsWhole) (hc0 : ¬cond2_0 i) (hc1 : cond2_1 i) (x0 : Vec F S1x2048x2048 .f32) (x1 : Vec F S1x2048x64 .f32) (x2 : Vec F S1x2048x64 .f32) (x3 : Vec F S4x2048 .f32) (xs0 : Vec F S2048x64 .f32) :
    sout2_C_0 c i arg3 harg3 arg4 harg4 arg5 harg5 arg6 harg6 arg7 harg7 arg8 harg8 hc0 hc1 x0 x1 x2 x3 xs0 = k2_pay2 x0 x1 xs0 := by
  unfold sout2_C_0
  rw [View.read_writes_eq_canon _ _ _ (scover2_C_0 c i arg3 harg3 arg4 harg4 arg5 harg5 arg6 harg6 arg7 harg7 arg8 harg8 hc0 hc1 x0 x1 x2 x3 xs0)]
  unfold kernelRun2_C
  dsimp only
  sl_unfold_words
  rw [View.canon_unit_zero hz2]
  simp only [View.readAt_eq_ld, harg3.read_unread, harg4.read_unread, harg5.read_unread, harg6.read_unread, harg8.read_unread, View.ld_unit_zero (S := S1x2048x2048) hz3, View.ld_unit_zero (S := S1x2048x64) hz3, View.ld_unit_zero (S := S2048x64) hz2]

/-- The graph's row of the factor block, as loaded at an odd point. -/
def drow2 (i : grid2.Coords) (hc1 : cond2_1 i) (x3 : Vec F S4x2048 .f32) : Vec F S1x2048 .f32 :=
  View.ld x3 (Rect.unit (s := S4x2048) (k2_off1 i) S1x2048.size (k2_off1_inb i hc1))

/-- and in the output block: the graph's factors times (the accumulator just stored plus the rows-n features). -/
theorem out2_C_eq (c : Dev nD) (i : grid2.Coords) (arg3 : Memref sig .tc .vmem S1x2048x2048 .f32) (harg3 : arg3.IsWhole) (arg4 : Memref sig .tc .vmem S1x2048x64 .f32) (harg4 : arg4.IsWhole) (arg5 : Memref sig .tc .vmem S1x2048x64 .f32) (harg5 : arg5.IsWhole) (arg6 : Memref sig .tc .vmem S4x2048 .f32) (harg6 : arg6.IsWhole) (arg7 : Memref sig .tc .vmem S1x2048x64 .f32) (harg7 : arg7.IsWhole) (arg8 : Memref sig .tc .vmem S2048x64 .f32) (harg8 : arg8.IsWhole) (hc0 : ¬cond2_0 i) (hc1 : cond2_1 i) (x0 : Vec F S1x2048x2048 .f32) (x1 : Vec F S1x2048x64 .f32) (x2 : Vec F S1x2048x64 .f32) (x3 : Vec F S4x2048 .f32) (xs0 : Vec F S2048x64 .f32) :
    out2_C_4 c i arg3 harg3 arg4 harg4 arg5 harg5 arg6 harg6 arg7 harg7 arg8 harg8 hc0 hc1 x0 x1 x2 x3 xs0 = k2_pay3 (drow2 i hc1 x3) (k2_pay2 x0 x1 xs0) x2 := by
  unfold out2_C_4
  rw [View.read_writes_eq_canon _ _ _ (cover2_C_4 c i arg3 harg3 arg4 harg4 arg5 harg5 arg6 harg6 arg7 harg7 arg8 harg8 hc0 hc1 x0 x1 x2 x3 xs0)]
  unfold kernelRun2_C
  dsimp only
  sl_unfold_words
  rw [View.canon_unit_zero hz3, View.readCov_unit_zero (S := S2048x64) _ hz2]
  simp only [View.readAt_eq_ld, harg3.read_unread, harg4.read_unread, harg5.read_unread, harg6.read_unread, harg8.read_unread, View.ld_unit_zero (S := S1x2048x2048) hz3, View.ld_unit_zero (S := S1x2048x64) hz3, View.ld_unit_zero (S := S2048x64) hz2]
  rfl

end Cert.KernelIdeal.Hand

end
-- ==== Proof.KIVal0b.lean ====
import proofs.«133457_j80410377716426_1_alg».proof.Proof.Gen.KernelIdeal.Launch
import proofs.«133457_j80410377716426_1_alg».proof.Proof.Gen.KernelIdeal.Skeleton
import proofs.«133457_j80410377716426_1_alg».proof.Proof.Gen.KernelIdeal.Points
import proofs.«133457_j80410377716426_1_alg».proof.Proof.KIVal0
import proofs.«133457_j80410377716426_1_alg».proof.Proof.LibTiles
import proofs.«133457_j80410377716426_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

open Cert.Lib

variable (V : (c : Dev nD) → (b : Ref sig .tc) → Buf (Elt Ideal) ((c : Thread nD τ).loc b))

/-! ## The degree kernel's value on the extended reals -/

/-- The pattern of the float one denotes one. -/
theorem ofBits_one_f32 : Ideal.ofBits .f32 0x3F800000#32 = 1 := IdealRules.sign_bit.ideal_onePat .f32

/-- Column `j` of graph `b` with row `k` of the block put back. -/
theorem lift0 (h : S4x256x4096.Reduces [1] S4x4096) (b : Fin 4) (j : Fin 4096) (k : Fin (S4x256x4096.size 1)) :
    h.lift (ix2 b j) k = ix3 b (⟨k.val, k.isLt⟩ : Fin 256) j := by
  funext a; apply Fin.ext; fin_cases a <;> rfl

/-- The zero block. -/
theorem pay1_apply (i : S4x4096.Idx) : k0_pay1 (F := Ideal) i = 0 := by
  unfold k0_pay1
  refine (congrFun (shapeCast_self _ _) _).trans ?_
  exact Ideal.ofBits_zero_f32

/-- One accumulation step at an entry: what was there plus the block's column sum. -/
theorem pay2_apply (v3 : Vec Ideal S4x4096 .f32) (v4 : Vec Ideal S4x256x4096 .f32) (b : Fin 4) (j : Fin 4096) :
    k0_pay2 (F := Ideal) v3 v4 (ix2 b j) = v3 (ix2 b j) + ∑ r : Fin 256, v4 (ix3 b r j) := by
  unfold k0_pay2
  refine (congrFun (shapeCast_self _ _) _).trans ?_
  refine congrArg (v3 (ix2 b j) + ·) ?_
  refine (Ideal.multiReduction_add_single v4 0x00000000#32 reduces_S4x256x4096_S4x4096 (.inl rfl) rfl (ix2 b j)).trans ?_
  exact Finset.sum_congr rfl fun k _ => (congrArg v4 (lift0 _ b j k)).trans rfl

/-- The stored result at an entry: the inverse square root of the accumulator plus one. -/
theorem pay3_apply (v13 : Vec Ideal S4x4096 .f32) (i : S4x4096.Idx) :
    k0_pay3 (F := Ideal) v13 i = Ideal.rsqrt (v13 i + 1) := by
  unfold k0_pay3
  show Ideal.rsqrt (v13 i + Ideal.ofBits .f32 0x3F800000#32) = _
  rw [ofBits_one_f32]

/-- Row `r` of point `t`'s block is row `256 t + r` of the adjacency matrix. -/
theorem iblk0_apply (c : Dev nD) (t : Fin cfg0.N) (b : Fin 4) (r : Fin 256) (j : Fin 4096) :
    (iblk0 V c 0 t : Vec Ideal S4x256x4096 .f32) (ix3 b r j)
      = V c main_arg0 (ix3 b (⟨t.val * 256 + r.val, by have := t.isLt; have hN : cfg0.N = 16 := N_0; have := r.isLt; omega⟩ : Fin 4096) j) := by
  have hi : win0_0.index t 0 = 0 ∧ win0_0.index t 1 = t.val ∧ win0_0.index t 2 = 0 :=
    (by decide +kernel : ∀ t : Fin grid0.N, win0_0.index t 0 = 0 ∧ win0_0.index t 1 = t.val ∧ win0_0.index t 2 = 0) t
  unfold iblk0
  rw [View.read_apply]
  show V c main_arg0 _ = V c main_arg0 _
  congr 1
  funext a
  apply Fin.ext
  match a with
  | ⟨0, _⟩ => show win0_0.index t 0 * 4 + 1 * b.val = b.val; rw [hi.1]; omega
  | ⟨1, _⟩ => show win0_0.index t 1 * 256 + 1 * r.val = t.val * 256 + r.val; rw [hi.2.1]; omega
  | ⟨2, _⟩ => show win0_0.index t 2 * 4096 + 1 * j.val = j.val; rw [hi.2.2]; omega

/-- An entry of the accumulator after point `n` is the running total, tile by tile, of that column of the adjacency matrix. -/
theorem acc0_apply (c : Dev nD) : ∀ (n : ℕ) (h : n < cfg0.N) (b : Fin 4) (j : Fin 4096),
    acc0 (F := Ideal) V c n h (ix2 b j) = Tiles.runTot (M := EReal) (Tiles.ext fun i : Fin 4096 => (V c main_arg0 (ix3 b i j) : EReal)) 256 n
  | 0, h, b, j => by
    rw [acc0, pay2_apply, pay1_apply, Tiles.runTot_zero]
    refine congrArg (0 + ·) (Finset.sum_congr rfl fun r _ => ?_)
    rw [iblk0_apply, Tiles.ext_of_lt _ (by have := r.isLt; omega : 0 * 256 + r.val < 4096)]
  | n + 1, h, b, j => by
    have hN : cfg0.N = 16 := N_0
    rw [acc0, pay2_apply, acc0_apply c n _ b j, Tiles.runTot_succ]
    refine congrArg (_ + ·) (Finset.sum_congr rfl fun r _ => ?_)
    rw [iblk0_apply, Tiles.ext_of_lt _ (by have := r.isLt; omega : (n + 1) * 256 + r.val < 4096)]

/-- The inverse square-root degrees, as the contents of the first call's result array. -/
def D0 (c : Dev nD) : Buf (Elt Ideal) ((c : Thread nD τ).loc main_v0) :=
  fun i => Cert.Gcn.dinv (V c main_arg0) (i 0) (i 1)

/-- After the last point the output block holds them. -/
theorem last0_eq (c : Dev nD) (h : 15 < cfg0.N) : (outsAt0 V c 15 h).1 = D0 V c := by
  funext i
  obtain ⟨b, j, rfl⟩ : ∃ (b : Fin 4) (j : Fin 4096), i = ix2 b j := ⟨i 0, i 1, eq_ix2 i⟩
  rw [outsAt0_fst_last, pay3_apply, acc0_apply, Tiles.runTot_ext _ 256 15 (by norm_num)]
  rfl

/-- The one write-back, at the last point, writes them: the block is the whole array. -/
theorem flushed0_eq (c : Dev nD) (t : Fin cfg0.N) (hf : (cfg0.win 1).flush t = true) :
    (dat0 V c).flushed 1 t = ((cfg0.win 1).blk t).view.read (Elt Ideal) (D0 V c) := by
  have hN : cfg0.N = 16 := N_0
  have h15 : t.val = 15 := by have := (flush0_1 t).mp hf; have := t.isLt; omega
  obtain rfl : t = t0_15 := Fin.ext h15
  show (cfg0.win 1).cut (grid0.coords t0_15) ((dat0 V c).after 1 t0_15) = _
  rw [after0_1, show (outsAt0 V c t0_15.val t0_15.isLt).1 = D0 V c from last0_eq V c _]
  have hz' : (fun a => win0_1.index t0_15 a * main_v0.ty.shape.size a) = fun _ => 0 := funext fun a => by fin_cases a <;> decide
  exact (Memref.read_access_unit_zero (Elt Ideal) main_v0 hz' (fun a => by rw [congrFun hz' a]; simp) (D0 V c)).symm

/-- So the first call's result array ends holding the inverse square-root degrees. -/
theorem final0 (c : Dev nD) : (dat0 V c).arrAt 1 cfg0.N = D0 V c :=
  (dat0 V c).arrAt_eq_of_cover 1 (D0 V c) (flushed0_eq V c) fun i =>
    ⟨t0_15, (flush0_1 t0_15).mpr rfl, by
      show i ∈ ((View.whole main_v0).slice (win0_1.rect t0_15)).set
      rw [View.set_slice_whole, Rect.mem_set_unit]
      intro a
      have h0 : (i 0 : Nat) < 4 := (i 0).isLt
      have h1 : (i 1 : Nat) < 4096 := (i 1).isLt
      match a with
      | ⟨0, _⟩ => show win0_1.index t0_15 0 * win0_1.size 0 ≤ (i 0 : Nat) ∧ (i 0 : Nat) < win0_1.index t0_15 0 * win0_1.size 0 + win0_1.xsize (grid0.coords t0_15) 0
                  rw [show win0_1.index t0_15 0 * win0_1.size 0 = 0 from by decide +kernel, show win0_1.xsize (grid0.coords t0_15) 0 = 4 from by decide +kernel]; omega
      | ⟨1, _⟩ => show win0_1.index t0_15 1 * win0_1.size 1 ≤ (i 1 : Nat) ∧ (i 1 : Nat) < win0_1.index t0_15 1 * win0_1.size 1 + win0_1.xsize (grid0.coords t0_15) 1
                  rw [show win0_1.index t0_15 1 * win0_1.size 1 = 0 from by decide +kernel, show win0_1.xsize (grid0.coords t0_15) 1 = 4096 from by decide +kernel]; omega⟩

end Cert.KernelIdeal.Hand

end
-- ==== Proof.LibDense.lean ====
/-
  Dense layers on the extended reals, index by index.

  A matrix product with one contracted axis, however the contraction's index type is presented, is at entry (p, q)
  the sum over k of x(p, k) · w(k, q).  This file fixes that reading for the plain two-dimensional product
  [M, K] × [K, N] → [M, N] (left axis 1 against right axis 0), both for the matrix unit's product into a zero
  accumulator and for the host's general dot product, and adds the bias row and the activation:
    dense x w b (p, q)     = (∑ k, x(p, k) · w(k, q)) + b(q)
  No finiteness is needed anywhere: only the definitions of the operations and a re-indexing of the sum.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

noncomputable section

namespace Cert.Lib.Dense

open Idealize.ShloMosaic Idealize.ShloMosaic.ValueIdx
open scoped BigOperators

/-- Row `p` of `x` against column `q` of `w`. -/
def rowDot {M K N : ℕ} (x : (⟨2, ![M, K]⟩ : Shape).Idx → EReal) (w : (⟨2, ![K, N]⟩ : Shape).Idx → EReal)
    (p : Fin M) (q : Fin N) : EReal :=
  ∑ k : Fin K, x (ix2 p k) * w (ix2 k q)

/-- A contraction over one axis is the sum over that axis's coordinate. -/
theorem contr_sum {sl sr so : Shape} (D : DotDims sl sr so) (K : ℕ) (hr : D.contr.rank = 1)
    (hs : D.contr.size ⟨0, by omega⟩ = K) (f : sl.Idx → EReal) (g : sr.Idx → EReal) (j : so.Idx)
    (L : Fin K → sl.Idx) (R : Fin K → sr.Idx)
    (hL : ∀ k, D.lhsIdx j ((contrEquiv1 D K hr hs).symm k) = L k)
    (hR : ∀ k, D.rhsIdx j ((contrEquiv1 D K hr hs).symm k) = R k) :
    ∑ k : D.contr.Idx, f (D.lhsIdx j k) * g (D.rhsIdx j k) = ∑ k : Fin K, f (L k) * g (R k) := by
  rw [← Equiv.sum_comp (contrEquiv1 D K hr hs).symm]
  exact Finset.sum_congr rfl fun k _ => by rw [hL k, hR k]

section Plain

variable {M K N : ℕ} (D : DotDims ⟨2, ![M, K]⟩ ⟨2, ![K, N]⟩ ⟨2, ![M, N]⟩)
  (hlc : D.lhsContracting = [1]) (hrc : D.rhsContracting = [0])
  (hln : D.lhsNonContracting = [0]) (hrn : D.rhsNonContracting = [1])
  (hlb : D.lhsBatch = []) (hrb : D.rhsBatch = [])

include hlc in
theorem plain_rank : D.contr.rank = 1 := by rw [D.rank_contr, hlc]; rfl

include hlc in
theorem plain_size : D.contr.size ⟨0, by rw [plain_rank D hlc]; exact Nat.one_pos⟩ = K := by
  have := D.size_contr 0 (by rw [hlc]; exact Nat.one_pos)
  rw [this]
  simp [hlc]

include hln hlb in
/-- The left operand's free coordinate is the result's row. -/
theorem plain_lhs0 (j : (⟨2, ![M, N]⟩ : Shape).Idx) (k : D.contr.Idx) : (D.lhsIdx j k 0).val = (j 0).val := by
  have hb : (0 : Fin 2) ∉ D.lhsBatch := by rw [hlb]; simp
  have hn : (0 : Fin 2) ∈ D.lhsNonContracting := by rw [hln]; simp
  unfold DotDims.lhsIdx
  rw [dif_neg hb, dif_pos hn]
  simp only [Fin.val_cast]
  have key : ∀ (p q : Nat) (hp : p < (⟨2, ![M, N]⟩ : Shape).rank) (hq : q < (⟨2, ![M, N]⟩ : Shape).rank), p = q → (j ⟨p, hp⟩).val = (j ⟨q, hq⟩).val :=
    fun p q hp hq h => by subst h; rfl
  exact key _ _ _ _ (by simp [hlb, hln])

include hrn hrb hln hlb in
/-- The right operand's free coordinate is the result's column. -/
theorem plain_rhs1 (j : (⟨2, ![M, N]⟩ : Shape).Idx) (k : D.contr.Idx) : (D.rhsIdx j k 1).val = (j 1).val := by
  have hb : (1 : Fin 2) ∉ D.rhsBatch := by rw [hrb]; simp
  have hn : (1 : Fin 2) ∈ D.rhsNonContracting := by rw [hrn]; simp
  unfold DotDims.rhsIdx
  rw [dif_neg hb, dif_pos hn]
  simp only [Fin.val_cast]
  have key : ∀ (p q : Nat) (hp : p < (⟨2, ![M, N]⟩ : Shape).rank) (hq : q < (⟨2, ![M, N]⟩ : Shape).rank), p = q → (j ⟨p, hp⟩).val = (j ⟨q, hq⟩).val :=
    fun p q hp hq h => by subst h; rfl
  exact key _ _ _ _ (by simp [hlb, hln, hrn])

include hlc hrc hln hrn hlb hrb in
/-- The contraction of a plain product at entry `(p, q)` is the row of `x` against the column of `w`. -/
theorem plain_sum (f : (⟨2, ![M, K]⟩ : Shape).Idx → EReal) (g : (⟨2, ![K, N]⟩ : Shape).Idx → EReal) (p : Fin M) (q : Fin N) :
    ∑ k : D.contr.Idx, f (D.lhsIdx (ix2 p q) k) * g (D.rhsIdx (ix2 p q) k) = rowDot f g p q := by
  refine contr_sum D K (plain_rank D hlc) (plain_size D hlc) f g (ix2 p q) (fun k => ix2 p k) (fun k => ix2 k q) (fun k => ?_) (fun k => ?_)
  · funext a; apply Fin.ext
    match a with
    | ⟨0, _⟩ => exact plain_lhs0 D hln hlb (ix2 p q) _
    | ⟨1, _⟩ => exact (D.lhsIdx_val_of_single hlc (ix2 p q) _).trans (contrEquiv1_symm_val D K (plain_rank D hlc) (plain_size D hlc) k)
  · funext a; apply Fin.ext
    match a with
    | ⟨0, _⟩ => exact (D.rhsIdx_val_of_single hrc (ix2 p q) _).trans (contrEquiv1_symm_val D K (plain_rank D hlc) (plain_size D hlc) k)
    | ⟨1, _⟩ => exact plain_rhs1 D hln hrn hlb hrb (ix2 p q) _

include hlc hrc hln hrn hlb hrb in
/-- The matrix unit's product into a zero accumulator, at entry `(p, q)`. -/
theorem matmul_zero_at {φ₁ φ₂ : FTy} (x : FVec Ideal ⟨2, ![M, K]⟩ φ₁) (w : FVec Ideal ⟨2, ![K, N]⟩ φ₂) (p : Fin M) (q : Fin N) :
    matmul D none x w (constant ⟨2, ![M, N]⟩ .f32 0x00000000#32) (ix2 p q) = rowDot x w p q :=
  (Ideal.matmul_constant_zero_apply D none x w (ix2 p q)).trans (plain_sum D hlc hrc hln hrn hlb hrb x w p q)

include hlc hrc hln hrn hlb hrb in
/-- The host's general dot product, at entry `(p, q)`. -/
theorem dotGeneral_at {φ₁ φ₂ : FTy} (x : FVec Ideal ⟨2, ![M, K]⟩ φ₁) (w : FVec Ideal ⟨2, ![K, N]⟩ φ₂) (p : Fin M) (q : Fin N) :
    Host.dotGeneral D none x w (ix2 p q) = rowDot x w p q :=
  (Ideal.dotGeneral_apply D none .single x w (ix2 p q)).trans (plain_sum D hlc hrc hln hrn hlb hrb x w p q)

end Plain

/-- A dense layer as one function of whole arrays: entry `(p, q)` is `act` of row `p` of `x` against column `q` of
    `w` plus the bias row's entry `q`. -/
def dense {M K N : ℕ} (act : EReal → EReal) (x : (⟨2, ![M, K]⟩ : Shape).Idx → EReal) (w : (⟨2, ![K, N]⟩ : Shape).Idx → EReal)
    (b : (⟨2, ![1, N]⟩ : Shape).Idx → EReal) : (⟨2, ![M, N]⟩ : Shape).Idx → EReal :=
  fun i => act (rowDot x w (i 0) (i 1) + b (ix2 (0 : Fin 1) (i 1)))

theorem dense_ix2 {M K N : ℕ} (act : EReal → EReal) (x : (⟨2, ![M, K]⟩ : Shape).Idx → EReal) (w : (⟨2, ![K, N]⟩ : Shape).Idx → EReal)
    (b : (⟨2, ![1, N]⟩ : Shape).Idx → EReal) (p : Fin M) (q : Fin N) :
    dense act x w b (ix2 p q) = act (rowDot x w p q + b (ix2 (0 : Fin 1) q)) := rfl

/-- The combine step as one function of whole arrays: entry `(p, q)` is
    `tanh((a(p, q) + h(p, q) · d(p, 0)) + b(0, q))`. -/
def combine {M N : ℕ} (a h : (⟨2, ![M, N]⟩ : Shape).Idx → EReal) (d : (⟨2, ![M, 1]⟩ : Shape).Idx → EReal)
    (b : (⟨2, ![1, N]⟩ : Shape).Idx → EReal) : (⟨2, ![M, N]⟩ : Shape).Idx → EReal :=
  fun i => Ideal.tanh ((a i + h i * d (ix2 (i 0) (0 : Fin 1))) + b (ix2 (0 : Fin 1) (i 1)))

theorem combine_ix2 {M N : ℕ} (a h : (⟨2, ![M, N]⟩ : Shape).Idx → EReal) (d : (⟨2, ![M, 1]⟩ : Shape).Idx → EReal)
    (b : (⟨2, ![1, N]⟩ : Shape).Idx → EReal) (p : Fin M) (q : Fin N) :
    combine a h d b (ix2 p q)
      = Ideal.tanh ((a (ix2 p q) + h (ix2 p q) * d (ix2 p (0 : Fin 1))) + b (ix2 (0 : Fin 1) q)) := rfl

end Cert.Lib.Dense

end
-- ==== Proof.LibKeepdims.lean ====
/-
  Three layout facts for row-wise reductions with a kept unit axis (`jnp.sum(x, axis=-1, keepdims=True)` and what
  consumes it), read at an index built from literal coordinates:
    • a column [a, 1] broadcast to [a, b] reads, at (p, c), the column's entry of row p;
    • a vector [a] cast to the column [a, 1] reads, at (i, u), the vector's entry i;
    • the sum of a matrix [a, b] along its second axis, at the extended reals, is at row i the sum over k of the
      entries (i, k).
  They complete the library's small-shape lemmas (which have the row forms [1, b] → [a, b] and [a] → [1, a]).
-/
import Idealize.ShloMosaic.Lib.Pipeline.Value
import Idealize.ShloMosaic.Lib.ValueIdx
import Idealize.ShloMosaic.PureOps.Ideal.Laws

noncomputable section

namespace Cert.Lib.Keepdims

open Idealize.ShloMosaic Idealize.ShloMosaic.ValueIdx
open scoped BigOperators

variable {α : Type}

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to the column `[a, 1]` reads, at `(i, u)`, the vector's entry `i`, whatever the unit
    coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The float sum of an `[a, b]` matrix along its second axis, at the extended reals, is at row `i` the sum of
    that row's entries. -/
theorem rowSum_apply {a b : ℕ} {φ : FTy} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.add.neutral φ hφ) (i : Fin a) :
    multiReduction .add [(1 : Fin 2)] ⟨1, ![a]⟩ src acc h hφ hacc (ix1 i) = ∑ k : Fin b, src (ix2 i k) :=
  (Ideal.multiReduction_add_single src acc h hφ hacc (ix1 i)).trans
    (Finset.sum_congr rfl fun k _ => congrArg src (funext fun c => Fin.ext (by
      match c with
      | ⟨0, _⟩ => rfl
      | ⟨1, _⟩ => rfl)))

end Cert.Lib.Keepdims

end
-- ==== Proof.KIVal1.lean ====
import proofs.«133457_j80410377716426_1_alg».proof.Proof.Gen.KernelIdeal.Launch
import proofs.«133457_j80410377716426_1_alg».proof.Proof.Gen.KernelIdeal.Skeleton
import proofs.«133457_j80410377716426_1_alg».proof.Proof.Gen.KernelIdeal.Points
import proofs.«133457_j80410377716426_1_alg».proof.Proof.KIReg1
import proofs.«133457_j80410377716426_1_alg».proof.Proof.KIVal0b
import proofs.«133457_j80410377716426_1_alg».proof.Proof.LibDense
import proofs.«133457_j80410377716426_1_alg».proof.Proof.LibKeepdims
import proofs.«133457_j80410377716426_1_alg».proof.Proof.LibTiles
import proofs.«133457_j80410377716426_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

open Cert.Lib

/-! # The feature-transform kernel's value on the extended reals -/

/-- A `[1, 512]` row of factors scaling the rows of a `[512, 64]` matrix, stored as a `[1, 512, 64]` slab: at `(u, r, o)`
    the factor of row `r` times the matrix's entry `(r, o)`. -/
theorem scaleRows1 (dcol : Vec Ideal S1x512 .f32) (M : FVec Ideal S512x64 .f32) (u : Fin 1) (r : Fin 512) (o : Fin 64) :
    shapeCast S1x512x64 (mulf (broadcastTo S512x64 (shapeCast S512x1 (shapeCast S512 dcol shapeCasts_S1x512_S512) shapeCasts_S512_S512x1) broadcasts_S512x1_S512x64) M) shapeCasts_S512x64_S1x512x64 (ix3 u r o)
      = dcol (ix2 (0 : Fin 1) r) * M (ix2 r o) := by
  rw [shapeCast_ab_1ab_apply, mulf_apply, Keepdims.broadcastTo_a1_ab_apply, Keepdims.shapeCast_a_a1_apply, shapeCast_1a_a_apply]

/-- A `[1, 512, 64]` slab of features times the weights (a product into a zero accumulator): at `(r, o)` row `r` of the
    slab against column `o` of the weights. -/
theorem hwBlock1 (vh : Vec Ideal S1x512x64 .f32) (w : FVec Ideal S64x64 .bf16) (r : Fin 512) (o : Fin 64) :
    matmul dot_S512x64_S64x64_S512x64_1_0_0_1_n_n none (truncf .bf16 (shapeCast S512x64 vh shapeCasts_S1x512x64_S512x64) bitsLt_bf16_f32) w (constant S512x64 .f32 0x00000000#32) (ix2 r o)
      = ∑ f : Fin 64, vh (ix3 (0 : Fin 1) r f) * w (ix2 f o) := by
  rw [Dense.matmul_zero_at _ rfl rfl rfl rfl rfl rfl]
  unfold Dense.rowDot
  exact Finset.sum_congr rfl fun f _ => by rw [truncf_apply, shapeCast_1ab_ab_apply]

/-- The four payloads at an entry. -/
theorem pay4_apply (w : Vec Ideal S64x64 .f32) (vh : Vec Ideal S1x512x64 .f32) (vd : Vec Ideal S1x512 .f32) (u : Fin 1) (r : Fin 512) (o : Fin 64) :
    k1_pay4 (F := Ideal) w vh vd (ix3 u r o) = vd (ix2 (0 : Fin 1) r) * ∑ f : Fin 64, vh (ix3 (0 : Fin 1) r f) * w (ix2 f o) := by
  unfold k1_pay4 k1_pay3
  exact (scaleRows1 vd _ u r o).trans (congrArg (vd (ix2 (0 : Fin 1) r) * ·) (hwBlock1 vh _ r o))
theorem pay5_apply (w : Vec Ideal S64x64 .f32) (vh : Vec Ideal S1x512x64 .f32) (vd : Vec Ideal S1x512 .f32) (u : Fin 1) (r : Fin 512) (o : Fin 64) :
    k1_pay5 (F := Ideal) w vh vd (ix3 u r o) = vd (ix2 (0 : Fin 1) r) * ∑ f : Fin 64, vh (ix3 (0 : Fin 1) r f) * w (ix2 f o) := by
  unfold k1_pay5 k1_pay3
  exact (scaleRows1 vd _ u r o).trans (congrArg (vd (ix2 (0 : Fin 1) r) * ·) (hwBlock1 vh _ r o))
theorem pay16_apply (w : Vec Ideal S64x64 .f32) (vh : Vec Ideal S1x512x64 .f32) (vd : Vec Ideal S1x512 .f32) (u : Fin 1) (r : Fin 512) (o : Fin 64) :
    k1_pay1 (F := Ideal) (k1_pay6 w vh) vd (ix3 u r o) = vd (ix2 (0 : Fin 1) r) * ∑ f : Fin 64, vh (ix3 (0 : Fin 1) r f) * w (ix2 f o) := by
  unfold k1_pay1 k1_pay6 k1_pay3
  exact (scaleRows1 vd _ u r o).trans (congrArg (vd (ix2 (0 : Fin 1) r) * ·) (hwBlock1 vh _ r o))
theorem pay23_apply (w : Vec Ideal S64x64 .f32) (vh : Vec Ideal S1x512x64 .f32) (vd : Vec Ideal S1x512 .f32) (u : Fin 1) (r : Fin 512) (o : Fin 64) :
    k1_pay2 (F := Ideal) (k1_pay3 w) vh vd (ix3 u r o) = vd (ix2 (0 : Fin 1) r) * ∑ f : Fin 64, vh (ix3 (0 : Fin 1) r f) * w (ix2 f o) := by
  unfold k1_pay2 k1_pay3
  exact (scaleRows1 vd _ u r o).trans (congrArg (vd (ix2 (0 : Fin 1) r) * ·) (hwBlock1 vh _ r o))

/-- Graph `bn`'s slab of a `[4, 512, 64]` block, and its row of a `[4, 512]` block, at an index. -/
theorem emb_slab3 (bn : ℕ) (hb : bn < 4) (inb : ∀ a, (![bn, 0, 0] : Fin 3 → Nat) a + S1x512x64.size a ≤ S4x512x64.size a)
    (u : Fin 1) (r : Fin 512) (o : Fin 64) :
    (Rect.unit (s := S4x512x64) ![bn, 0, 0] S1x512x64.size inb).emb (ix3 u r o) = ix3 (⟨bn, hb⟩ : Fin 4) r o := by
  funext a; apply Fin.ext
  match a with
  | ⟨0, _⟩ => show bn + 1 * u.val = bn; omega
  | ⟨1, _⟩ => show 0 + 1 * r.val = r.val; omega
  | ⟨2, _⟩ => show 0 + 1 * o.val = o.val; omega
theorem emb_slab2 (bn : ℕ) (hb : bn < 4) (inb : ∀ a, (![bn, 0] : Fin 2 → Nat) a + S1x512.size a ≤ S4x512.size a)
    (u : Fin 1) (r : Fin 512) :
    (Rect.unit (s := S4x512) ![bn, 0] S1x512.size inb).emb (ix2 u r) = ix2 (⟨bn, hb⟩ : Fin 4) r := by
  funext a; apply Fin.ext
  match a with
  | ⟨0, _⟩ => show bn + 1 * u.val = bn; omega
  | ⟨1, _⟩ => show 0 + 1 * r.val = r.val; omega

/-- The block the body leaves, as one function of the three input blocks: entry `(b, r, o)` is the factor of row `r` of graph
    `b` times that row of the graph's features against column `o` of the weights. -/
def G1blk (x0 : Vec Ideal S4x512x64 .f32) (x1 : Vec Ideal S64x64 .f32) (x2 : Vec Ideal S4x512 .f32) : S4x512x64.Idx → EReal :=
  fun y => x2 (ix2 (y 0) (y 1)) * ∑ f : Fin 64, x0 (ix3 (y 0) (y 1) f) * x1 (ix2 f (y 2))

theorem G1blk_apply (x0 : Vec Ideal S4x512x64 .f32) (x1 : Vec Ideal S64x64 .f32) (x2 : Vec Ideal S4x512 .f32) (b : Fin 4) (r : Fin 512) (o : Fin 64) :
    G1blk x0 x1 x2 (ix3 b r o) = x2 (ix2 b r) * ∑ f : Fin 64, x0 (ix3 b r f) * x1 (ix2 f o) := rfl

set_option maxHeartbeats 1000000 in
/-- What the body leaves in the output block IS that function: each of its four slab stores is the function's slab. -/
theorem out1_3_eq (c : Dev nD) (i : grid1.Coords) (arg1 : Memref sig .tc .vmem S4x512x64 .f32) (harg1 : arg1.IsWhole) (arg2 : Memref sig .tc .vmem S64x64 .f32) (harg2 : arg2.IsWhole) (arg3 : Memref sig .tc .vmem S4x512 .f32) (harg3 : arg3.IsWhole) (arg4 : Memref sig .tc .vmem S4x512x64 .f32) (harg4 : arg4.IsWhole) (x0 : Vec Ideal S4x512x64 .f32) (x1 : Vec Ideal S64x64 .f32) (x2 : Vec Ideal S4x512 .f32) :
    out1_3 (F := Ideal) c i arg1 harg1 arg2 harg2 arg3 harg3 arg4 harg4 x0 x1 x2 = G1blk x0 x1 x2 := by
  unfold out1_3
  rw [View.read_writes_eq_canon _ _ _ (cover1_3 c i arg1 harg1 arg2 harg2 arg3 harg3 arg4 harg4 x0 x1 x2)]
  funext y
  refine View.canon_apply_of_pieces (G1blk x0 x1 x2) _ ?_ y (cover1_3 c i arg1 harg1 arg2 harg2 arg3 harg3 arg4 harg4 x0 x1 x2 y)
  unfold kernelRun1
  dsimp only
  sl_unfold_words
  intro p hp x
  simp only [List.mem_cons, List.mem_nil_iff, or_false] at hp
  rcases hp with rfl | rfl | rfl | rfl
  all_goals obtain ⟨u, r, o, rfl⟩ : ∃ (u : Fin 1) (r : Fin 512) (o : Fin 64), x = ix3 u r o := ⟨x 0, x 1, x 2, eq_ix3 x⟩
  all_goals simp only [View.readAt_eq_ld, harg1.read_unread, harg2.read_unread, harg3.read_unread, View.ld_unit_zero (S := S64x64) hz2]
  · refine (pay23_apply _ _ _ u r o).trans ?_
    rw [emb_slab3 3 (by decide), G1blk_apply]
    show x2 ((Rect.unit (s := S4x512) ![3, 0] S1x512.size inb_S4x512_S1x512_3_0).emb (ix2 0 r)) * ∑ f : Fin 64, x0 ((Rect.unit (s := S4x512x64) ![3, 0, 0] S1x512x64.size inb_S4x512x64_S1x512x64_3_0_0).emb (ix3 0 r f)) * x1 (ix2 f o) = _
    rw [emb_slab2 3 (by decide)]
    exact congrArg (x2 (ix2 (⟨3, by decide⟩ : Fin 4) r) * ·) (Finset.sum_congr rfl fun f _ => by rw [emb_slab3 3 (by decide)])
  · refine (pay16_apply _ _ _ u r o).trans ?_
    rw [emb_slab3 2 (by decide), G1blk_apply]
    show x2 ((Rect.unit (s := S4x512) ![2, 0] S1x512.size inb_S4x512_S1x512_2_0).emb (ix2 0 r)) * ∑ f : Fin 64, x0 ((Rect.unit (s := S4x512x64) ![2, 0, 0] S1x512x64.size inb_S4x512x64_S1x512x64_2_0_0).emb (ix3 0 r f)) * x1 (ix2 f o) = _
    rw [emb_slab2 2 (by decide)]
    exact congrArg (x2 (ix2 (⟨2, by decide⟩ : Fin 4) r) * ·) (Finset.sum_congr rfl fun f _ => by rw [emb_slab3 2 (by decide)])
  · refine (pay5_apply _ _ _ u r o).trans ?_
    rw [emb_slab3 1 (by decide), G1blk_apply]
    show x2 ((Rect.unit (s := S4x512) ![1, 0] S1x512.size inb_S4x512_S1x512_1_0).emb (ix2 0 r)) * ∑ f : Fin 64, x0 ((Rect.unit (s := S4x512x64) ![1, 0, 0] S1x512x64.size inb_S4x512x64_S1x512x64_1_0_0).emb (ix3 0 r f)) * x1 (ix2 f o) = _
    rw [emb_slab2 1 (by decide)]
    exact congrArg (x2 (ix2 (⟨1, by decide⟩ : Fin 4) r) * ·) (Finset.sum_congr rfl fun f _ => by rw [emb_slab3 1 (by decide)])
  · refine (pay4_apply _ _ _ u r o).trans ?_
    rw [emb_slab3 0 (by decide), G1blk_apply]
    show x2 ((Rect.unit (s := S4x512) ![0, 0] S1x512.size inb_S4x512_S1x512_0_0).emb (ix2 0 r)) * ∑ f : Fin 64, x0 ((Rect.unit (s := S4x512x64) ![0, 0, 0] S1x512x64.size inb_S4x512x64_S1x512x64_0_0_0).emb (ix3 0 r f)) * x1 (ix2 f o) = _
    rw [emb_slab2 0 (by decide)]
    exact congrArg (x2 (ix2 (⟨0, by decide⟩ : Fin 4) r) * ·) (Finset.sum_congr rfl fun f _ => by rw [emb_slab3 0 (by decide)])

end Cert.KernelIdeal.Hand

end
-- ==== Proof.KIVal1b.lean ====
import proofs.«133457_j80410377716426_1_alg».proof.Proof.Gen.KernelIdeal.Launch
import proofs.«133457_j80410377716426_1_alg».proof.Proof.Gen.KernelIdeal.Skeleton
import proofs.«133457_j80410377716426_1_alg».proof.Proof.Gen.KernelIdeal.Points
import proofs.«133457_j80410377716426_1_alg».proof.Proof.KIVal1
import proofs.«133457_j80410377716426_1_alg».proof.Proof.LibTiles
import proofs.«133457_j80410377716426_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

open Cert.Lib

variable (V : (c : Dev nD) → (b : Ref sig .tc) → Buf (Elt Ideal) ((c : Thread nD τ).loc b))

/-! ## From the second call's blocks to its result array -/

/-- The arrays a call is entered from, as arrays of extended reals. -/
abbrev Aarr (c : Dev nD) : Cert.Gcn.SA.Idx → EReal := V c main_arg0
abbrev Harr (c : Dev nD) : Cert.Gcn.SH.Idx → EReal := V c main_arg1
abbrev Warr (c : Dev nD) : Cert.Gcn.SW.Idx → EReal := V c main_arg2
abbrev Darr (c : Dev nD) : S4x4096.Idx → EReal := V c main_v0
abbrev Sarr (c : Dev nD) : S4x4096x64.Idx → EReal := V c main_v1

/-- The block indices over the eight points: features and factors move along rows, the weights stay. -/
theorem idx1 : ∀ t : Fin cfg1.N,
    (win1_0.index t 0 = 0 ∧ win1_0.index t 1 = t.val ∧ win1_0.index t 2 = 0)
    ∧ (win1_1.index t 0 = 0 ∧ win1_1.index t 1 = 0)
    ∧ (win1_2.index t 0 = 0 ∧ win1_2.index t 1 = t.val)
    ∧ (win1_3.index t 0 = 0 ∧ win1_3.index t 1 = t.val ∧ win1_3.index t 2 = 0) :=
  (by decide +kernel : ∀ t : Fin grid1.N,
    (win1_0.index t 0 = 0 ∧ win1_0.index t 1 = t.val ∧ win1_0.index t 2 = 0)
    ∧ (win1_1.index t 0 = 0 ∧ win1_1.index t 1 = 0)
    ∧ (win1_2.index t 0 = 0 ∧ win1_2.index t 1 = t.val)
    ∧ (win1_3.index t 0 = 0 ∧ win1_3.index t 1 = t.val ∧ win1_3.index t 2 = 0))

theorem row1_lt (t : Fin cfg1.N) (r : Fin 512) : t.val * 512 + r.val < 4096 := by
  have := t.isLt; have hN : cfg1.N = 8 := N_1; have := r.isLt; omega

/-- Row `r` of point `t`'s feature block is row `512 t + r` of the features. -/
theorem iblk1_0_apply (c : Dev nD) (t : Fin cfg1.N) (b : Fin 4) (r : Fin 512) (f : Fin 64) :
    (iblk1 V c 0 t : Vec Ideal S4x512x64 .f32) (ix3 b r f) = Harr V c (ix3 b (⟨t.val * 512 + r.val, row1_lt t r⟩ : Fin 4096) f) := by
  have hi := (idx1 t).1
  unfold iblk1
  rw [View.read_apply]
  show V c main_arg1 _ = V c main_arg1 _
  congr 1
  funext a
  apply Fin.ext
  match a with
  | ⟨0, _⟩ => show win1_0.index t 0 * 4 + 1 * b.val = b.val; rw [hi.1]; omega
  | ⟨1, _⟩ => show win1_0.index t 1 * 512 + 1 * r.val = t.val * 512 + r.val; rw [hi.2.1]; omega
  | ⟨2, _⟩ => show win1_0.index t 2 * 64 + 1 * f.val = f.val; rw [hi.2.2]; omega

/-- The weight block is the weight matrix. -/
theorem iblk1_1_apply (c : Dev nD) (t : Fin cfg1.N) (f : Fin 64) (o : Fin 64) :
    (iblk1 V c 1 t : Vec Ideal S64x64 .f32) (ix2 f o) = Warr V c (ix2 f o) := by
  have hi := (idx1 t).2.1
  unfold iblk1
  rw [View.read_apply]
  show V c main_arg2 _ = V c main_arg2 _
  congr 1
  funext a
  apply Fin.ext
  match a with
  | ⟨0, _⟩ => show win1_1.index t 0 * 64 + 1 * f.val = f.val; rw [hi.1]; omega
  | ⟨1, _⟩ => show win1_1.index t 1 * 64 + 1 * o.val = o.val; rw [hi.2]; omega

/-- Column `r` of point `t`'s factor block is column `512 t + r` of the factors. -/
theorem iblk1_2_apply (c : Dev nD) (t : Fin cfg1.N) (b : Fin 4) (r : Fin 512) :
    (iblk1 V c 2 t : Vec Ideal S4x512 .f32) (ix2 b r) = Darr V c (ix2 b (⟨t.val * 512 + r.val, row1_lt t r⟩ : Fin 4096)) := by
  have hi := (idx1 t).2.2.1
  unfold iblk1
  rw [View.read_apply]
  show V c main_v0 _ = V c main_v0 _
  congr 1
  funext a
  apply Fin.ext
  match a with
  | ⟨0, _⟩ => show win1_2.index t 0 * 4 + 1 * b.val = b.val; rw [hi.1]; omega
  | ⟨1, _⟩ => show win1_2.index t 1 * 512 + 1 * r.val = t.val * 512 + r.val; rw [hi.2]; omega

/-- The scaled features, as the contents of the second call's result array: the row's factor times the transformed features. -/
def S1 (c : Dev nD) : Buf (Elt Ideal) ((c : Thread nD τ).loc main_v1) :=
  fun i => Darr V c (ix2 (i 0) (i 1)) * Cert.Gcn.hw (Harr V c) (Warr V c) (i 0) (i 1) (i 2)

theorem S1_apply (c : Dev nD) (b : Fin 4) (n : Fin 4096) (o : Fin 64) :
    S1 V c (ix3 b n o) = Darr V c (ix2 b n) * ∑ f : Fin 64, Harr V c (ix3 b n f) * Warr V c (ix2 f o) := rfl

/-- What point `t` writes back is the block of the scaled features its rectangle names. -/
theorem flushed1_eq (c : Dev nD) (t : Fin cfg1.N) (hf : (cfg1.win 3).flush t = true) :
    (dat1 V c).flushed 3 t = ((cfg1.win 3).blk t).view.read (Elt Ideal) (S1 V c) := by
  have hi := (idx1 t).2.2.2
  show (cfg1.win 3).cut (grid1.coords t) ((dat1 V c).after 3 t) = _
  rw [after1_3, out1_3_eq]
  funext y
  obtain ⟨b, r, o, rfl⟩ : ∃ (b : Fin 4) (r : Fin 512) (o : Fin 64), y = ix3 b r o := ⟨y 0, y 1, y 2, eq_ix3 y⟩
  rw [View.read_apply]
  have he : ((cfg1.win 3).blk t).view.emb (ix3 b r o) = ix3 b (⟨t.val * 512 + r.val, row1_lt t r⟩ : Fin 4096) o := by
    funext a
    apply Fin.ext
    match a with
    | ⟨0, _⟩ => show win1_3.index t 0 * 4 + 1 * b.val = b.val; rw [hi.1]; omega
    | ⟨1, _⟩ => show win1_3.index t 1 * 512 + 1 * r.val = t.val * 512 + r.val; rw [hi.2.1]; omega
    | ⟨2, _⟩ => show win1_3.index t 2 * 64 + 1 * o.val = o.val; rw [hi.2.2]; omega
  rw [he, S1_apply]
  show G1blk (iblk1 V c 0 t) (iblk1 V c 1 t) (iblk1 V c 2 t) (ix3 b r o) = _
  rw [G1blk_apply, iblk1_2_apply]
  exact congrArg (Darr V c (ix2 b (⟨t.val * 512 + r.val, row1_lt t r⟩ : Fin 4096)) * ·)
    (Finset.sum_congr rfl fun f _ => by rw [iblk1_0_apply, iblk1_1_apply])

/-- Row `n` of the result array is covered by the point `n / 512`, so the array ends holding the scaled features. -/
theorem final1 (c : Dev nD) : (dat1 V c).arrAt 3 cfg1.N = S1 V c :=
  (dat1 V c).arrAt_eq_of_cover 3 (S1 V c) (fun t _ => flushed1_eq V c t (flush1_3 t)) fun i => by
    have hN : cfg1.N = 8 := N_1
    have h0 : (i 0 : Nat) < 4 := (i 0).isLt
    have h1 : (i 1 : Nat) < 4096 := (i 1).isLt
    have h2 : (i 2 : Nat) < 64 := (i 2).isLt
    have htt : (i 1 : Nat) / 512 < cfg1.N := by rw [hN]; omega
    refine ⟨⟨(i 1 : Nat) / 512, htt⟩, flush1_3 _, ?_⟩
    have hi := (idx1 ⟨(i 1 : Nat) / 512, htt⟩).2.2.2
    show i ∈ ((View.whole main_v1).slice (win1_3.rect ⟨(i 1 : Nat) / 512, htt⟩)).set
    rw [View.set_slice_whole, Rect.mem_set_unit]
    intro a
    match a with
    | ⟨0, _⟩ => show win1_3.index ⟨(i 1 : Nat) / 512, htt⟩ 0 * win1_3.size 0 ≤ (i 0 : Nat) ∧ (i 0 : Nat) < win1_3.index ⟨(i 1 : Nat) / 512, htt⟩ 0 * win1_3.size 0 + win1_3.xsize (grid1.coords ⟨(i 1 : Nat) / 512, htt⟩) 0
                rw [hi.1]; show 0 * 4 ≤ (i 0 : Nat) ∧ (i 0 : Nat) < 0 * 4 + 4; omega
    | ⟨1, _⟩ => show win1_3.index ⟨(i 1 : Nat) / 512, htt⟩ 1 * win1_3.size 1 ≤ (i 1 : Nat) ∧ (i 1 : Nat) < win1_3.index ⟨(i 1 : Nat) / 512, htt⟩ 1 * win1_3.size 1 + win1_3.xsize (grid1.coords ⟨(i 1 : Nat) / 512, htt⟩) 1
                rw [hi.2.1]; show (i 1 : Nat) / 512 * 512 ≤ (i 1 : Nat) ∧ (i 1 : Nat) < (i 1 : Nat) / 512 * 512 + 512; omega
    | ⟨2, _⟩ => show win1_3.index ⟨(i 1 : Nat) / 512, htt⟩ 2 * win1_3.size 2 ≤ (i 2 : Nat) ∧ (i 2 : Nat) < win1_3.index ⟨(i 1 : Nat) / 512, htt⟩ 2 * win1_3.size 2 + win1_3.xsize (grid1.coords ⟨(i 1 : Nat) / 512, htt⟩) 2
                rw [hi.2.2]; show 0 * 64 ≤ (i 2 : Nat) ∧ (i 2 : Nat) < 0 * 64 + 64; omega

end Cert.KernelIdeal.Hand

end
-- ==== Proof.KIVal2b.lean ====
import proofs.«133457_j80410377716426_1_alg».proof.Proof.Gen.KernelIdeal.Launch
import proofs.«133457_j80410377716426_1_alg».proof.Proof.Gen.KernelIdeal.Skeleton
import proofs.«133457_j80410377716426_1_alg».proof.Proof.Gen.KernelIdeal.Points
import proofs.«133457_j80410377716426_1_alg».proof.Proof.KIVal2
import proofs.«133457_j80410377716426_1_alg».proof.Proof.KIVal1b
import proofs.«133457_j80410377716426_1_alg».proof.Proof.LibTiles
import proofs.«133457_j80410377716426_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

open Cert.Lib

variable (V : (c : Dev nD) → (b : Ref sig .tc) → Buf (Elt Ideal) ((c : Thread nD τ).loc b))

/-! ## The aggregation kernel's value on the extended reals -/

/-- The zero block. -/
theorem pay1_2_apply (i : S2048x64.Idx) : k2_pay1 (F := Ideal) i = 0 := by
  unfold k2_pay1
  refine (congrFun (shapeCast_self _ _) _).trans ?_
  exact Ideal.ofBits_zero_f32

/-- An adjacency block times a block of feature rows (a product into a zero accumulator), at an entry. -/
theorem aggBlock2 (va : Vec Ideal S1x2048x2048 .f32) (vh : Vec Ideal S1x2048x64 .f32) (r : Fin 2048) (o : Fin 64) :
    matmul (F := Ideal) dot_S2048x2048_S2048x64_S2048x64_1_0_0_1_n_n none (truncf .bf16 (shapeCast S2048x2048 va shapeCasts_S1x2048x2048_S2048x2048) bitsLt_bf16_f32)
        (truncf .bf16 (shapeCast S2048x64 vh shapeCasts_S1x2048x64_S2048x64) bitsLt_bf16_f32) (constant S2048x64 .f32 0x00000000#32) (ix2 r o)
      = ∑ k : Fin 2048, va (ix3 (0 : Fin 1) r k) * vh (ix3 (0 : Fin 1) k o) := by
  rw [Dense.matmul_zero_at _ rfl rfl rfl rfl rfl rfl]
  unfold Dense.rowDot
  exact Finset.sum_congr rfl fun k _ => by rw [truncf_apply, truncf_apply, shapeCast_1ab_ab_apply, shapeCast_1ab_ab_apply]

/-- One accumulation step at an entry. -/
theorem pay2_2_apply (va : Vec Ideal S1x2048x2048 .f32) (vh : Vec Ideal S1x2048x64 .f32) (acc : Vec Ideal S2048x64 .f32) (r : Fin 2048) (o : Fin 64) :
    k2_pay2 (F := Ideal) va vh acc (ix2 r o) = acc (ix2 r o) + ∑ k : Fin 2048, va (ix3 (0 : Fin 1) r k) * vh (ix3 (0 : Fin 1) k o) := by
  unfold k2_pay2
  refine (congrFun (shapeCast_self _ _) _).trans ?_
  exact congrArg (acc (ix2 r o) + ·) (aggBlock2 va vh r o)

/-- A `[1, 2048]` row of factors scaling the rows of a `[2048, 64]` matrix, stored as a `[1, 2048, 64]` slab. -/
theorem scaleRows2 (dcol : Vec Ideal S1x2048 .f32) (M : FVec Ideal S2048x64 .f32) (u : Fin 1) (r : Fin 2048) (o : Fin 64) :
    shapeCast S1x2048x64 (mulf (broadcastTo S2048x64 (shapeCast S2048x1 (shapeCast S2048 dcol shapeCasts_S1x2048_S2048) shapeCasts_S2048_S2048x1) broadcasts_S2048x1_S2048x64) M) shapeCasts_S2048x64_S1x2048x64 (ix3 u r o)
      = dcol (ix2 (0 : Fin 1) r) * M (ix2 r o) := by
  rw [shapeCast_ab_1ab_apply, mulf_apply, Keepdims.broadcastTo_a1_ab_apply, Keepdims.shapeCast_a_a1_apply, shapeCast_1a_a_apply]

/-- The stored result at an entry: the row's factor times (the accumulator plus the rows-n features). -/
theorem pay3_2_apply (vd : Vec Ideal S1x2048 .f32) (acc : Vec Ideal S2048x64 .f32) (vn : Vec Ideal S1x2048x64 .f32) (u : Fin 1) (r : Fin 2048) (o : Fin 64) :
    k2_pay3 (F := Ideal) vd acc vn (ix3 u r o) = vd (ix2 (0 : Fin 1) r) * (acc (ix2 r o) + vn (ix3 (0 : Fin 1) r o)) := by
  unfold k2_pay3
  exact (scaleRows2 vd _ u r o).trans (congrArg (vd (ix2 (0 : Fin 1) r) * ·) (congrArg (acc (ix2 r o) + ·) (shapeCast_1ab_ab_apply vn _ r o)))

/-- The block indices over the sixteen points `t = 4 b + 2 n + m`, and the graph's row of the factor block. -/
theorem idx2 : ∀ t : Fin cfg2.N,
    (win2_0.index t 0 = t.val / 4 ∧ win2_0.index t 1 = t.val / 2 % 2 ∧ win2_0.index t 2 = t.val % 2)
    ∧ (win2_1.index t 0 = t.val / 4 ∧ win2_1.index t 1 = t.val % 2 ∧ win2_1.index t 2 = 0)
    ∧ (win2_2.index t 0 = t.val / 4 ∧ win2_2.index t 1 = t.val / 2 % 2 ∧ win2_2.index t 2 = 0)
    ∧ (win2_3.index t 0 = 0 ∧ win2_3.index t 1 = t.val / 2 % 2)
    ∧ (win2_4.index t 0 = t.val / 4 ∧ win2_4.index t 1 = t.val / 2 % 2 ∧ win2_4.index t 2 = 0)
    ∧ (k2_off1 (grid2.coords t) 0 = t.val / 4 ∧ k2_off1 (grid2.coords t) 1 = 0) :=
  (by decide +kernel : ∀ t : Fin grid2.N,
    (win2_0.index t 0 = t.val / 4 ∧ win2_0.index t 1 = t.val / 2 % 2 ∧ win2_0.index t 2 = t.val % 2)
    ∧ (win2_1.index t 0 = t.val / 4 ∧ win2_1.index t 1 = t.val % 2 ∧ win2_1.index t 2 = 0)
    ∧ (win2_2.index t 0 = t.val / 4 ∧ win2_2.index t 1 = t.val / 2 % 2 ∧ win2_2.index t 2 = 0)
    ∧ (win2_3.index t 0 = 0 ∧ win2_3.index t 1 = t.val / 2 % 2)
    ∧ (win2_4.index t 0 = t.val / 4 ∧ win2_4.index t 1 = t.val / 2 % 2 ∧ win2_4.index t 2 = 0)
    ∧ (k2_off1 (grid2.coords t) 0 = t.val / 4 ∧ k2_off1 (grid2.coords t) 1 = 0))

theorem t2_lt (t : Fin cfg2.N) : t.val < 16 := lt_of_lt_of_eq t.isLt N_2
theorem gb_lt (t : Fin cfg2.N) : t.val / 4 < 4 := by have := t2_lt t; omega
theorem row2_lt (t : Fin cfg2.N) (r : Fin 2048) : t.val / 2 % 2 * 2048 + r.val < 4096 := by have := r.isLt; omega
theorem col2_lt (t : Fin cfg2.N) (k : Fin 2048) : t.val % 2 * 2048 + k.val < 4096 := by have := k.isLt; omega

/-- The adjacency block at point `t`: graph `t / 4`, rows of half `(t / 2) % 2`, columns of half `t % 2`. -/
theorem iblk2_0_at (c : Dev nD) (t : Fin cfg2.N) (u : Fin 1) (r k : Fin 2048) (b : Fin 4) (n m : Fin 4096)
    (hb : b.val = t.val / 4) (hn : n.val = t.val / 2 % 2 * 2048 + r.val) (hm : m.val = t.val % 2 * 2048 + k.val) :
    (iblk2 V c 0 t : Vec Ideal S1x2048x2048 .f32) (ix3 u r k) = Aarr V c (ix3 b n m) := by
  have hi := (idx2 t).1
  unfold iblk2
  rw [View.read_apply]
  show V c main_arg0 _ = V c main_arg0 _
  congr 1
  funext a
  apply Fin.ext
  match a with
  | ⟨0, _⟩ => show win2_0.index t 0 * 1 + 1 * u.val = b.val; rw [hi.1, hb]; omega
  | ⟨1, _⟩ => show win2_0.index t 1 * 2048 + 1 * r.val = n.val; rw [hi.2.1, hn]; omega
  | ⟨2, _⟩ => show win2_0.index t 2 * 2048 + 1 * k.val = m.val; rw [hi.2.2, hm]; omega

/-- The rows-m block of the scaled features. -/
theorem iblk2_1_at (c : Dev nD) (t : Fin cfg2.N) (u : Fin 1) (k : Fin 2048) (o : Fin 64) (b : Fin 4) (m : Fin 4096)
    (hb : b.val = t.val / 4) (hm : m.val = t.val % 2 * 2048 + k.val) :
    (iblk2 V c 1 t : Vec Ideal S1x2048x64 .f32) (ix3 u k o) = Sarr V c (ix3 b m o) := by
  have hi := (idx2 t).2.1
  unfold iblk2
  rw [View.read_apply]
  show V c main_v1 _ = V c main_v1 _
  congr 1
  funext a
  apply Fin.ext
  match a with
  | ⟨0, _⟩ => show win2_1.index t 0 * 1 + 1 * u.val = b.val; rw [hi.1, hb]; omega
  | ⟨1, _⟩ => show win2_1.index t 1 * 2048 + 1 * k.val = m.val; rw [hi.2.1, hm]; omega
  | ⟨2, _⟩ => show win2_1.index t 2 * 64 + 1 * o.val = o.val; rw [hi.2.2]; omega

/-- The rows-n block of the scaled features. -/
theorem iblk2_2_at (c : Dev nD) (t : Fin cfg2.N) (u : Fin 1) (r : Fin 2048) (o : Fin 64) (b : Fin 4) (n : Fin 4096)
    (hb : b.val = t.val / 4) (hn : n.val = t.val / 2 % 2 * 2048 + r.val) :
    (iblk2 V c 2 t : Vec Ideal S1x2048x64 .f32) (ix3 u r o) = Sarr V c (ix3 b n o) := by
  have hi := (idx2 t).2.2.1
  unfold iblk2
  rw [View.read_apply]
  show V c main_v1 _ = V c main_v1 _
  congr 1
  funext a
  apply Fin.ext
  match a with
  | ⟨0, _⟩ => show win2_2.index t 0 * 1 + 1 * u.val = b.val; rw [hi.1, hb]; omega
  | ⟨1, _⟩ => show win2_2.index t 1 * 2048 + 1 * r.val = n.val; rw [hi.2.1, hn]; omega
  | ⟨2, _⟩ => show win2_2.index t 2 * 64 + 1 * o.val = o.val; rw [hi.2.2]; omega

/-- The graph's row of the factor block, at an odd point: the factors of the rows of half `(t / 2) % 2`. -/
theorem drow2_at (c : Dev nD) (t : Fin cfg2.N) (hc1 : cond2_1 (grid2.coords t)) (u : Fin 1) (r : Fin 2048) (b : Fin 4) (n : Fin 4096)
    (hb : b.val = t.val / 4) (hn : n.val = t.val / 2 % 2 * 2048 + r.val) :
    drow2 (F := Ideal) (grid2.coords t) hc1 (iblk2 V c 3 t) (ix2 u r) = Darr V c (ix2 b n) := by
  have hi := (idx2 t).2.2.2.1
  have ho := (idx2 t).2.2.2.2.2
  unfold drow2 iblk2
  show ((cfg2.win 3).blk t).view.read (Elt Ideal) (V c main_v0) _ = _
  rw [View.read_apply]
  show V c main_v0 _ = V c main_v0 _
  congr 1
  funext a
  apply Fin.ext
  match a with
  | ⟨0, _⟩ => show win2_3.index t 0 * 4 + 1 * (k2_off1 (grid2.coords t) 0 + 1 * u.val) = b.val; rw [hi.1, ho.1, hb]; omega
  | ⟨1, _⟩ => show win2_3.index t 1 * 2048 + 1 * (k2_off1 (grid2.coords t) 1 + 1 * r.val) = n.val; rw [hi.2, ho.2, hn]; omega

/-- The layer's output from the first two calls' results, as the contents of the third call's result array. -/
def O2 (c : Dev nD) : Buf (Elt Ideal) ((c : Thread nD τ).loc main_v2) :=
  fun i => Darr V c (ix2 (i 0) (i 1))
    * ((∑ k : Fin 4096, Aarr V c (ix3 (i 0) (i 1) k) * Sarr V c (ix3 (i 0) k (i 2))) + Sarr V c (ix3 (i 0) (i 1) (i 2)))

theorem O2_apply (c : Dev nD) (b : Fin 4) (n : Fin 4096) (o : Fin 64) :
    O2 V c (ix3 b n o) = Darr V c (ix2 b n) * ((∑ k : Fin 4096, Aarr V c (ix3 b n k) * Sarr V c (ix3 b k o)) + Sarr V c (ix3 b n o)) := rfl

end Cert.KernelIdeal.Hand

end
-- ==== Proof.KIVal2c.lean ====
import proofs.«133457_j80410377716426_1_alg».proof.Proof.Gen.KernelIdeal.Launch
import proofs.«133457_j80410377716426_1_alg».proof.Proof.Gen.KernelIdeal.Skeleton
import proofs.«133457_j80410377716426_1_alg».proof.Proof.Gen.KernelIdeal.Points
import proofs.«133457_j80410377716426_1_alg».proof.Proof.KIVal2b
import proofs.«133457_j80410377716426_1_alg».proof.Proof.LibTiles
import proofs.«133457_j80410377716426_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

open Cert.Lib

variable (V : (c : Dev nD) → (b : Ref sig .tc) → Buf (Elt Ideal) ((c : Thread nD τ).loc b))

/-! ## The third call's output block at an odd point, and its result array -/

theorem prev2_lt (t : Fin cfg2.N) : t.val - 1 < cfg2.N := Nat.lt_of_le_of_lt (Nat.sub_le _ _) t.isLt

/-- The accumulator the even point before an odd point leaves. -/
theorem prev2_eq (c : Dev nD) (t : Fin cfg2.N) (h1 : t.val % 2 = 1) :
    (outsAt2 V c (t.val - 1) (Nat.lt_of_le_of_lt (Nat.sub_le _ _) t.isLt)).2
      = k2_pay2 (iblk2 V c 0 ⟨t.val - 1, prev2_lt t⟩) (iblk2 V c 1 ⟨t.val - 1, prev2_lt t⟩) (k2_pay1 (F := Ideal)) := by
  have hp0 : (⟨t.val - 1, prev2_lt t⟩ : Fin cfg2.N).val % 2 = 0 := by show (t.val - 1) % 2 = 0; omega
  have hp1 : ¬ (⟨t.val - 1, prev2_lt t⟩ : Fin cfg2.N).val % 2 = 1 := by show ¬ (t.val - 1) % 2 = 1; omega
  have e := outsAt2_A V c ⟨t.val - 1, prev2_lt t⟩ hp0 hp1
  rw [show outsAt2 V c (t.val - 1) (Nat.lt_of_le_of_lt (Nat.sub_le _ _) t.isLt)
        = outsAt2 V c (⟨t.val - 1, prev2_lt t⟩ : Fin cfg2.N).val (⟨t.val - 1, prev2_lt t⟩ : Fin cfg2.N).isLt from rfl, e]
  dsimp only
  rw [sout2_A_eq]

set_option maxHeartbeats 1000000 in
/-- At an odd point the output block's entry `(r, o)` is the layer's output at row `2048 ((t / 2) % 2) + r` of graph `t / 4`:
    the two column halves' products, accumulated one after the other from zero, are the product over all 4096 columns. -/
theorem out2_odd (c : Dev nD) (t : Fin cfg2.N) (h1 : t.val % 2 = 1) (u : Fin 1) (r : Fin 2048) (o : Fin 64)
    (b : Fin 4) (n : Fin 4096) (hb : b.val = t.val / 4) (hn : n.val = t.val / 2 % 2 * 2048 + r.val) :
    (outsAt2 V c t.val t.isLt).1 (ix3 u r o) = O2 V c (ix3 b n o) := by
  have h0 : ¬ t.val % 2 = 0 := by omega
  have hlt := t2_lt t
  rw [outsAt2_C V c t h0 h1]
  dsimp only
  rw [out2_C_eq, prev2_eq V c t h1, pay3_2_apply, pay2_2_apply, pay2_2_apply, pay1_2_apply,
    drow2_at V c t _ (0 : Fin 1) r b n hb hn, iblk2_2_at V c t (0 : Fin 1) r o b n hb hn, O2_apply]
  refine congrArg (Darr V c (ix2 b n) * ·) (congrArg (· + Sarr V c (ix3 b n o)) ?_)
  have hg := Tiles.runTot_ext (M := EReal) (fun k : Fin 4096 => Aarr V c (ix3 b n k) * Sarr V c (ix3 b k o)) 2048 1 (by norm_num)
  rw [← hg, Tiles.runTot_succ, Tiles.runTot_zero]
  refine congrArg₂ (· + ·) (congrArg (0 + ·) (Finset.sum_congr rfl fun k _ => ?_)) (Finset.sum_congr rfl fun k _ => ?_)
  · have hk : 0 * 2048 + k.val < 4096 := by have := k.isLt; omega
    rw [Tiles.ext_of_lt _ hk]
    exact congrArg₂ (· * ·)
      (iblk2_0_at V c ⟨t.val - 1, prev2_lt t⟩ (0 : Fin 1) r k b n ⟨0 * 2048 + k.val, hk⟩
        (by show b.val = (t.val - 1) / 4; rw [hb]; omega) (by show n.val = (t.val - 1) / 2 % 2 * 2048 + r.val; rw [hn]; omega)
        (by show 0 * 2048 + k.val = (t.val - 1) % 2 * 2048 + k.val; omega))
      (iblk2_1_at V c ⟨t.val - 1, prev2_lt t⟩ (0 : Fin 1) k o b ⟨0 * 2048 + k.val, hk⟩
        (by show b.val = (t.val - 1) / 4; rw [hb]; omega) (by show 0 * 2048 + k.val = (t.val - 1) % 2 * 2048 + k.val; omega))
  · have hk : (0 + 1) * 2048 + k.val < 4096 := by have := k.isLt; omega
    rw [Tiles.ext_of_lt _ hk]
    exact congrArg₂ (· * ·)
      (iblk2_0_at V c t (0 : Fin 1) r k b n ⟨(0 + 1) * 2048 + k.val, hk⟩ hb hn (by show (0 + 1) * 2048 + k.val = t.val % 2 * 2048 + k.val; omega))
      (iblk2_1_at V c t (0 : Fin 1) k o b ⟨(0 + 1) * 2048 + k.val, hk⟩ hb (by show (0 + 1) * 2048 + k.val = t.val % 2 * 2048 + k.val; omega))

/-- What an odd point writes back is the block of the layer's output its rectangle names. -/
theorem flushed2_eq (c : Dev nD) (t : Fin cfg2.N) (hf : (cfg2.win 4).flush t = true) :
    (dat2 V c).flushed 4 t = ((cfg2.win 4).blk t).view.read (Elt Ideal) (O2 V c) := by
  have h1 : t.val % 2 = 1 := (flush2_4 t).mp hf
  have hi := (idx2 t).2.2.2.2.1
  show (cfg2.win 4).cut (grid2.coords t) ((dat2 V c).after 4 t) = _
  rw [after2_4]
  funext y
  obtain ⟨u, r, o, rfl⟩ : ∃ (u : Fin 1) (r : Fin 2048) (o : Fin 64), y = ix3 u r o := ⟨y 0, y 1, y 2, eq_ix3 y⟩
  rw [View.read_apply]
  have he : ((cfg2.win 4).blk t).view.emb (ix3 u r o)
      = ix3 (⟨t.val / 4, gb_lt t⟩ : Fin 4) (⟨t.val / 2 % 2 * 2048 + r.val, row2_lt t r⟩ : Fin 4096) o := by
    funext a
    apply Fin.ext
    match a with
    | ⟨0, _⟩ => show win2_4.index t 0 * 1 + 1 * u.val = t.val / 4; rw [hi.1]; omega
    | ⟨1, _⟩ => show win2_4.index t 1 * 2048 + 1 * r.val = t.val / 2 % 2 * 2048 + r.val; rw [hi.2.1]; omega
    | ⟨2, _⟩ => show win2_4.index t 2 * 64 + 1 * o.val = o.val; rw [hi.2.2]; omega
  rw [he]
  show (outsAt2 V c t.val t.isLt).1 (ix3 u r o) = _
  exact out2_odd V c t h1 u r o _ _ rfl rfl

/-- Row `n` of graph `b` is covered by the odd point `4 b + 2 (n / 2048) + 1`, so the result array ends holding the layer's output. -/
theorem final2 (c : Dev nD) : (dat2 V c).arrAt 4 cfg2.N = O2 V c :=
  (dat2 V c).arrAt_eq_of_cover 4 (O2 V c) (flushed2_eq V c) fun i => by
    have hN : cfg2.N = 16 := N_2
    have h0 : (i 0 : Nat) < 4 := (i 0).isLt
    have h1 : (i 1 : Nat) < 4096 := (i 1).isLt
    have h2 : (i 2 : Nat) < 64 := (i 2).isLt
    have htt : 4 * (i 0 : Nat) + 2 * ((i 1 : Nat) / 2048) + 1 < cfg2.N := by rw [hN]; omega
    refine ⟨⟨4 * (i 0 : Nat) + 2 * ((i 1 : Nat) / 2048) + 1, htt⟩, (flush2_4 _).mpr (by show (4 * (i 0 : Nat) + 2 * ((i 1 : Nat) / 2048) + 1) % 2 = 1; omega), ?_⟩
    have hi := (idx2 ⟨4 * (i 0 : Nat) + 2 * ((i 1 : Nat) / 2048) + 1, htt⟩).2.2.2.2.1
    show i ∈ ((View.whole main_v2).slice (win2_4.rect ⟨4 * (i 0 : Nat) + 2 * ((i 1 : Nat) / 2048) + 1, htt⟩)).set
    rw [View.set_slice_whole, Rect.mem_set_unit]
    intro a
    match a with
    | ⟨0, _⟩ => show win2_4.index ⟨4 * (i 0 : Nat) + 2 * ((i 1 : Nat) / 2048) + 1, htt⟩ 0 * win2_4.size 0 ≤ (i 0 : Nat) ∧ (i 0 : Nat) < win2_4.index ⟨4 * (i 0 : Nat) + 2 * ((i 1 : Nat) / 2048) + 1, htt⟩ 0 * win2_4.size 0 + win2_4.xsize (grid2.coords ⟨4 * (i 0 : Nat) + 2 * ((i 1 : Nat) / 2048) + 1, htt⟩) 0
                rw [hi.1]; show (4 * (i 0 : Nat) + 2 * ((i 1 : Nat) / 2048) + 1) / 4 * 1 ≤ (i 0 : Nat) ∧ (i 0 : Nat) < (4 * (i 0 : Nat) + 2 * ((i 1 : Nat) / 2048) + 1) / 4 * 1 + 1; omega
    | ⟨1, _⟩ => show win2_4.index ⟨4 * (i 0 : Nat) + 2 * ((i 1 : Nat) / 2048) + 1, htt⟩ 1 * win2_4.size 1 ≤ (i 1 : Nat) ∧ (i 1 : Nat) < win2_4.index ⟨4 * (i 0 : Nat) + 2 * ((i 1 : Nat) / 2048) + 1, htt⟩ 1 * win2_4.size 1 + win2_4.xsize (grid2.coords ⟨4 * (i 0 : Nat) + 2 * ((i 1 : Nat) / 2048) + 1, htt⟩) 1
                rw [hi.2.1]; show (4 * (i 0 : Nat) + 2 * ((i 1 : Nat) / 2048) + 1) / 2 % 2 * 2048 ≤ (i 1 : Nat) ∧ (i 1 : Nat) < (4 * (i 0 : Nat) + 2 * ((i 1 : Nat) / 2048) + 1) / 2 % 2 * 2048 + 2048; omega
    | ⟨2, _⟩ => show win2_4.index ⟨4 * (i 0 : Nat) + 2 * ((i 1 : Nat) / 2048) + 1, htt⟩ 2 * win2_4.size 2 ≤ (i 2 : Nat) ∧ (i 2 : Nat) < win2_4.index ⟨4 * (i 0 : Nat) + 2 * ((i 1 : Nat) / 2048) + 1, htt⟩ 2 * win2_4.size 2 + win2_4.xsize (grid2.coords ⟨4 * (i 0 : Nat) + 2 * ((i 1 : Nat) / 2048) + 1, htt⟩) 2
                rw [hi.2.2]; show 0 * 64 ≤ (i 2 : Nat) ∧ (i 2 : Nat) < 0 * 64 + 64; omega

end Cert.KernelIdeal.Hand

end
-- ==== Proof.KIValue.lean ====
import proofs.«133457_j80410377716426_1_alg».proof.Proof.Gen.KernelIdeal.Launch
import proofs.«133457_j80410377716426_1_alg».proof.Proof.Gen.KernelIdeal.Skeleton
import proofs.«133457_j80410377716426_1_alg».proof.Proof.Gen.KernelIdeal.Points
import proofs.«133457_j80410377716426_1_alg».proof.Proof.KIRun
import proofs.«133457_j80410377716426_1_alg».proof.Proof.KIVal2c
import proofs.«133457_j80410377716426_1_alg».proof.Proof.LibTiles
import proofs.«133457_j80410377716426_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

open Cert.Lib

variable (m : (ℓ : Loc nD τ sig) → Buf (Elt Ideal) ℓ) (ρ : Dev nD → PrngReg)

/-! # The program's result on the extended reals

The first call's result array holds the inverse square-root degrees of the adjacency batch, the second's the features
transformed and scaled by them, the third's their aggregate: put together, the layer's output as the specification
states it, as a function of the three argument arrays at launch. -/

theorem result_eq (c : Dev nD) :
    (dat2 (V2 m ρ) c).arrAt 4 cfg2.N
      = Cert.Gcn.G (m ((c : Thread nD τ).loc main_arg0)) (m ((c : Thread nD τ).loc main_arg1)) (m ((c : Thread nD τ).loc main_arg2)) := by
  have hD1 : V1 m ρ c main_v0 = D0 (V0 m ρ) c := (W1_arr m ρ c 1).trans (final0 (V0 m ρ) c)
  have hH1 : V1 m ρ c main_arg1 = m ((c : Thread nD τ).loc main_arg1) := W1_of_ne m ρ c main_arg1 (by decide)
  have hW1 : V1 m ρ c main_arg2 = m ((c : Thread nD τ).loc main_arg2) := W1_of_ne m ρ c main_arg2 (by decide)
  have hA2 : V2 m ρ c main_arg0 = m ((c : Thread nD τ).loc main_arg0) :=
    (W2_of_ne m ρ c main_arg0 (by decide)).trans ((W1_arr m ρ c 0).trans (((dat0 (V0 m ρ) c).arrAt_in 0 rfl _).trans (A_eq0 (V0 m ρ) c 0)))
  have hD2 : V2 m ρ c main_v0 = D0 (V0 m ρ) c :=
    (W2_arr m ρ c 2).trans (((dat1 (V1 m ρ) c).arrAt_in 2 rfl _).trans ((A_eq1 (V1 m ρ) c 2).trans hD1))
  have hS2 : V2 m ρ c main_v1 = S1 (V1 m ρ) c := (W2_arr m ρ c 3).trans (final1 (V1 m ρ) c)
  rw [final2]
  funext i
  obtain ⟨b, n, o, rfl⟩ : ∃ (b : Fin 4) (n : Fin 4096) (o : Fin 64), i = ix3 b n o := ⟨i 0, i 1, i 2, eq_ix3 i⟩
  rw [O2_apply, Cert.Gcn.G_apply]
  simp only [Darr, Aarr, Sarr]
  rw [hD2, hA2, hS2]
  simp only [S1_apply, Darr, Harr, Warr]
  rw [hD1, hH1, hW1]
  rfl

/-- Every weakly fair execution of the idealized kernel program terminates without a fault, its result array at the layer's
    output of the argument arrays at launch, the argument arrays unchanged. -/
theorem run_G : θ_run defs (onTc (τ := τ) (main (F := Ideal))) ⟨m, fun _ => 0, ρ⟩ (fun r => ∀ c : Dev nD,
      r.2.mem ((c.tc : Thread nD τ).loc main_v2)
        = Cert.Gcn.G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (result_eq m ρ c), (h c).2⟩) (run_all (F := Ideal) m ρ)

end Cert.KernelIdeal.Hand

end
-- ==== Proof.LibOneHot.lean ====
/-
  One-hot factors on the extended reals. A one-bit comparison word converted to a float is 1 or 0; two numbers below 2³²
  written as 32-bit words are equal words exactly when they are equal numbers, so an "equal" comparison of two such words,
  converted to a float, is 1 when the numbers agree and 0 otherwise (an identity matrix or a one-hot row built from two
  index counters); and a sum in which every term carries a factor that is 1 at one index and 0 at all others is the term
  at that index. The last needs no finiteness: `x * 0 = 0` and `x * 1 = x` hold at ±∞ as well.
-/
import Idealize.ShloMosaic.PureOps.Ideal
import Idealize.ShloMosaic.Lib.Affine

noncomputable section

namespace Cert.Lib.OneHot

open Idealize.ShloMosaic

/-- A one-bit word converted (unsigned) to a float, on the extended reals: 1 if the bit is set, 0 if not. -/
theorem bit_toEReal (φ : FTy) (b : BitVec 1) :
    (FloatOps.uitofp (F := Ideal) φ b : EReal) = if b = 1#1 then (1 : EReal) else 0 := by
  show ((b.toNat : ℝ) : EReal) = _
  obtain rfl | rfl : b = 0#1 ∨ b = 1#1 := by revert b; decide
  · rw [if_neg (by decide)]; norm_num
  · rw [if_pos rfl]; norm_num

/-- Two numbers below 2³², written as 32-bit words, are the same word only if they are the same number. -/
theorem ofNat32_inj {a b : ℕ} (ha : a < 2 ^ 32) (hb : b < 2 ^ 32) :
    BitVec.ofNat 32 a = BitVec.ofNat 32 b ↔ a = b := by
  constructor
  · intro h
    have e := congrArg BitVec.toNat h
    rwa [BitVec.toNat_ofNat, BitVec.toNat_ofNat, Nat.mod_eq_of_lt ha, Nat.mod_eq_of_lt hb] at e
  · rintro rfl; rfl

/-- Two counters below 2³² compared for equality as 32-bit words, the answer converted to a float: 1 when the counters
    agree, 0 when they do not. -/
theorem eq_words_toEReal (φ : FTy) {a b : ℕ} (ha : a < 2 ^ 32) (hb : b < 2 ^ 32) :
    (FloatOps.uitofp (F := Ideal) φ (IntOp.cmpi .eq (BitVec.ofNat 32 a) (BitVec.ofNat 32 b)) : EReal)
      = if a = b then (1 : EReal) else 0 := by
  rw [bit_toEReal]
  exact if_congr (IntOp.cmpi_eq.trans (ofNat32_inj ha hb)) rfl rfl

/-- A sum over `k` of `x k` times a factor that is 1 at `k₀` and 0 elsewhere is `x k₀`: every other term is
    `x k * 0 = 0`, whatever extended real `x k` is. -/
theorem sum_mul_single {ι : Type} [Fintype ι] [DecidableEq ι] (x : ι → EReal) (k₀ : ι) :
    ∑ k : ι, x k * (if k = k₀ then (1 : EReal) else 0) = x k₀ := by
  rw [Finset.sum_eq_single k₀]
  · rw [if_pos rfl, mul_one]
  · intro k _ hk
    rw [if_neg hk, mul_zero]
  · intro h
    exact absurd (Finset.mem_univ _) h

/-- The same with the one-hot factor on the left. -/
theorem sum_single_mul {ι : Type} [Fintype ι] [DecidableEq ι] (x : ι → EReal) (k₀ : ι) :
    ∑ k : ι, (if k = k₀ then (1 : EReal) else 0) * x k = x k₀ := by
  rw [← sum_mul_single x k₀]
  exact Finset.sum_congr rfl fun k _ => mul_comm _ _

end Cert.Lib.OneHot

end
-- ==== Proof.RefEye.lean ====
/-
  The identity matrix of the reference, read at an index.

  The reference builds the 4096×4096 identity matrix from two index counters: the entry at (i, j) is the comparison
  "i + 0 = j" of the two counters written as 32-bit words, converted to a float, and the matrix is then repeated over the
  batch.  Both counters are below 2³², so the words agree exactly when the numbers do: the entry is 1 on the diagonal and
  0 off it.
-/
import proofs.«133457_j80410377716426_1_alg».proof.Proof.Gen.ReferenceIdeal.Read
import proofs.«133457_j80410377716426_1_alg».proof.Proof.LibOneHot

noncomputable section

namespace Cert.Gcn.Ref

open Cert.ReferenceIdeal Cert.ReferenceIdeal.Read Idealize.ShloMosaic Idealize.ShloMosaic.ValueIdx

/-- The identity matrix, repeated over the batch, at an index: the Kronecker delta of the two node coordinates. -/
theorem eye_apply (b : Fin 4) (i j : Fin 4096) :
    val_main_v7 (F := Ideal) (ix3 b i j) = if i = j then (1 : EReal) else 0 := by
  rw [val_main_v7_apply, val_main_v6_apply, val_main_v5_apply, val_main_v4_apply, val_main_v3_apply, val_main_v0_apply,
    val_main_v1_apply, val_main_v2_apply, val_main_c_apply]
  show (FloatOps.uitofp (F := Ideal) .f32 (IntOp.cmpi .eq (IntOp.addi (BitVec.ofNat 32 i.val) 0#32) (BitVec.ofNat 32 j.val)) : EReal) = _
  have e : IntOp.addi (BitVec.ofNat 32 i.val) 0#32 = BitVec.ofNat 32 i.val := BitVec.add_zero _
  rw [e, Cert.Lib.OneHot.eq_words_toEReal .f32 (lt_trans i.isLt (by norm_num)) (lt_trans j.isLt (by norm_num))]
  exact if_congr Fin.val_inj rfl rfl

end Cert.Gcn.Ref

end
-- ==== Proof.AlgGcn.lean ====
/-
  The algebra behind a normalised graph convolution, over abstract finite index types.

  * Adding the identity matrix to a matrix raises every column sum by one:
    `∑ i, (a i + [i = j]) = (∑ i, a i) + 1`.  This holds on the extended reals as it stands, since addition there is
    commutative and associative and the Kronecker terms sum to the single 1.
  * For real entries, the row of `D^(-1/2) (A + I) D^(-1/2)` at node `n` applied to a column `h` is
    `∑ m, ((d n · (a m + [n = m])) · d m) · h m = d n · (∑ m, a m · (d m · h m) + d n · h n)`:
    distribute, and the Kronecker term keeps exactly the summand `m = n`.  Distributivity fails at the infinities of the
    extended reals, so the law is proved in the reals and transported along the coercion.
  * Real-valuedness is closed under products and finite sums, and the inverse square root of a positive real is real.
-/
import Idealize.ShloMosaic.PureOps.Ideal

noncomputable section

namespace Cert.Gcn.Alg

open Idealize.ShloMosaic
open scoped BigOperators

/-- The coercion of the reals into the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A Kronecker factor on the extended reals is the coercion of the real one. -/
theorem kron_coe (p : Prop) [Decidable p] : (if p then (1 : EReal) else 0) = ((if p then (1 : ℝ) else 0 : ℝ) : EReal) := by
  split_ifs <;> simp

/-- Adding the identity matrix raises the `j`-th column sum by one (on the extended reals, no finiteness needed). -/
theorem sum_add_kron {ι : Type*} [Fintype ι] [DecidableEq ι] (a : ι → EReal) (j : ι) :
    ∑ i, (a i + if i = j then (1 : EReal) else 0) = (∑ i, a i) + 1 := by
  rw [Finset.sum_add_distrib, Finset.sum_ite_eq', if_pos (Finset.mem_univ _)]

/-- The normalised row applied to a column, over the reals. -/
theorem real_law {ι : Type*} [Fintype ι] [DecidableEq ι] (a d h : ι → ℝ) (n : ι) :
    ∑ m, ((d n * (a m + if n = m then 1 else 0)) * d m) * h m
      = d n * ((∑ m, a m * (d m * h m)) + d n * h n) := by
  have e : ∀ m, ((d n * (a m + if n = m then 1 else 0)) * d m) * h m
      = d n * (a m * (d m * h m)) + (if n = m then d n * (d m * h m) else 0) := by
    intro m
    split_ifs <;> ring
  simp only [e]
  rw [Finset.sum_add_distrib, Finset.sum_ite_eq, if_pos (Finset.mem_univ _), ← Finset.mul_sum]
  ring

/-- The normalised row applied to a column, over the extended reals, for entries that are real numbers. -/
theorem ereal_law {ι : Type*} [Fintype ι] [DecidableEq ι] (a d h : ι → EReal) (n : ι)
    (ha : ∀ m, ∃ r : ℝ, a m = r) (hd : ∀ m, ∃ r : ℝ, d m = r) (hh : ∀ m, ∃ r : ℝ, h m = r) :
    ∑ m, ((d n * (a m + if n = m then (1 : EReal) else 0)) * d m) * h m
      = d n * ((∑ m, a m * (d m * h m)) + d n * h n) := by
  choose a' ha using ha
  choose d' hd using hd
  choose h' hh using hh
  simp only [ha, hd, hh, kron_coe, ← EReal.coe_mul, ← EReal.coe_add, ← coe_sum]
  exact congrArg _ (real_law a' d' h' n)

/-- A product of two real numbers is a real number. -/
theorem real_mul {x y : EReal} (hx : ∃ r : ℝ, x = r) (hy : ∃ r : ℝ, y = r) : ∃ r : ℝ, x * y = r := by
  obtain ⟨a, rfl⟩ := hx
  obtain ⟨b, rfl⟩ := hy
  exact ⟨a * b, (EReal.coe_mul a b).symm⟩

/-- A finite sum of real numbers is a real number. -/
theorem real_sum {ι : Type*} [Fintype ι] (f : ι → EReal) (hf : ∀ i, ∃ r : ℝ, f i = r) : ∃ r : ℝ, ∑ i, f i = r := by
  choose φ hφ using hf
  exact ⟨∑ i, φ i, by rw [coe_sum]; exact Finset.sum_congr rfl fun i _ => hφ i⟩

/-- The inverse square root of a positive real number is a real number. -/
theorem real_rsqrt {x : EReal} (hx : ∃ r : ℝ, x = r) (hpos : 0 < x) : ∃ r : ℝ, Ideal.rsqrt x = r := by
  obtain ⟨a, rfl⟩ := hx
  have ha : 0 < a := by exact_mod_cast hpos
  exact ⟨(Real.sqrt a)⁻¹, by rw [Ideal.rsqrt_coe, if_neg (not_lt.mpr ha.le), if_neg ha.ne']⟩

end Cert.Gcn.Alg

end
-- ==== Proof.RefDeg.lean ====
/-
  The degrees of the reference and their inverse square roots, read at an index.

  The reference adds the identity matrix to every adjacency matrix of the batch, sums each column (over the row
  coordinate, starting from zero) and takes the inverse square root.  The column sum of "adjacency plus identity" is the
  column sum of the adjacency plus one, on the extended reals as they stand.
-/
import proofs.«133457_j80410377716426_1_alg».proof.Proof.RefEye
import proofs.«133457_j80410377716426_1_alg».proof.Proof.AlgGcn
import proofs.«133457_j80410377716426_1_alg».proof.Proof.Spec

noncomputable section

namespace Cert.Gcn.Ref

open Cert.ReferenceIdeal Cert.ReferenceIdeal.Read Idealize.ShloMosaic Idealize.ShloMosaic.ValueIdx

/-- The adjacency with self-loops at an index. -/
theorem ai_apply (A : SA.Idx → EReal) (b : Fin 4) (i j : Fin 4096) :
    val_main_v8 (F := Ideal) A (ix3 b i j) = A (ix3 b i j) + if i = j then (1 : EReal) else 0 := by
  rw [val_main_v8_apply, eye_apply]
  rfl

/-- The column sums of the adjacency with self-loops are the specification's degrees. -/
theorem deg_apply (A : SA.Idx → EReal) (b : Fin 4) (j : Fin 4096) :
    val_main_v9 (F := Ideal) A (ix2 b j) = Cert.Gcn.deg A b j := by
  rw [val_main_v9_apply, val_main_cst_apply]
  have ei : ∀ k : Fin 4096, idx_main_v9 (ix2 b j) k = ix3 b k j := fun k =>
    funext fun a => Fin.ext (by match a with | ⟨0, _⟩ => rfl | ⟨1, _⟩ => rfl | ⟨2, _⟩ => rfl)
  simp only [ei, ai_apply]
  show Ideal.ofBits .f32 0x00000000#32 + _ = _
  rw [Ideal.ofBits_zero_f32, zero_add, Cert.Gcn.Alg.sum_add_kron]
  rfl

/-- The inverse square roots of the degrees. -/
theorem dinv_apply (A : SA.Idx → EReal) (b : Fin 4) (j : Fin 4096) :
    val_main_v10 (F := Ideal) A (ix2 b j) = Cert.Gcn.dinv A b j := by
  rw [val_main_v10_apply, deg_apply]
  rfl

end Cert.Gcn.Ref

end
-- ==== Proof.RefDad.lean ====
/-
  The normalised adjacency and the transformed features of the reference, read at an index.

  The normalised adjacency scales the row `n` and the column `m` of "adjacency plus identity" by the inverse square roots
  of the degrees of `n` and `m`; the inverse square roots reach the matrix through two broadcasts each (a unit axis is
  inserted, then repeated).  The transformed features are the product of the feature matrix with the weight matrix.
-/
import proofs.«133457_j80410377716426_1_alg».proof.Proof.RefDeg

noncomputable section

namespace Cert.Gcn.Ref

open Cert.ReferenceIdeal Cert.ReferenceIdeal.Read Idealize.ShloMosaic Idealize.ShloMosaic.ValueIdx

/-- The normalised adjacency at an index: row scale, times the adjacency with self-loops, times column scale. -/
theorem dad_apply (A : SA.Idx → EReal) (b : Fin 4) (n m : Fin 4096) :
    val_main_v16 (F := Ideal) A (ix3 b n m)
      = (Cert.Gcn.dinv A b n * (A (ix3 b n m) + if n = m then (1 : EReal) else 0)) * Cert.Gcn.dinv A b m := by
  have e1 : idx_main_v11 (idx_main_v12 (ix3 b n m)) = ix2 b n :=
    funext fun a => Fin.ext (by match a with | ⟨0, _⟩ => rfl | ⟨1, _⟩ => rfl)
  have e2 : idx_main_v14 (idx_main_v15 (ix3 b n m)) = ix2 b m :=
    funext fun a => Fin.ext (by match a with | ⟨0, _⟩ => rfl | ⟨1, _⟩ => rfl)
  rw [val_main_v16_apply, val_main_v13_apply, val_main_v12_apply, val_main_v11_apply, val_main_v15_apply,
    val_main_v14_apply, e1, e2, dinv_apply, dinv_apply, ai_apply]
  rfl

/-- The transformed features at an index. -/
theorem hw_apply (H : SH.Idx → EReal) (W : SW.Idx → EReal) (b : Fin 4) (n : Fin 4096) (o : Fin 64) :
    val_main_v17 (F := Ideal) H W (ix3 b n o) = Cert.Gcn.hw H W b n o := by
  rw [val_main_v17_apply]
  refine Finset.sum_congr rfl fun k _ => ?_
  have el : lidx_main_v17 (ix3 b n o) k = ix3 b n k :=
    funext fun a => Fin.ext (by match a with | ⟨0, _⟩ => rfl | ⟨1, _⟩ => rfl | ⟨2, _⟩ => rfl)
  have er : ridx_main_v17 (ix3 b n o) k = ix2 k o :=
    funext fun a => Fin.ext (by match a with | ⟨0, _⟩ => rfl | ⟨1, _⟩ => rfl)
  rw [el, er]

end Cert.Gcn.Ref

end
-- ==== Proof.RefValue.lean ====
/-
  The reference computes the specification's graph-convolution layer, where every entry is real and every degree positive.

  At node `n`, feature `o` of graph `b` the reference's last contraction is
  `∑ m, ((dinv n · (A n m + [n = m])) · dinv m) · hw m o`.  When the adjacency, the features and the weights are real
  numbers and every degree is positive, the degrees are positive reals, their inverse square roots are reals, and so are
  the transformed features; the sum is then the specification's
  `dinv n · (∑ m, A n m · (dinv m · hw m o) + dinv n · hw n o)` by distributivity in the reals.
-/
import proofs.«133457_j80410377716426_1_alg».proof.Proof.RefDad

noncomputable section

namespace Cert.Gcn.Ref

open Cert.ReferenceIdeal Cert.ReferenceIdeal.Read Idealize.ShloMosaic Idealize.ShloMosaic.ValueIdx

/-- The transformed features of real features and weights are real. -/
theorem real_hw (H : SH.Idx → EReal) (W : SW.Idx → EReal) (hH : ∀ i, ∃ r : ℝ, H i = r) (hW : ∀ i, ∃ r : ℝ, W i = r)
    (b : Fin 4) (n : Fin 4096) (o : Fin 64) : ∃ r : ℝ, Cert.Gcn.hw H W b n o = r :=
  Cert.Gcn.Alg.real_sum _ fun _ => Cert.Gcn.Alg.real_mul (hH _) (hW _)

/-- The degrees of a real adjacency are real. -/
theorem real_deg (A : SA.Idx → EReal) (hA : ∀ i, ∃ r : ℝ, A i = r) (b : Fin 4) (j : Fin 4096) :
    ∃ r : ℝ, Cert.Gcn.deg A b j = r := by
  obtain ⟨s, hs⟩ := Cert.Gcn.Alg.real_sum (fun i : Fin 4096 => A (ix3 b i j)) (fun _ => hA _)
  exact ⟨s + 1, by rw [Cert.Gcn.deg, hs, EReal.coe_add, EReal.coe_one]⟩

/-- The inverse square roots of positive real degrees are real. -/
theorem real_dinv (A : SA.Idx → EReal) (hA : ∀ i, ∃ r : ℝ, A i = r) (hdeg : ∀ b j, 0 < Cert.Gcn.deg A b j)
    (b : Fin 4) (j : Fin 4096) : ∃ r : ℝ, Cert.Gcn.dinv A b j = r :=
  Cert.Gcn.Alg.real_rsqrt (real_deg A hA b j) (hdeg b j)

/-- The reference's result is the specification's layer, for real entries and positive degrees. -/
theorem ref_eq_G (A : SA.Idx → EReal) (H : SH.Idx → EReal) (W : SW.Idx → EReal)
    (hA : ∀ i, ∃ r : ℝ, A i = r) (hH : ∀ i, ∃ r : ℝ, H i = r) (hW : ∀ i, ∃ r : ℝ, W i = r)
    (hdeg : ∀ b j, 0 < Cert.Gcn.deg A b j) :
    val_main_v18 (F := Ideal) A H W = Cert.Gcn.G A H W := by
  funext i
  obtain ⟨b, n, o, rfl⟩ : ∃ (b : Fin 4) (n : Fin 4096) (o : Fin 64), i = ix3 b n o := ⟨i 0, i 1, i 2, eq_ix3 i⟩
  rw [val_main_v18_apply, Cert.Gcn.G_apply]
  have el : ∀ k : Fin 4096, lidx_main_v18 (ix3 b n o) k = ix3 b n k := fun k =>
    funext fun a => Fin.ext (by match a with | ⟨0, _⟩ => rfl | ⟨1, _⟩ => rfl | ⟨2, _⟩ => rfl)
  have er : ∀ k : Fin 4096, ridx_main_v18 (ix3 b n o) k = ix3 b k o := fun k =>
    funext fun a => Fin.ext (by match a with | ⟨0, _⟩ => rfl | ⟨1, _⟩ => rfl | ⟨2, _⟩ => rfl)
  simp only [el, er, dad_apply, hw_apply]
  exact Cert.Gcn.Alg.ereal_law (fun m : Fin 4096 => A (ix3 b n m)) (fun m => Cert.Gcn.dinv A b m)
    (fun m => Cert.Gcn.hw H W b m o) n (fun _ => hA _) (fun m => real_dinv A hA hdeg b m) (fun m => real_hw H W hH hW b m o)

end Cert.Gcn.Ref

end
-- ==== Proof.PreDecode.lean ====
/-
  What the precondition says of the three argument arrays.

  The precondition is a conjunction of four "all entries" tests: the absolute value of every entry of the adjacency
  batch, of the feature batch and of the weight matrix is below +∞, and every column sum of "adjacency plus identity" is
  above zero.  On the extended reals |a| < +∞ says that `a` is a real number, and the column sum of "adjacency plus
  identity" is the specification's degree (the column sum of the adjacency, plus one).
-/
import proofs.«133457_j80410377716426_1_alg».proof.Proof.Gen.Pre_finite_inputs
import proofs.«133457_j80410377716426_1_alg».proof.Proof.RefDeg
import Idealize.ShloMosaic.Lib.ReduceAll

noncomputable section

namespace Cert.Gcn.Pre

open Idealize.ShloMosaic Idealize.ShloMosaic.ValueIdx

/-- The scalar shape has one index. -/
instance : Subsingleton Cert.Pre_finite_inputs.S_.Idx := ⟨fun _ _ => funext fun d => d.elim0⟩

/-- A Boolean written as a one-bit word is the word 1 exactly when it is true. -/
theorem ofBool_eq_one {b : Bool} : BitVec.ofBool b = 1#1 ↔ b = true := by cases b <;> decide

/-- An extended real whose absolute value is below +∞ (the float pattern `0x7F800000`) is a real number. -/
theorem real_of_abs_lt (a : EReal)
    (h : FloatOps.cmpf (F := Ideal) (φ := .f32) .olt (FloatOps.absf a) (FloatOps.ofBits .f32 0x7F800000#32) = 1#1) :
    ∃ r : ℝ, a = r := by
  have htop : Ideal.ofBits .f32 0x7F800000#32 = (⊤ : EReal) := by simp [Ideal.ofBits, Ideal.ieee]
  have hlt : max a (-a) < (⊤ : EReal) := by
    rw [← htop]
    exact of_decide_eq_true (ofBool_eq_one.1 h)
  induction a using EReal.rec with
  | bot => simp at hlt
  | coe r => exact ⟨r, rfl⟩
  | top => simp at hlt

/-- An extended real that compares above the float zero is positive. -/
theorem pos_of_gt (x : EReal)
    (h : FloatOps.cmpf (F := Ideal) (φ := .f32) .ogt x (FloatOps.ofBits .f32 0x00000000#32) = 1#1) : 0 < x := by
  have hz : Ideal.ofBits .f32 0x00000000#32 = (0 : EReal) := Ideal.ofBits_zero_f32
  rw [← hz]
  exact of_decide_eq_true (ofBool_eq_one.1 h)

variable [Cert.Pre_finite_inputs.Facts]

/-- Under the precondition every entry of the three arrays is a real number and every degree is positive. -/
theorem decode (A : SA.Idx → EReal) (H : SH.Idx → EReal) (W : SW.Idx → EReal)
    (h : Cert.Pre_finite_inputs.fn (F := Ideal) A H W = fun _ => 1#1) :
    (∀ i, ∃ r : ℝ, A i = r) ∧ (∀ i, ∃ r : ℝ, H i = r) ∧ (∀ i, ∃ r : ℝ, W i = r)
      ∧ (∀ b j, 0 < Cert.Gcn.deg A b j) := by
  have h0 := congrFun h ValueIdx.ix0
  dsimp only [Cert.Pre_finite_inputs.fn, Cert.Pre_finite_inputs.fn_part1] at h0
  obtain ⟨h123, hD⟩ := IntOp.andi_eq_one.1 h0
  obtain ⟨h12, hW⟩ := IntOp.andi_eq_one.1 h123
  obtain ⟨hA, hH⟩ := IntOp.andi_eq_one.1 h12
  refine ⟨fun i => real_of_abs_lt (A i) (Host.reduce_andi_all _ _ _ _ _ hA i),
    fun i => real_of_abs_lt (H i) (Host.reduce_andi_all _ _ _ _ _ hH i),
    fun i => real_of_abs_lt (W i) (Host.reduce_andi_all _ _ _ _ _ hW i), fun b j => ?_⟩
  have e := Host.reduce_andi_all _ _ _ _ _ hD (ix2 b j)
  have e' : FloatOps.cmpf (F := Ideal) (φ := .f32) .ogt (Cert.ReferenceIdeal.Read.val_main_v9 (F := Ideal) A (ix2 b j))
      (FloatOps.ofBits .f32 0x00000000#32) = 1#1 := e
  rw [Cert.Gcn.Ref.deg_apply] at e'
  exact pos_of_gt _ e'

end Cert.Gcn.Pre

end
-- ==== Proof.RefRun.lean ====
/-
  The reference's run, stated with the specification's layer.

  Every weakly fair execution of the reference terminates with its result array holding the composed term of its
  operations and its arguments unchanged.  Under the precondition every entry of the arguments is a real number and every
  degree is positive, so that term is the specification's graph-convolution layer of the arguments.
-/
import proofs.«133457_j80410377716426_1_alg».proof.Proof.RefValue
import proofs.«133457_j80410377716426_1_alg».proof.Proof.PreDecode

noncomputable section

namespace Cert.Gcn.Ref

open Idealize.ShloMosaic Idealize.ShloMosaic.TcCoe Idealize.SL.Sem

variable [Cert.Pre_finite_inputs.Facts]

/-- From any memory whose argument arrays satisfy the precondition on every device, the reference runs to the end,
    its result is the specification's layer of the arguments, and the arguments are unchanged. -/
theorem run_G (m' : (ℓ : Loc Cert.ReferenceIdeal.nD Cert.ReferenceIdeal.τ Cert.ReferenceIdeal.sig) → Buf (Elt Ideal) ℓ)
    (g' : Dev Cert.ReferenceIdeal.nD → PrngReg)
    (h : ∀ c : Dev Cert.ReferenceIdeal.nD,
      (Cert.Pre_finite_inputs.fn (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))) = (fun _ => 1#1)) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
      r.2.mem ((c.tc : Thread Cert.ReferenceIdeal.nD Cert.ReferenceIdeal.τ).loc Cert.ReferenceIdeal.main_v18) = Cert.Gcn.G (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)) :=
  (θ_run Cert.ReferenceIdeal.defs _ _).mono
    (fun _ hr c =>
      have d := Cert.Gcn.Pre.decode _ _ _ (h c)
      ⟨(hr c).1.trans ((Cert.ReferenceIdeal.Read.val_main_v18_eq _ _ _).trans
        (ref_eq_G _ _ _ d.1 d.2.1 d.2.2.1 d.2.2.2)), (hr c).2⟩)
    (Cert.ReferenceIdeal.Value.run (F := Ideal) m' g')

end Cert.Gcn.Ref

end
-- ==== Proof.lean ====
/-
  The certificate of a graph-convolution layer, `out = D^(-1/2) (A + I) D^(-1/2) H W` with `D` the diagonal of column
  degrees of `A + I`, computed by three kernels against its plain array-level reference.

  The kernel program never forms the normalised adjacency matrix. A first kernel sums the columns of `A` tile by tile
  and stores `d = (colsum + 1)^(-1/2)`; a second stores `s = d · (H W)`, each row of the transformed features scaled by its
  node's factor; a third accumulates `A s` over two column halves and stores `d · (A s + s)`. The reference adds the
  identity to `A`, sums its columns, scales rows and columns by the inverse square-root degrees and multiplies by `H W`.

  On the extended reals the two agree where the reference's inverse square root is taken of a positive number: the
  precondition states that every input is finite and every column degree of `A + I` is positive. Then every factor `d` is
  a positive real, everything in sight is real, and the identity
      Σ_m (d_n (A_nm + [n = m]) d_m) hw_m = d_n (Σ_m A_nm (d_m hw_m) + d_n hw_n)
  is distributivity over the reals with the self-loop term split off (the reference's side, `Cert.Gcn.Ref`). The kernel's
  side needs no finiteness: its tile-by-tile running totals are the full sums in any commutative additive monoid, and its
  result is the specification `Cert.Gcn.G` as it stands (`Cert.KernelIdeal.Hand.run_G`).

  The frames of the two kernel programs (every weakly fair execution terminates, nothing faults, the arguments end
  unchanged) come from the same run, stated at any float instance: each kernel's body is run once per case of its
  branches, the accumulators carried between grid points ride in the invariant, and the third kernel's two windows onto
  the scaled features each hold half of that array. The reference's frame is its generated run with the result dropped.
  Nothing was rewritten by the idealization, so the `preserves` conjunct is `True`.
-/
import proofs.«133457_j80410377716426_1_alg».proof.Defs
import proofs.«133457_j80410377716426_1_alg».proof.Proof.Gen.Kernel
import proofs.«133457_j80410377716426_1_alg».proof.Proof.Gen.KernelIdeal
import proofs.«133457_j80410377716426_1_alg».proof.Proof.Gen.ReferenceIdeal
import proofs.«133457_j80410377716426_1_alg».proof.Proof.Gen.ReferenceIdeal.Run
import proofs.«133457_j80410377716426_1_alg».proof.Proof.Gen.ReferenceIdeal.Read
import proofs.«133457_j80410377716426_1_alg».proof.Proof.Gen.Pre_finite_inputs
import proofs.«133457_j80410377716426_1_alg».proof.Proof.KRun
import proofs.«133457_j80410377716426_1_alg».proof.Proof.KIValue
import proofs.«133457_j80410377716426_1_alg».proof.Proof.RefRun
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ =>
  (θ_run Cert.Kernel.defs _ _).mono (fun _ h c => (h c).2) (Cert.Kernel.Hand.run_all (F := Bits) m ρ)

theorem frame_ki : Cert.frame_KernelIdeal := fun m ρ _ =>
  (θ_run Cert.KernelIdeal.defs _ _).mono (fun _ h c => (h c).2) (Cert.KernelIdeal.Hand.run_all (F := Ideal) m ρ)

theorem frame_ri : Cert.frame_ReferenceIdeal := fun m ρ _ =>
  (θ_run Cert.ReferenceIdeal.defs _ _).mono (fun _ h c => (h c).2) (Cert.ReferenceIdeal.Value.run (F := Ideal) m ρ)

/-- Both programs end with the layer's output `Cert.Gcn.G` of the argument arrays: the kernel program whatever the
    arguments hold, the reference where they are finite and every degree is positive — which the precondition says of the
    kernel's arguments, and so of the reference's, the two memories agreeing on them. -/
theorem algebraic : Cert.algebraic_KernelIdeal_ReferenceIdeal := by
  intro m ρ m' ρ' hpre hagree
  refine ⟨fun c => Cert.Gcn.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Hand.run_G m ρ, ?_⟩
  have hp' : ∀ c : Dev Cert.ReferenceIdeal.nD,
      (Cert.Pre_finite_inputs.fn (F := Ideal) (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))) = (fun _ => 1#1) := by
    intro c
    rw [(hagree c).1, (hagree c).2.1, (hagree c).2.2]
    exact hpre c
  refine (θ_run Cert.ReferenceIdeal.defs _ _).mono (fun _ hr c => ⟨(hr c).1.trans ?_, (hr c).2⟩) (Cert.Gcn.Ref.run_G m' ρ' hp')
  show Cert.Gcn.G _ _ _ = Cert.Gcn.G _ _ _
  rw [(hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
